-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x32 : Shape := ⟨2, ![800000, 32]⟩
abbrev S50000x3 : Shape := ⟨2, ![50000, 3]⟩
abbrev S291x128 : Shape := ⟨2, ![291, 128]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S50000x3 : S_.BroadcastsInDim S50000x3 (![] : Fin 0 → Fin S50000x3.rank)
  reducesTo_S50000x3_S_d0_1 : S50000x3.ReducesTo [0, 1] S_
  bcast_S_S291x128 : S_.BroadcastsInDim S291x128 (![] : Fin 0 → Fin S291x128.rank)
  reducesTo_S291x128_S_d0_1 : S291x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_

variable [Facts]

def fn_part3 {F : FTy → Type} [FloatOps F] (main_arg12 : FVec F S128 .f32) (main_arg13 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg8 : FVec F S256x128 .f32) (main_arg9 : FVec F S128 .f32) (main_arg10 : FVec F S128x128 .f32) (main_arg11 : FVec F S128 .f32) (main_arg12 : FVec F S128 .f32) (main_arg13 : FVec F S128 .f32) (main_v33 : IVec S_ 1) : IVec S_ 1 :=
  let main_v34 : FVec F S256x128 .f32 := Host.absf main_arg8
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S128 .f32) (main_arg6 : FVec F S128x128 .f32) (main_arg7 : FVec F S128 .f32) (main_arg8 : FVec F S256x128 .f32) (main_arg9 : FVec F S128 .f32) (main_arg10 : FVec F S128x128 .f32) (main_arg11 : FVec F S128 .f32) (main_arg12 : FVec F S128 .f32) (main_arg13 : FVec F S128 .f32) (main_v13 : IVec S_ 1) (main_v16 : IVec S291x128 1) : IVec S_ 1 :=
  let main_c_5 : IVec S_ 1 := constantI S_ 1 1#1
  let main_v17 : IVec S_ 1 := (fun x v => Host.reduce IntOp.andi x v reducesTo_S291x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x128 .f32) (main_arg1 : IVec S2x800000 32) (main_arg2 : FVec F S800000x32 .f32) (main_arg3 : FVec F S50000x3 .f32) (main_arg4 : FVec F S291x128 .f32) (main_arg5 : FVec F S128 .f32) (main_arg6 : FVec F S128x128 .f32) (main_arg7 : FVec F S128 .f32) (main_arg8 : FVec F S256x128 .f32) (main_arg9 : FVec F S128 .f32) (main_arg10 : FVec F S128x128 .f32) (main_arg11 : FVec F S128 .f32) (main_arg12 : FVec F S128 .f32) (main_arg13 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x32 .f32 := Host.absf main_arg2
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S50000x3 .f32 := Host.absf main_arg3
  let main_cst_2 : FVec F S_ .f32 := constant S_ .f32 0x7F800000#32
  let main_v10 : FVec F S50000x3 .f32 := broadcastInDim S50000x3 ![] bcast_S_S50000x3 main_cst_2
  let main_v11 : IVec S50000x3 1 := cmpf .olt main_v9 main_v10
  let main_c_3 : IVec S_ 1 := constantI S_ 1 1#1
  let main_v12 : IVec S_ 1 := (fun x v => Host.reduce IntOp.andi x v reducesTo_S50000x3_S_d0_1 h_S_) main_v11 main_c_3
  let main_v13 : IVec S_ 1 := andi main_v8 main_v12
  let main_v14 : FVec F S291x128 .f32 := Host.absf main_arg4
  let main_cst_4 : FVec F S_ .f32 := constant S_ .f32 0x7F800000#32
  let main_v15 : FVec F S291x128 .f32 := broadcastInDim S291x128 ![] bcast_S_S291x128 main_cst_4
  let main_v16 : IVec S291x128 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S2x800000 : Shape := ⟨2, ![2, 800000]⟩
abbrev S800000x32 : Shape := ⟨2, ![800000, 32]⟩
abbrev S50000x3 : Shape := ⟨2, ![50000, 3]⟩
abbrev S291x128 : Shape := ⟨2, ![291, 128]⟩
abbrev S128 : Shape := ⟨1, ![128]⟩
abbrev S128x128 : Shape := ⟨2, ![128, 128]⟩
abbrev S256x128 : Shape := ⟨2, ![256, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x3 : Shape := ⟨2, ![800000, 3]⟩
abbrev S800000x35 : Shape := ⟨2, ![800000, 35]⟩
abbrev S802816x128 : Shape := ⟨2, ![802816, 128]⟩
abbrev S802816x35 : Shape := ⟨2, ![802816, 35]⟩
abbrev S802816 : Shape := ⟨1, ![802816]⟩
abbrev S35x128 : Shape := ⟨2, ![35, 128]⟩
abbrev S4096x128 : Shape := ⟨2, ![4096, 128]⟩
abbrev S4096x35 : Shape := ⟨2, ![4096, 35]⟩
abbrev S1x128 : Shape := ⟨2, ![1, 128]⟩
abbrev S50001x128 : Shape := ⟨2, ![50001, 128]⟩
abbrev S802816x1 : Shape := ⟨2, ![802816, 1]⟩
abbrev S2000x128 : Shape := ⟨2, ![2000, 128]⟩
abbrev S2000 : Shape := ⟨1, ![2000]⟩
abbrev S2000x1 : Shape := ⟨2, ![2000, 1]⟩

abbrev nBuf : Space → Nat
  | .hbm => 80
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x32, .f32⟩
  | .hbm, ⟨3, _⟩ => ⟨S50000x3, .f32⟩
  | .hbm, ⟨4, _⟩ => ⟨S291x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x3, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x3, .f32⟩
  | .hbm, ⟨54, _⟩ => ⟨S800000x3, .f32⟩
  | .hbm, ⟨55, _⟩ => ⟨S800000x35, .f32⟩
  | .hbm, ⟨56, _⟩ => ⟨S_, .i32⟩
  | .hbm, ⟨57, _⟩ => ⟨S_, .f32⟩
  | .hbm, ⟨58, _⟩ => ⟨S802816x128, .f32⟩
  | .hbm, ⟨59, _⟩ => ⟨S_, .i32⟩
  | .hbm, ⟨60, _⟩ => ⟨S_, .f32⟩
  | .hbm, ⟨61, _⟩ => ⟨S802816x128, .f32⟩
  | .hbm, ⟨62, _⟩ => ⟨S_, .i32⟩
  | .hbm, ⟨63, _⟩ => ⟨S_, .f32⟩
  | .hbm, ⟨64, _⟩ => ⟨S802816x35, .f32⟩
  | .hbm, ⟨65, _⟩ => ⟨S_, .i32⟩
  | .hbm, ⟨66, _⟩ => ⟨S_, .i32⟩
  | .hbm, ⟨67, _⟩ => ⟨S802816, .i32⟩
  | .hbm, ⟨68, _⟩ => ⟨S128x128, .f32⟩
  | .hbm, ⟨69, _⟩ => ⟨S128x128, .f32⟩
  | .hbm, ⟨70, _⟩ => ⟨S35x128, .f32⟩
  | .hbm, ⟨71, _⟩ => ⟨S802816x128, .f32⟩
  | .hbm, ⟨72, _⟩ => ⟨S_, .f32⟩
  | .hbm, ⟨73, _⟩ => ⟨S50001x128, .f32⟩
  | .hbm, ⟨74, _⟩ => ⟨S802816x1, .i32⟩
  | .hbm, ⟨75, _⟩ => ⟨S50001x128, .f32⟩
  | .hbm, ⟨76, _⟩ => ⟨S50000x128, .f32⟩
  | .hbm, ⟨77, _⟩ => ⟨S128x128, .f32⟩
  | .hbm, ⟨78, _⟩ => ⟨S128x128, .f32⟩
  | .hbm, ⟨79, _⟩ => ⟨S50000x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x35, .f32⟩
  | .local _ .vmem, ⟨5, _⟩ => ⟨S4096x35, .f32⟩
  | .local _ .vmem, ⟨6, _⟩ => ⟨S128x128, .f32⟩
  | .local _ .vmem, ⟨7, _⟩ => ⟨S128x128, .f32⟩
  | .local _ .vmem, ⟨8, _⟩ => ⟨S35x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S4096x128, .f32⟩
  | .local _ .vmem, ⟨13, _⟩ => ⟨S4096x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x128, .f32⟩
  | .local _ .vmem, ⟨19, _⟩ => ⟨S128x128, .f32⟩
  | .local _ .vmem, ⟨20, _⟩ => ⟨S128, .f32⟩
  | .local _ .vmem, ⟨21, _⟩ => ⟨S128x128, .f32⟩
  | .local _ .vmem, ⟨22, _⟩ => ⟨S128, .f32⟩
  | .local _ .vmem, ⟨23, _⟩ => ⟨S128, .f32⟩
  | .local _ .vmem, ⟨24, _⟩ => ⟨S128, .f32⟩
  | .local _ .vmem, ⟨25, _⟩ => ⟨S2000x128, .f32⟩
  | .local _ .vmem, ⟨26, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_call0_v0 : Ref sig .tc := ⟨.hbm, 57, rfl⟩
abbrev main_v34 : Ref sig .tc := ⟨.hbm, 58, rfl⟩
abbrev main_c_8 : Ref sig .tc := ⟨.hbm, 59, rfl⟩
abbrev main_call1_v0 : Ref sig .tc := ⟨.hbm, 60, rfl⟩
abbrev main_v35 : Ref sig .tc := ⟨.hbm, 61, rfl⟩
abbrev main_c_9 : Ref sig .tc := ⟨.hbm, 62, rfl⟩
abbrev main_call2_v0 : Ref sig .tc := ⟨.hbm, 63, rfl⟩
abbrev main_v36 : Ref sig .tc := ⟨.hbm, 64, rfl⟩
abbrev main_c_10 : Ref sig .tc := ⟨.hbm, 65, rfl⟩
abbrev main_call3_v0 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg9_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem9_1 : DmaSem sig := 26

abbrev nD : Nat := 1
abbrev τ : Topo := Topo.v7x

variable {F : FTy → Type} [FloatOps F]

abbrev grid0 : Pipeline.Grid := ⟨1, ![196], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x35 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S35x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x32_S800000x3_S800000x35_d1 : Shape.Concatenates [S800000x32, S800000x3] S800000x35 1
  pads_S800000x128_S802816x128_028160_000 : S800000x128.Pads (![0, 0] : Fin 2 → Nat) ![2816, 0] ![0, 0] S802816x128
  h_S_ : 0 < S_.numel
  pads_S800000x35_S802816x35_028160_000 : S800000x35.Pads (![0, 0] : Fin 2 → Nat) ![2816, 0] ![0, 0] S802816x35
  pads_S800000_S802816_028160 : S800000.Pads (![0] : Fin 1 → Nat) ![2816] ![0] S802816
  slices_S291x128_S128x128_0_0 : S291x128.Slices ![0, 0] S128x128
  slices_S291x128_S128x128_128_0 : S291x128.Slices ![128, 0] S128x128
  slices_S291x128_S35x128_256_0 : S291x128.Slices ![256, 0] S35x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  bitsLt_bf16_f32 : FTy.bits .bf16 < FTy.bits .f32
  inb_S4096x35_S4096x35_0_0 : ∀ a, (![0, 0] : Fin 2 → Nat) a + S4096x35.size a ≤ S4096x35.size a
  h_S4096x35 : 0 < S4096x35.numel
  shapeCasts_S4096x35_S4096x35 : S4096x35.ShapeCasts S4096x35
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S35x128_S35x128_0_0 : ∀ a, (![0, 0] : Fin 2 → Nat) a + S35x128.size a ≤ S35x128.size a
  h_S35x128 : 0 < S35x128.numel
  shapeCasts_S35x128_S35x128 : S35x128.ShapeCasts S35x128
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  bcast_S_S50001x128 : S_.BroadcastsInDim S50001x128 (![] : Fin 0 → Fin S50001x128.rank)
  bcast_S802816_S802816x1_0 : S802816.BroadcastsInDim S802816x1 (![0] : Fin 1 → Fin S802816x1.rank)
  slices_S50001x128_S50000x128_0_0 : S50001x128.Slices ![0, 0] S50000x128
  slices_S256x128_S128x128_0_0 : S256x128.Slices ![0, 0] S128x128
  slices_S256x128_S128x128_128_0 : S256x128.Slices ![128, 0] S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  gather_S50000x128_S800000x1_S800000x128_1_0_n_n_0_1_1128_wf : GatherDims.WF S50000x128 S800000x1 S800000x128 [1] [0] [] [0] [] 1 ![1, 128]
  gather_S50000x3_S800000x1_S800000x3_1_0_n_n_0_1_13_wf : GatherDims.WF S50000x3 S800000x1 S800000x3 [1] [0] [] [0] [] 1 ![1, 3]
  dot_S4096x128_S128x128_S4096x128_1_0_0_1_n_n_wf : DotDims.WF S4096x128 S128x128 S4096x128 [1] [0] [0] [1] [] []
  dot_S4096x35_S35x128_S4096x128_1_0_0_1_n_n_wf : DotDims.WF S4096x35 S35x128 S4096x128 [1] [0] [0] [1] [] []
  scatter_S50001x128_S802816x1_S802816x128_1_0_0_1_wf : ScatterDims.WF S50001x128 S802816x1 S802816x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S802816x128.size a
  hwx0_0 : ∀ i : grid0.Coords, EltTy.bits .f32 = 32 ∨ (Rect.block (s := S802816x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S802816x128.size a
  hwx0_1 : ∀ i : grid0.Coords, EltTy.bits .f32 = 32 ∨ (Rect.block (s := S802816x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x35.size a ≤ S802816x35.size a
  hwx0_2 : ∀ i : grid0.Coords, EltTy.bits .f32 = 32 ∨ (Rect.block (s := S802816x35) S4096x35.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S35x128.size a ≤ S35x128.size a
  hwx0_5 : ∀ i : grid0.Coords, EltTy.bits .f32 = 32 ∨ (Rect.block (s := S35x128) S35x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4096x128.size a ≤ S802816x128.size a
  hwx0_9 : ∀ i : grid0.Coords, EltTy.bits .f32 = 32 ∨ (Rect.block (s := S802816x128) S4096x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S50000x128.size a
  hwx1_9 : ∀ i : grid1.Coords, EltTy.bits .f32 = 32 ∨ (Rect.block (s := S50000x128) S2000x128.size (cc1_transform_9 i) (hinb1_9 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x35_S35x128_S4096x128_1_0_0_1_n_n : DotDims S4096x35 S35x128 S4096x128 where
  lhsContracting := [1]
  rhsContracting := [0]
  lhsNonContracting := [0]
  rhsNonContracting := [1]
  lhsBatch := []
  rhsBatch := []
  wf := dot_S4096x35_S35x128_S4096x128_1_0_0_1_n_n_wf
def scatter_S50001x128_S802816x1_S802816x128_1_0_0_1 : ScatterDims S50001x128 S802816x1 S802816x128 where
  updateWindowDims := [1]
  insertedWindowDims := [0]
  scatterDimsToOperandDims := [0]
  indexVectorDim := 1
  wf := scatter_S50001x128_S802816x1_S802816x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v34) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v36) S4096x35.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v38) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v39) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v40) S35x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v41) S4096x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg11) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg12) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg13) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v48) S2000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x32 : Shape := ⟨2, ![800000, 32]⟩
abbrev S50000x3 : Shape := ⟨2, ![50000, 3]⟩
abbrev S291x128 : Shape := ⟨2, ![291, 128]⟩
abbrev S128 : Shape := ⟨1, ![128]⟩
abbrev S128x128 : Shape := ⟨2, ![128, 128]⟩
abbrev S256x128 : Shape := ⟨2, ![256, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x3 : Shape := ⟨2, ![800000, 3]⟩
abbrev S800000x128 : Shape := ⟨2, ![800000, 128]⟩
abbrev S800000x291 : Shape := ⟨2, ![800000, 291]⟩
abbrev S1x128 : Shape := ⟨2, ![1, 128]⟩
abbrev S50000x256 : Shape := ⟨2, ![50000, 256]⟩
abbrev S50000 : Shape := ⟨1, ![50000]⟩
abbrev S50000x1 : Shape := ⟨2, ![50000, 1]⟩

abbrev nBuf : Space → Nat
  | .hbm => 128
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x32, .f32⟩
  | .hbm, ⟨3, _⟩ => ⟨S50000x3, .f32⟩
  | .hbm, ⟨4, _⟩ => ⟨S291x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x3, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x3, .f32⟩
  | .hbm, ⟨36, _⟩ => ⟨S800000x3, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S800000x291, .f32⟩
  | .hbm, ⟨56, _⟩ => ⟨S800000x128, .f32⟩
  | .hbm, ⟨57, _⟩ => ⟨S1x128, .f32⟩
  | .hbm, ⟨58, _⟩ => ⟨S800000x128, .f32⟩
  | .hbm, ⟨59, _⟩ => ⟨S800000x128, .f32⟩
  | .hbm, ⟨60, _⟩ => ⟨S_, .f32⟩
  | .hbm, ⟨61, _⟩ => ⟨S800000x128, .f32⟩
  | .hbm, ⟨62, _⟩ => ⟨S800000x128, .f32⟩
  | .hbm, ⟨63, _⟩ => ⟨S800000x128, .f32⟩
  | .hbm, ⟨64, _⟩ => ⟨S1x128, .f32⟩
  | .hbm, ⟨65, _⟩ => ⟨S800000x128, .f32⟩
  | .hbm, ⟨66, _⟩ => ⟨S800000x128, .f32⟩
  | .hbm, ⟨67, _⟩ => ⟨S_, .f32⟩
  | .hbm, ⟨68, _⟩ => ⟨S50000x128, .f32⟩
  | .hbm, ⟨69, _⟩ => ⟨S800000x1, .i32⟩
  | .hbm, ⟨70, _⟩ => ⟨S50000x128, .f32⟩
  | .hbm, ⟨71, _⟩ => ⟨S50000x256, .f32⟩
  | .hbm, ⟨72, _⟩ => ⟨S50000x128, .f32⟩
  | .hbm, ⟨73, _⟩ => ⟨S1x128, .f32⟩
  | .hbm, ⟨74, _⟩ => ⟨S50000x128, .f32⟩
  | .hbm, ⟨75, _⟩ => ⟨S50000x128, .f32⟩
  | .hbm, ⟨76, _⟩ => ⟨S_, .f32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S1x128, .f32⟩
  | .hbm, ⟨81, _⟩ => ⟨S50000x128, .f32⟩
  | .hbm, ⟨82, _⟩ => ⟨S50000x128, .f32⟩
  | .hbm, ⟨83, _⟩ => ⟨S50000x128, .f32⟩
  | .hbm, ⟨84, _⟩ => ⟨S_, .f32⟩
  | .hbm, ⟨85, _⟩ => ⟨S50000, .f32⟩
  | .hbm, ⟨86, _⟩ => ⟨S50000x1, .f32⟩
  | .hbm, ⟨87, _⟩ => ⟨S_, .f32⟩
  | .hbm, ⟨88, _⟩ => ⟨S50000x1, .f32⟩
  | .hbm, ⟨89, _⟩ => ⟨S50000x1, .f32⟩
  | .hbm, ⟨90, _⟩ => ⟨S_, .i32⟩
  | .hbm, ⟨91, _⟩ => ⟨S_, .f32⟩
  | .hbm, ⟨92, _⟩ => ⟨S50000, .f32⟩
  | .hbm, ⟨93, _⟩ => ⟨S50000x1, .f32⟩
  | .hbm, ⟨94, _⟩ => ⟨S_, .f32⟩
  | .hbm, ⟨95, _⟩ => ⟨S50000x1, .f32⟩
  | .hbm, ⟨96, _⟩ => ⟨S50000x1, .f32⟩
  | .hbm, ⟨97, _⟩ => ⟨S50000x128, .f32⟩
  | .hbm, ⟨98, _⟩ => ⟨S50000x128, .f32⟩
  | .hbm, ⟨99, _⟩ => ⟨S50000x128, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S50000, .f32⟩
  | .hbm, ⟨105, _⟩ => ⟨S50000x1, .f32⟩
  | .hbm, ⟨106, _⟩ => ⟨S50000x1, .f32⟩
  | .hbm, ⟨107, _⟩ => ⟨S50000x1, .f32⟩
  | .hbm, ⟨108, _⟩ => ⟨S_, .f32⟩
  | .hbm, ⟨109, _⟩ => ⟨S_, .i1⟩
  | .hbm, ⟨110, _⟩ => ⟨S_, .f32⟩
  | .hbm, ⟨111, _⟩ => ⟨S_, .f32⟩
  | .hbm, ⟨112, _⟩ => ⟨S50000x1, .f32⟩
  | .hbm, ⟨113, _⟩ => ⟨S50000x1, .f32⟩
  | .hbm, ⟨114, _⟩ => ⟨S50000x128, .f32⟩
  | .hbm, ⟨115, _⟩ => ⟨S50000x128, .f32⟩
  | .hbm, ⟨116, _⟩ => ⟨S_, .f32⟩
  | .hbm, ⟨117, _⟩ => ⟨S50000x1, .f32⟩
  | .hbm, ⟨118, _⟩ => ⟨S50000x1, .f32⟩
  | .hbm, ⟨119, _⟩ => ⟨S50000x1, .f32⟩
  | .hbm, ⟨120, _⟩ => ⟨S50000x128, .f32⟩
  | .hbm, ⟨121, _⟩ => ⟨S50000x128, .f32⟩
  | .hbm, ⟨122, _⟩ => ⟨S1x128, .f32⟩
  | .hbm, ⟨123, _⟩ => ⟨S50000x128, .f32⟩
  | .hbm, ⟨124, _⟩ => ⟨S50000x128, .f32⟩
  | .hbm, ⟨125, _⟩ => ⟨S1x128, .f32⟩
  | .hbm, ⟨126, _⟩ => ⟨S50000x128, .f32⟩
  | .hbm, ⟨127, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_c_6 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_call0_cst : Ref sig .tc := ⟨.hbm, 60, rfl⟩
abbrev main_call0_v0 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_call1_cst : Ref sig .tc := ⟨.hbm, 76, rfl⟩
abbrev main_call1_v0 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_7 : Ref sig .tc := ⟨.hbm, 84, rfl⟩
abbrev main_v57 : Ref sig .tc := ⟨.hbm, 85, rfl⟩
abbrev main_v58 : Ref sig .tc := ⟨.hbm, 86, rfl⟩
abbrev main_cst_8 : Ref sig .tc := ⟨.hbm, 87, rfl⟩
abbrev main_v59 : Ref sig .tc := ⟨.hbm, 88, rfl⟩
abbrev main_v60 : Ref sig .tc := ⟨.hbm, 89, rfl⟩
abbrev main_c_9 : Ref sig .tc := ⟨.hbm, 90, rfl⟩
abbrev main_call2_cst : Ref sig .tc := ⟨.hbm, 91, rfl⟩
abbrev main_call2_v0 : Ref sig .tc := ⟨.hbm, 92, rfl⟩
abbrev main_call2_v1 : Ref sig .tc := ⟨.hbm, 93, rfl⟩
abbrev main_call2_cst_0 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_v6 : Ref sig .tc := ⟨.hbm, 99, rfl⟩
abbrev main_call2_v7 : Ref sig .tc := ⟨.hbm, 100, rfl⟩
abbrev main_call2_cst_1 : Ref sig .tc := ⟨.hbm, 101, rfl⟩
abbrev main_call2_v8 : Ref sig .tc := ⟨.hbm, 102, rfl⟩
abbrev main_call2_cst_2 : Ref sig .tc := ⟨.hbm, 103, rfl⟩
abbrev main_call2_v9 : Ref sig .tc := ⟨.hbm, 104, rfl⟩
abbrev main_call2_v10 : Ref sig .tc := ⟨.hbm, 105, rfl⟩
abbrev main_call2_v11 : Ref sig .tc := ⟨.hbm, 106, rfl⟩
abbrev main_call2_v12 : Ref sig .tc := ⟨.hbm, 107, rfl⟩
abbrev main_call2_cst_3 : Ref sig .tc := ⟨.hbm, 108, rfl⟩
abbrev main_call2_v13 : Ref sig .tc := ⟨.hbm, 109, rfl⟩
abbrev main_call2_cst_4 : Ref sig .tc := ⟨.hbm, 110, rfl⟩
abbrev main_call2_call0_v0 : Ref sig .tc := ⟨.hbm, 111, rfl⟩
abbrev main_call2_call0_v1 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_cst_10 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x32_S800000x3_S800000x291_d1 : Shape.Concatenates [S800000x128, S800000x128, S800000x32, S800000x3] S800000x291 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  gather_S50000x3_S800000x1_S800000x3_1_0_n_n_0_1_13_wf : GatherDims.WF S50000x3 S800000x1 S800000x3 [1] [0] [] [0] [] 1 ![1, 3]
  gather_S50000x128_S800000x1_S800000x128_1_0_n_n_0_1_1128_wf : GatherDims.WF S50000x128 S800000x1 S800000x128 [1] [0] [] [0] [] 1 ![1, 128]
  dot_S800000x291_S291x128_S800000x128_1_0_0_1_n_n_wf : DotDims.WF S800000x291 S291x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x291_S291x128_S800000x128_1_0_0_1_n_n : DotDims S800000x291 S291x128 S800000x128 where
  lhsContracting := [1]
  rhsContracting := [0]
  lhsNonContracting := [0]
  rhsNonContracting := [1]
  lhsBatch := []
  rhsBatch := []
  wf := dot_S800000x291_S291x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KerRun.lean ====
/-
  The kernel program's run with its result named.

  Every weakly fair execution of the two-call program terminates without a fault; the argument arrays end as launched,
  and the result array ends holding what the second call's write-backs leave in it: the last boundary's contents read at
  the result buffer. The launch, the host stretches and the two calls are the segments of the program's frame; the only
  thing added to that frame's statement is the one equation that reads the result buffer out of the last thread state.
-/
import proofs.«158953_j29669634081214_2_alg».proof.Proof.Gen.KernelIdeal.Frame

set_option maxRecDepth 16384

noncomputable section

namespace Cert.KernelIdeal.KerRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program runs, the arguments end unchanged, and the result buffer ends at the last boundary's contents. -/
theorem run : θ_run defs (onTc (τ := τ) (main (F := F))) ⟨m, fun _ => 0, ρ⟩ (fun r => ∀ c : Dev nD,
      r.2.mem ((c.tc : Thread nD τ).loc main_v48) = W12 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v48 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c)⟩)

end Cert.KernelIdeal.KerRun

end
-- ==== Proof.KerVals.lean ====
/-
  The host-side values of the kernel program, named.

  Before the first call the program slices the two rows of the edge table, wraps negative node numbers around, gathers
  the source and target feature rows and coordinate rows, subtracts the coordinates, puts the edge features and the
  coordinate differences side by side, and pads everything from 800000 to 802816 rows (the target numbers with the
  out-of-range number 50000, the floats with zero); it also cuts the first weight matrix into its three slabs. Between
  the calls it adds every message row onto the row of a zero [50001, 128] table that the padded target number names,
  drops the table's last row, and cuts the second weight matrix into its two slabs. Each of these values is named here
  as a function of the argument arrays, spelt with the very operations the program prints.
-/
import proofs.«158953_j29669634081214_2_alg».proof.Proof.Gen.KernelIdeal
import Idealize.ShloMosaic.PureOps.Ideal

noncomputable section

namespace Cert.KernelIdeal.KVals

open Cert.KernelIdeal Cert.KernelIdeal.Facts₀ Cert.KernelIdeal.Facts Idealize.ShloMosaic

variable {F : FTy → Type} [FloatOps F]

/-- Row 0 of the edge table: the source node numbers. -/
def srcRaw (ei : IVec S2x800000 32) : IVec S800000 32 :=
  shapeCast S800000 (extractStridedSlice S1x800000 ![0, 0] ei slices_S2x800000_S1x800000_0_0) shapeCasts_S1x800000_S800000
/-- Row 1 of the edge table: the target node numbers. -/
def dstRaw (ei : IVec S2x800000 32) : IVec S800000 32 :=
  shapeCast S800000 (extractStridedSlice S1x800000 ![1, 0] ei slices_S2x800000_S1x800000_1_0) shapeCasts_S1x800000_S800000
/-- A negative node number counted from the end: `v + 50000` where `v < 0`. -/
def wrap (v : IVec S800000 32) : IVec S800000 32 :=
  select (cmpi .slt v (broadcastInDim S800000 ![] bcast_S_S800000 (constantI S_ 32 0#32)))
    (addi v (broadcastInDim S800000 ![] bcast_S_S800000 (constantI S_ 32 50000#32))) v
/-- A vector of node numbers as a one-column table. -/
def col (v : IVec S800000 32) : IVec S800000x1 32 := broadcastInDim S800000x1 ![0] bcast_S800000_S800000x1_0 v

/-- The feature rows of the source nodes. -/
def xsrc (x : FVec F S50000x128 .f32) (ei : IVec S2x800000 32) : FVec F S800000x128 .f32 :=
  Host.gather gather_S50000x128_S800000x1_S800000x128_1_0_n_n_0_1_1128 x (col (wrap (srcRaw ei)))
/-- The feature rows of the target nodes. -/
def xdst (x : FVec F S50000x128 .f32) (ei : IVec S2x800000 32) : FVec F S800000x128 .f32 :=
  Host.gather gather_S50000x128_S800000x1_S800000x128_1_0_n_n_0_1_1128 x (col (wrap (dstRaw ei)))
/-- The coordinate rows of the target nodes. -/
def pdst (pos : FVec F S50000x3 .f32) (ei : IVec S2x800000 32) : FVec F S800000x3 .f32 :=
  Host.gather gather_S50000x3_S800000x1_S800000x3_1_0_n_n_0_1_13 pos (col (wrap (dstRaw ei)))
/-- The coordinate rows of the source nodes. -/
def psrc (pos : FVec F S50000x3 .f32) (ei : IVec S2x800000 32) : FVec F S800000x3 .f32 :=
  Host.gather gather_S50000x3_S800000x1_S800000x3_1_0_n_n_0_1_13 pos (col (wrap (srcRaw ei)))
/-- The coordinate differences, target minus source. -/
def rel (pos : FVec F S50000x3 .f32) (ei : IVec S2x800000 32) : FVec F S800000x3 .f32 := subf (pdst pos ei) (psrc pos ei)
/-- The edge's own 35 numbers: its 32 features, then the 3 coordinate differences. -/
def eaRel (attr : FVec F S800000x32 .f32) (pos : FVec F S50000x3 .f32) (ei : IVec S2x800000 32) : FVec F S800000x35 .f32 :=
  concatenate S800000x35 1 [⟨S800000x32, attr⟩, ⟨S800000x3, rel pos ei⟩] concatenates_S800000x32_S800000x3_S800000x35_d1

/-- The float padding value: the integer zero converted. -/
def padZero : FVec F S_ .f32 := sitofp .f32 (constantI S_ 32 0#32)
/-- 128-wide rows padded to 802816 rows. -/
def pad128 (x : FVec F S800000x128 .f32) : FVec F S802816x128 .f32 :=
  pad S802816x128 ![0, 0] ![2816, 0] ![0, 0] x (padZero (F := F)) pads_S800000x128_S802816x128_028160_000 h_S_
/-- 35-wide rows padded to 802816 rows. -/
def pad35 (x : FVec F S800000x35 .f32) : FVec F S802816x35 .f32 :=
  pad S802816x35 ![0, 0] ![2816, 0] ![0, 0] x (padZero (F := F)) pads_S800000x35_S802816x35_028160_000 h_S_
/-- The target numbers padded with the out-of-range number 50000. -/
def padDst (ei : IVec S2x800000 32) : IVec S802816 32 :=
  pad S802816 ![0] ![2816] ![0] (dstRaw ei) (constantI S_ 32 50000#32) pads_S800000_S802816_028160 h_S_

/-- The three slabs of the first message weight matrix. -/
def w1s (W : FVec F S291x128 .f32) : FVec F S128x128 .f32 := extractStridedSlice S128x128 ![0, 0] W slices_S291x128_S128x128_0_0
def w1d (W : FVec F S291x128 .f32) : FVec F S128x128 .f32 := extractStridedSlice S128x128 ![128, 0] W slices_S291x128_S128x128_128_0
def w1e (W : FVec F S291x128 .f32) : FVec F S35x128 .f32 := extractStridedSlice S35x128 ![256, 0] W slices_S291x128_S35x128_256_0
/-- The two slabs of the first update weight matrix. -/
def u1x (W : FVec F S256x128 .f32) : FVec F S128x128 .f32 := extractStridedSlice S128x128 ![0, 0] W slices_S256x128_S128x128_0_0
def u1a (W : FVec F S256x128 .f32) : FVec F S128x128 .f32 := extractStridedSlice S128x128 ![128, 0] W slices_S256x128_S128x128_128_0

/-- The summed messages: every message row added onto the row of a zero table its padded target number names, the
    table's extra last row dropped. -/
def aggr (ei : IVec S2x800000 32) (msg : FVec F S802816x128 .f32) : FVec F S50000x128 .f32 :=
  extractStridedSlice S50000x128 ![0, 0]
    (Host.scatterAdd scatter_S50001x128_S802816x1_S802816x128_1_0_0_1
      (broadcastInDim S50001x128 ![] bcast_S_S50001x128 (constant S_ .f32 0x00000000#32))
      (broadcastInDim S802816x1 ![0] bcast_S802816_S802816x1_0 (padDst ei)) msg)
    slices_S50001x128_S50000x128_0_0

end Cert.KernelIdeal.KVals

end
-- ==== Proof.Spec.lean ====
/-
  The layer's arithmetic, one row at a time, over the extended reals.

  A graph layer with relative coordinates: every edge sends a message computed by a two-layer perceptron from the two end
  nodes' features, the edge's own features and the difference of the end nodes' coordinates; every node adds up the
  messages of the edges that point at it, passes its own features and that sum through a second two-layer perceptron,
  adds the result to its features and normalises the row (mean, variance, reciprocal square root, gain and offset).

  Two spellings of each perceptron are stated here. One multiplies ONE concatenated row into ONE weight matrix; the other
  multiplies each piece of the row into its own slab of the weight matrix and adds the products. A sum over the
  concatenated axis is the sum of the sums over the pieces, so the two spellings are the same function
  (`msgCat_eq`, `updCat_eq`): only commutativity and associativity of addition are used, which hold on all of the
  extended reals, infinities included.
-/
import Idealize.ShloMosaic.PureOps.Ideal
import Mathlib.Algebra.BigOperators.Fin

noncomputable section

namespace Cert.Gnn

open Idealize.ShloMosaic
open scoped BigOperators

/-- The float literal `0.0`. -/
abbrev zeroE : EReal := Ideal.ofBits .f32 0x00000000#32
/-- The float literal `128.0`, the width of a feature row. -/
abbrev c128 : EReal := Ideal.ofBits .f32 0x43000000#32
/-- The float literal nearest `1e-5`, the variance's guard. -/
abbrev epsE : EReal := Ideal.ofBits .f32 0x3727C5AC#32

/-- A row times a matrix: entry `j` is `∑ k, v k * W k j`. -/
def lin {K : Nat} (v : Fin K → EReal) (W : Fin K → Fin 128 → EReal) (j : Fin 128) : EReal := ∑ k, v k * W k j

/-- The rectifier of a hidden row: `max (·) 0`. -/
def relu (h : Fin 128 → EReal) (k : Fin 128) : EReal := max (h k) zeroE

/-- An edge's message, the pieces multiplied separately: source features, target features, and the edge's 35 own
    numbers (32 features, then the 3 coordinate differences), each into its slab of the first weight matrix. -/
def msgSplit (xs xd : Fin 128 → EReal) (ea : Fin 35 → EReal) (Ws Wd : Fin 128 → Fin 128 → EReal)
    (We : Fin 35 → Fin 128 → EReal) (b1 : Fin 128 → EReal) (W2 : Fin 128 → Fin 128 → EReal) (b2 : Fin 128 → EReal)
    (j : Fin 128) : EReal :=
  lin (relu fun k => lin xs Ws k + lin xd Wd k + lin ea We k + b1 k) W2 j + b2 j

/-- An edge's message, the 291 numbers as one row into the whole first weight matrix. -/
def msgCat (row : Fin 291 → EReal) (W1 : Fin 291 → Fin 128 → EReal) (b1 : Fin 128 → EReal)
    (W2 : Fin 128 → Fin 128 → EReal) (b2 : Fin 128 → EReal) (j : Fin 128) : EReal :=
  lin (relu fun k => lin row W1 k + b1 k) W2 j + b2 j

/-- A node's new row before normalisation, the two pieces (own features, summed messages) multiplied separately. -/
def updSplit (x a : Fin 128 → EReal) (Wx Wa : Fin 128 → Fin 128 → EReal) (b1 : Fin 128 → EReal)
    (W2 : Fin 128 → Fin 128 → EReal) (b2 : Fin 128 → EReal) (j : Fin 128) : EReal :=
  x j + (lin (relu fun k => lin x Wx k + lin a Wa k + b1 k) W2 j + b2 j)

/-- A node's new row before normalisation, the 256 numbers as one row into the whole first weight matrix. -/
def updCat (x : Fin 128 → EReal) (row : Fin 256 → EReal) (W1 : Fin 256 → Fin 128 → EReal) (b1 : Fin 128 → EReal)
    (W2 : Fin 128 → Fin 128 → EReal) (b2 : Fin 128 → EReal) (j : Fin 128) : EReal :=
  x j + (lin (relu fun k => lin row W1 k + b1 k) W2 j + b2 j)

/-- The mean of a row: its sum over 128. -/
def mean (y : Fin 128 → EReal) : EReal := Ideal.div (∑ k, y k) c128

/-- The row normalised: centred, scaled by the reciprocal root of the guarded variance, then gain and offset. -/
def lnorm (y g b : Fin 128 → EReal) (j : Fin 128) : EReal :=
  (y j - mean y) * Ideal.rsqrt (Ideal.div (∑ k, (y k - mean y) * (y k - mean y)) c128 + epsE) * g j + b j

/-- Two rows side by side. -/
def cat2 {A B : Nat} (u : Fin A → EReal) (v : Fin B → EReal) (k : Fin (A + B)) : EReal :=
  Fin.addCases u v k

end Cert.Gnn

end
-- ==== Proof.KerFuns.lean ====
/-
  The two calls' results as functions of whole arrays.

  Row `e` of the message table is the message perceptron of row `e` of the three per-edge inputs; row `n` of the final
  result is the normalised residual update of row `n` of the node features and of the summed messages.
-/
import proofs.«158953_j29669634081214_2_alg».proof.KernelIdeal
import proofs.«158953_j29669634081214_2_alg».proof.Proof.Spec
import Idealize.ShloMosaic.Lib.ValueIdx

noncomputable section

namespace Cert.KernelIdeal.KFuns

open Cert.KernelIdeal Cert.Gnn Idealize.ShloMosaic Idealize.ShloMosaic.ValueIdx

/-- Row `r` of a matrix as a function of the column. -/
abbrev rowOf {a b : Nat} (M : (⟨2, ![a, b]⟩ : Shape).Idx → EReal) (r : Fin a) : Fin b → EReal := fun k => M (ix2 r k)
/-- A matrix as a function of its two coordinates. -/
abbrev matOf {a b : Nat} (M : (⟨2, ![a, b]⟩ : Shape).Idx → EReal) : Fin a → Fin b → EReal := fun k j => M (ix2 k j)
/-- A vector as a function of its coordinate. -/
abbrev vecOf {a : Nat} (v : (⟨1, ![a]⟩ : Shape).Idx → EReal) : Fin a → EReal := fun k => v (ix1 k)

/-- The message call's result as a function of whole arrays: row `e` is the message of (padded) edge `e`. -/
def G0 (XS XD : S802816x128.Idx → EReal) (EA : S802816x35.Idx → EReal) (Ws Wd : S128x128.Idx → EReal) (We : S35x128.Idx → EReal)
    (b1 : S128.Idx → EReal) (W2 : S128x128.Idx → EReal) (b2 : S128.Idx → EReal) : S802816x128.Idx → EReal := fun i =>
  msgSplit (rowOf XS ⟨(i 0).val, idx2_lt0 i⟩) (rowOf XD ⟨(i 0).val, idx2_lt0 i⟩) (rowOf EA ⟨(i 0).val, idx2_lt0 i⟩)
    (matOf Ws) (matOf Wd) (matOf We) (vecOf b1) (matOf W2) (vecOf b2) ⟨(i 1).val, idx2_lt1 i⟩

/-- The update call's result as a function of whole arrays: row `n` is the normalised residual update of row `n`. -/
def G1 (X A : S50000x128.Idx → EReal) (Wx Wa : S128x128.Idx → EReal) (b1 : S128.Idx → EReal) (W2 : S128x128.Idx → EReal)
    (b2 g b : S128.Idx → EReal) : S50000x128.Idx → EReal := fun i =>
  lnorm (updSplit (rowOf X ⟨(i 0).val, idx2_lt0 i⟩) (rowOf A ⟨(i 0).val, idx2_lt0 i⟩) (matOf Wx) (matOf Wa) (vecOf b1) (matOf W2) (vecOf b2))
    (vecOf g) (vecOf b) ⟨(i 1).val, idx2_lt1 i⟩

end Cert.KernelIdeal.KFuns

end
-- ==== Proof.KerReg0.lean ====
/-
  The first call's result array as one function of the arrays the call finds.

  The message call walks the 802816 (padded) edge rows in 196 blocks of 4096. At block `t` it reads rows
  `4096 t … 4096 t + 4095` of the three per-edge inputs (source features, target features, the edge's own 35 numbers),
  the whole of every weight and bias, and writes the same rows of the messages. A message row depends only on the same
  row of the three inputs, so every block written back is a block of ONE function of the whole arrays; the blocks tile
  the result, hence the message array is that function.
-/
import proofs.«158953_j29669634081214_2_alg».proof.Proof.Gen.KernelIdeal.Frame
import proofs.«158953_j29669634081214_2_alg».proof.Proof.Spec
import proofs.«158953_j29669634081214_2_alg».proof.Proof.KerFuns
import Idealize.ShloMosaic.Lib.ValueIdx
import Idealize.ShloMosaic.Lib.Pipeline.Value

set_option maxRecDepth 16384

noncomputable section

namespace Cert.KernelIdeal.Reg0

open Cert.KernelIdeal Cert.KernelIdeal.Gen Cert.KernelIdeal.KFuns Cert.Gnn
open Idealize.ShloMosaic Idealize.ShloMosaic.TcCoe Idealize.ShloMosaic.ValueIdx
open Idealize.SL.Sem
open Idealize.ShloMosaic.Pipeline (Dat Cfg Window)

/-- What the body's arithmetic is at one entry of a block (the hypothesis the block lemmas take). -/
def PayloadAt : Prop :=
  ∀ (v0 v3 : Vec Ideal S4096x128 .f32) (v6 : Vec Ideal S4096x35 .f32) (v9 v12 : Vec Ideal S128x128 .f32)
    (v15 : Vec Ideal S35x128 .f32) (v23 : Vec Ideal S128 .f32) (v30 : Vec Ideal S128x128 .f32) (v33 : Vec Ideal S128 .f32)
    (p : Fin 4096) (q : Fin 128),
    k0_pay1 (F := Ideal) v0 v3 v6 v9 v12 v15 v23 v30 v33 (ix2 p q)
      = msgSplit (rowOf v0 p) (rowOf v3 p) (rowOf v6 p) (matOf v9) (matOf v12) (matOf v15) (vecOf v23) (matOf v30) (vecOf v33) q

theorem hz2 : (![0, 0] : Fin 2 → Nat) = fun _ => 0 := funext fun a => by fin_cases a <;> rfl
theorem hz1 : (![0] : Fin 1 → Nat) = fun _ => 0 := funext fun a => by fin_cases a; rfl

/-- One entry of a block is the whole-array function at the entry's place, when the block's three row inputs are the
    arrays' rows at that place and the weights are the arrays themselves. -/
theorem block_entry (hpay : PayloadAt) (XS XD : S802816x128.Idx → EReal) (EA : S802816x35.Idx → EReal)
    (x0 x1 : Vec Ideal S4096x128 .f32) (x2 : Vec Ideal S4096x35 .f32) (x3 x4 : Vec Ideal S128x128 .f32) (x5 : Vec Ideal S35x128 .f32)
    (x6 : Vec Ideal S128 .f32) (x7 : Vec Ideal S128x128 .f32) (x8 : Vec Ideal S128 .f32)
    (i : S802816x128.Idx) (p : Fin 4096) (q : Fin 128)
    (h0 : ∀ k : Fin 128, x0 (ix2 p k) = XS (ix2 ⟨(i 0).val, idx2_lt0 i⟩ k))
    (h1 : ∀ k : Fin 128, x1 (ix2 p k) = XD (ix2 ⟨(i 0).val, idx2_lt0 i⟩ k))
    (h2 : ∀ k : Fin 35, x2 (ix2 p k) = EA (ix2 ⟨(i 0).val, idx2_lt0 i⟩ k))
    (hq : q.val = (i 1).val)
    (A3 A4 : S128x128.Idx → EReal) (A5 : S35x128.Idx → EReal) (A6 : S128.Idx → EReal) (A7 : S128x128.Idx → EReal) (A8 : S128.Idx → EReal)
    (h3 : x3 = A3) (h4 : x4 = A4) (h5 : x5 = A5) (h6 : x6 = A6) (h7 : x7 = A7) (h8 : x8 = A8) :
    k0_pay1 (F := Ideal) x0 x1 x2 x3 x4 x5 x6 x7 x8 (ix2 p q) = G0 XS XD EA A3 A4 A5 A6 A7 A8 i := by
  subst h3 h4 h5 h6 h7 h8
  rw [hpay]
  unfold G0
  have e0 : rowOf x0 p = rowOf XS ⟨(i 0).val, idx2_lt0 i⟩ := funext h0
  have e1 : rowOf x1 p = rowOf XD ⟨(i 0).val, idx2_lt0 i⟩ := funext h1
  have e2 : rowOf x2 p = rowOf EA ⟨(i 0).val, idx2_lt0 i⟩ := funext h2
  have eq : q = ⟨(i 1).val, idx2_lt1 i⟩ := Fin.ext hq
  rw [e0, e1, e2, eq]

/-! ## The blocks -/

/-- The printed index maps over the 196 points: the three row inputs and the result sit at block row `t`, column block
    0; every weight and bias window is its whole array. -/
theorem idx_facts : ∀ t : Fin cfg0.N,
    win0_9.index t (0 : Fin 2) = t.val ∧ win0_9.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0 :=
  (by decide +kernel : ∀ t : Fin grid0.N, _)

section Blocks
variable (V : (c : Dev nD) → (b : Ref sig .tc) → Buf (Elt Ideal) ((c : Thread nD τ).loc b)) (c : Dev nD) (t : Fin cfg0.N)

theorem blk3 : iblk0 V c 3 t = V c (Pipeline.arrRef spec0 3) := by
  obtain ⟨-, -, -, -, -, -, -, -, e30, e31, e40, e41, e50, e51, e6, e70, e71, e8⟩ := idx_facts t
  funext j
  show V c (Pipeline.arrRef spec0 3) (((cfg0.win 3).blk t).view.emb j) = V c (Pipeline.arrRef spec0 3) j
  refine congrArg _ (funext fun a => Fin.ext ?_)
  match a with
  | ⟨0, _⟩ => show win0_3.index t (0 : Fin 2) * 128 + 1 * (j 0).val = (j 0).val; omega
  | ⟨1, _⟩ => show win0_3.index t (1 : Fin 2) * 128 + 1 * (j 1).val = (j 1).val; omega

theorem blk4 : iblk0 V c 4 t = V c (Pipeline.arrRef spec0 4) := by
  obtain ⟨-, -, -, -, -, -, -, -, e30, e31, e40, e41, e50, e51, e6, e70, e71, e8⟩ := idx_facts t
  funext j
  show V c (Pipeline.arrRef spec0 4) (((cfg0.win 4).blk t).view.emb j) = V c (Pipeline.arrRef spec0 4) j
  refine congrArg _ (funext fun a => Fin.ext ?_)
  match a with
  | ⟨0, _⟩ => show win0_4.index t (0 : Fin 2) * 128 + 1 * (j 0).val = (j 0).val; omega
  | ⟨1, _⟩ => show win0_4.index t (1 : Fin 2) * 128 + 1 * (j 1).val = (j 1).val; omega

theorem blk5 : iblk0 V c 5 t = V c (Pipeline.arrRef spec0 5) := by
  obtain ⟨-, -, -, -, -, -, -, -, e30, e31, e40, e41, e50, e51, e6, e70, e71, e8⟩ := idx_facts t
  funext j
  show V c (Pipeline.arrRef spec0 5) (((cfg0.win 5).blk t).view.emb j) = V c (Pipeline.arrRef spec0 5) j
  refine congrArg _ (funext fun a => Fin.ext ?_)
  match a with
  | ⟨0, _⟩ => show win0_5.index t (0 : Fin 2) * 35 + 1 * (j 0).val = (j 0).val; omega
  | ⟨1, _⟩ => show win0_5.index t (1 : Fin 2) * 128 + 1 * (j 1).val = (j 1).val; omega

theorem blk6 : iblk0 V c 6 t = V c (Pipeline.arrRef spec0 6) := by
  obtain ⟨-, -, -, -, -, -, -, -, e30, e31, e40, e41, e50, e51, e6, e70, e71, e8⟩ := idx_facts t
  funext j
  show V c (Pipeline.arrRef spec0 6) (((cfg0.win 6).blk t).view.emb j) = V c (Pipeline.arrRef spec0 6) j
  refine congrArg _ (funext fun a => Fin.ext ?_)
  match a with
  | ⟨0, _⟩ => show win0_6.index t (0 : Fin 1) * 128 + 1 * (j 0).val = (j 0).val; omega

theorem blk7 : iblk0 V c 7 t = V c (Pipeline.arrRef spec0 7) := by
  obtain ⟨-, -, -, -, -, -, -, -, e30, e31, e40, e41, e50, e51, e6, e70, e71, e8⟩ := idx_facts t
  funext j
  show V c (Pipeline.arrRef spec0 7) (((cfg0.win 7).blk t).view.emb j) = V c (Pipeline.arrRef spec0 7) j
  refine congrArg _ (funext fun a => Fin.ext ?_)
  match a with
  | ⟨0, _⟩ => show win0_7.index t (0 : Fin 2) * 128 + 1 * (j 0).val = (j 0).val; omega
  | ⟨1, _⟩ => show win0_7.index t (1 : Fin 2) * 128 + 1 * (j 1).val = (j 1).val; omega

theorem blk8 : iblk0 V c 8 t = V c (Pipeline.arrRef spec0 8) := by
  obtain ⟨-, -, -, -, -, -, -, -, e30, e31, e40, e41, e50, e51, e6, e70, e71, e8⟩ := idx_facts t
  funext j
  show V c (Pipeline.arrRef spec0 8) (((cfg0.win 8).blk t).view.emb j) = V c (Pipeline.arrRef spec0 8) j
  refine congrArg _ (funext fun a => Fin.ext ?_)
  match a with
  | ⟨0, _⟩ => show win0_8.index t (0 : Fin 1) * 128 + 1 * (j 0).val = (j 0).val; omega

/-- Row `p` of window 0's block at `t` is row `4096 t + p` of its array. -/
theorem rowblk0 (p : Fin 4096) (k : Fin 128) (r : Fin 802816) (hr : r.val = t.val * 4096 + p.val) :
    iblk0 V c 0 t (ix2 p k) = V c (Pipeline.arrRef spec0 0) (ix2 r k) := by
  obtain ⟨-, -, e00, e01, e10, e11, e20, e21, -⟩ := idx_facts t
  show V c (Pipeline.arrRef spec0 0) (((cfg0.win 0).blk t).view.emb (ix2 p k)) = V c (Pipeline.arrRef spec0 0) (ix2 r k)
  refine congrArg _ (funext fun a => Fin.ext ?_)
  match a with
  | ⟨0, _⟩ => show win0_0.index t (0 : Fin 2) * 4096 + 1 * p.val = r.val; omega
  | ⟨1, _⟩ => show win0_0.index t (1 : Fin 2) * 128 + 1 * k.val = k.val; omega

/-- Row `p` of window 1's block at `t` is row `4096 t + p` of its array. -/
theorem rowblk1 (p : Fin 4096) (k : Fin 128) (r : Fin 802816) (hr : r.val = t.val * 4096 + p.val) :
    iblk0 V c 1 t (ix2 p k) = V c (Pipeline.arrRef spec0 1) (ix2 r k) := by
  obtain ⟨-, -, e00, e01, e10, e11, e20, e21, -⟩ := idx_facts t
  show V c (Pipeline.arrRef spec0 1) (((cfg0.win 1).blk t).view.emb (ix2 p k)) = V c (Pipeline.arrRef spec0 1) (ix2 r k)
  refine congrArg _ (funext fun a => Fin.ext ?_)
  match a with
  | ⟨0, _⟩ => show win0_1.index t (0 : Fin 2) * 4096 + 1 * p.val = r.val; omega
  | ⟨1, _⟩ => show win0_1.index t (1 : Fin 2) * 128 + 1 * k.val = k.val; omega

/-- Row `p` of window 2's block at `t` is row `4096 t + p` of its array. -/
theorem rowblk2 (p : Fin 4096) (k : Fin 35) (r : Fin 802816) (hr : r.val = t.val * 4096 + p.val) :
    iblk0 V c 2 t (ix2 p k) = V c (Pipeline.arrRef spec0 2) (ix2 r k) := by
  obtain ⟨-, -, e00, e01, e10, e11, e20, e21, -⟩ := idx_facts t
  show V c (Pipeline.arrRef spec0 2) (((cfg0.win 2).blk t).view.emb (ix2 p k)) = V c (Pipeline.arrRef spec0 2) (ix2 r k)
  refine congrArg _ (funext fun a => Fin.ext ?_)
  match a with
  | ⟨0, _⟩ => show win0_2.index t (0 : Fin 2) * 4096 + 1 * p.val = r.val; omega
  | ⟨1, _⟩ => show win0_2.index t (1 : Fin 2) * 35 + 1 * k.val = k.val; omega

/-- One entry of what the body leaves at point `t`, read where the result block's rectangle puts it. -/
theorem flushed_entry (hpay : PayloadAt) (y : S4096x128.Idx) :
    k0_pay1 (F := Ideal) (iblk0 V c 0 t) (iblk0 V c 1 t) (iblk0 V c 2 t) (iblk0 V c 3 t) (iblk0 V c 4 t) (iblk0 V c 5 t)
        (iblk0 V c 6 t) (iblk0 V c 7 t) (iblk0 V c 8 t) y
      = (G0 (V c (Pipeline.arrRef spec0 0)) (V c (Pipeline.arrRef spec0 1)) (V c (Pipeline.arrRef spec0 2)) (V c (Pipeline.arrRef spec0 3))
          (V c (Pipeline.arrRef spec0 4)) (V c (Pipeline.arrRef spec0 5)) (V c (Pipeline.arrRef spec0 6)) (V c (Pipeline.arrRef spec0 7))
          (V c (Pipeline.arrRef spec0 8))) (((cfg0.win 9).blk t).view.emb y) := by
  obtain ⟨e90, e91, -⟩ := idx_facts t
  obtain ⟨p, q, rfl⟩ : ∃ (p : Fin 4096) (q : Fin 128), y = ix2 p q := ⟨y 0, y 1, eq_ix2 y⟩
  have hp : p.val < 4096 := p.isLt
  have hi0 : ((((cfg0.win 9).blk t).view.emb (ix2 p q)) 0).val = t.val * 4096 + p.val := by
    show win0_9.index t (0 : Fin 2) * 4096 + 1 * p.val = _; omega
  have hi1 : ((((cfg0.win 9).blk t).view.emb (ix2 p q)) 1).val = q.val := by
    show win0_9.index t (1 : Fin 2) * 128 + 1 * q.val = _; omega
  exact block_entry hpay (V c (Pipeline.arrRef spec0 0)) (V c (Pipeline.arrRef spec0 1)) (V c (Pipeline.arrRef spec0 2))
    (iblk0 V c 0 t) (iblk0 V c 1 t) (iblk0 V c 2 t) (iblk0 V c 3 t) (iblk0 V c 4 t) (iblk0 V c 5 t) (iblk0 V c 6 t) (iblk0 V c 7 t) (iblk0 V c 8 t)
    (((cfg0.win 9).blk t).view.emb (ix2 p q)) p q
    (fun k => rowblk0 V c t p k ⟨_, idx2_lt0 _⟩ hi0) (fun k => rowblk1 V c t p k ⟨_, idx2_lt0 _⟩ hi0)
    (fun k => rowblk2 V c t p k ⟨_, idx2_lt0 _⟩ hi0) hi1.symm
    (V c (Pipeline.arrRef spec0 3)) (V c (Pipeline.arrRef spec0 4)) (V c (Pipeline.arrRef spec0 5)) (V c (Pipeline.arrRef spec0 6)) (V c (Pipeline.arrRef spec0 7)) (V c (Pipeline.arrRef spec0 8))
    (blk3 V c t) (blk4 V c t) (blk5 V c t) (blk6 V c t) (blk7 V c t) (blk8 V c t)

/-- WHAT POINT `t` WRITES BACK is block `t` of the whole-array function of the arrays the call finds. -/
theorem flushed_eq (hpay : PayloadAt) :
    (dat0 (F := Ideal) V c).flushed 9 t = ((cfg0.win 9).blk t).view.read (Elt Ideal)
      (G0 (V c (Pipeline.arrRef spec0 0)) (V c (Pipeline.arrRef spec0 1)) (V c (Pipeline.arrRef spec0 2)) (V c (Pipeline.arrRef spec0 3))
        (V c (Pipeline.arrRef spec0 4)) (V c (Pipeline.arrRef spec0 5)) (V c (Pipeline.arrRef spec0 6)) (V c (Pipeline.arrRef spec0 7))
        (V c (Pipeline.arrRef spec0 8))) := by
  show (cfg0.win 9).cut (grid0.coords t) ((dat0 V c).after 9 t) = _
  rw [after0_9]
  unfold out0_9
  rw [View.canon_unit_zero hz2]
  simp only [View.ld_unit_zero (S := S4096x128) hz2, View.ld_unit_zero (S := S4096x35) hz2, View.ld_unit_zero (S := S128x128) hz2,
    View.ld_unit_zero (S := S35x128) hz2, View.ld_unit_zero (S := S128) hz1]
  funext y
  exact flushed_entry V c t hpay y

end Blocks

/-! ## The cover, and the array -/

/-- An index of the result is in point `t`'s block iff each coordinate is in the block's range on its axis. -/
theorem mem_blk (t : Fin cfg0.N) (i : S802816x128.Idx) :
    i ∈ ((cfg0.win 9).blk t).view.set ↔ ∀ a : Fin 2, win0_9.index t a * S4096x128.size a ≤ (i a).val
      ∧ (i a).val < win0_9.index t a * S4096x128.size a + S4096x128.size a := by
  show i ∈ ((View.whole main_v41).slice (win0_9.rect t)).set ↔ _
  rw [View.set_slice_whole, Rect.mem_set_unit]
  exact Iff.rfl

/-- Row `r` of the messages is written by point `r / 4096`. -/
theorem cover (i : S802816x128.Idx) :
    ∃ t : Fin cfg0.N, (cfg0.win 9).flush t = true ∧ i ∈ ((cfg0.win 9).blk t).view.set := by
  have hi0 : (i 0).val < 802816 := idx2_lt0 i
  have hi1 : (i 1).val < 128 := idx2_lt1 i
  have hN : cfg0.N = 196 := N_0
  have hlt : (i 0).val / 4096 < cfg0.N := by rw [hN]; omega
  obtain ⟨e90, e91, -⟩ := idx_facts ⟨(i 0).val / 4096, hlt⟩
  have e90' : win0_9.index ⟨(i 0).val / 4096, hlt⟩ (0 : Fin 2) = (i 0).val / 4096 := e90
  refine ⟨⟨(i 0).val / 4096, hlt⟩, flush0_9 _, ?_⟩
  rw [mem_blk]
  intro a
  match a with
  | ⟨0, _⟩ =>
    show win0_9.index ⟨(i 0).val / 4096, hlt⟩ (0 : Fin 2) * 4096 ≤ (i 0).val
      ∧ (i 0).val < win0_9.index ⟨(i 0).val / 4096, hlt⟩ (0 : Fin 2) * 4096 + 4096
    omega
  | ⟨1, _⟩ =>
    show win0_9.index ⟨(i 0).val / 4096, hlt⟩ (1 : Fin 2) * 128 ≤ (i 1).val
      ∧ (i 1).val < win0_9.index ⟨(i 0).val / 4096, hlt⟩ (1 : Fin 2) * 128 + 128
    omega

/-- THE MESSAGE ARRAY after the call: the whole-array function of the arrays the call finds. -/
theorem final (hpay : PayloadAt) (V : (c : Dev nD) → (b : Ref sig .tc) → Buf (Elt Ideal) ((c : Thread nD τ).loc b)) (c : Dev nD) :
    (dat0 (F := Ideal) V c).arrAt 9 cfg0.N
      = G0 (V c (Pipeline.arrRef spec0 0)) (V c (Pipeline.arrRef spec0 1)) (V c (Pipeline.arrRef spec0 2)) (V c (Pipeline.arrRef spec0 3))
        (V c (Pipeline.arrRef spec0 4)) (V c (Pipeline.arrRef spec0 5)) (V c (Pipeline.arrRef spec0 6)) (V c (Pipeline.arrRef spec0 7))
        (V c (Pipeline.arrRef spec0 8)) :=
  (dat0 (F := Ideal) V c).arrAt_eq_of_cover 9 _ (fun t _ => flushed_eq V c t hpay) cover

end Cert.KernelIdeal.Reg0

end
-- ==== Proof.KerReg1.lean ====
/-
  The second call's result array as one function of the arrays the call finds.

  The update call walks the 50000 node rows in 25 blocks of 2000. At block `t` it reads rows `2000 t … 2000 t + 1999` of the
  node features and of the summed messages, the whole of every weight and bias, and writes the same rows of the result.
  A row of the result depends only on the same row of the two inputs, so every block written back is a block of ONE
  function of the whole arrays; the blocks tile the result, hence the result array is that function.
-/
import proofs.«158953_j29669634081214_2_alg».proof.Proof.Gen.KernelIdeal.Frame
import proofs.«158953_j29669634081214_2_alg».proof.Proof.Spec
import proofs.«158953_j29669634081214_2_alg».proof.Proof.KerFuns
import Idealize.ShloMosaic.Lib.ValueIdx
import Idealize.ShloMosaic.Lib.Pipeline.Value

set_option maxRecDepth 16384

noncomputable section

namespace Cert.KernelIdeal.Reg1

open Cert.KernelIdeal Cert.KernelIdeal.Gen Cert.KernelIdeal.KFuns Cert.Gnn
open Idealize.ShloMosaic Idealize.ShloMosaic.TcCoe Idealize.ShloMosaic.ValueIdx
open Idealize.SL.Sem
open Idealize.ShloMosaic.Pipeline (Dat Cfg Window)

/-- What the body's arithmetic is at one entry of a block (the hypothesis the block lemmas take). -/
def PayloadAt : Prop :=
  ∀ (v0 v1 : Vec Ideal S2000x128 .f32) (v5 v8 : Vec Ideal S128x128 .f32) (v14 : Vec Ideal S128 .f32)
    (v21 : Vec Ideal S128x128 .f32) (v24 v45 v49 : Vec Ideal S128 .f32) (p : Fin 2000) (q : Fin 128),
    k1_pay1 (F := Ideal) (k1_pay2 v0 v1 v5 v8 v14 v21 v24) (k1_pay3 v0 v1 v5 v8 v14 v21 v24) (k1_pay4 (F := Ideal)) v45 v49 (ix2 p q)
      = lnorm (updSplit (rowOf v0 p) (rowOf v1 p) (matOf v5) (matOf v8) (vecOf v14) (matOf v21) (vecOf v24)) (vecOf v45) (vecOf v49) q

theorem hz2 : (![0, 0] : Fin 2 → Nat) = fun _ => 0 := funext fun a => by fin_cases a <;> rfl
theorem hz1 : (![0] : Fin 1 → Nat) = fun _ => 0 := funext fun a => by fin_cases a; rfl

/-- One entry of a block is the whole-array function at the entry's place, when the block's two row inputs are the
    arrays' rows at that place and the weights are the arrays themselves. -/
theorem block_entry (hpay : PayloadAt) (X A : S50000x128.Idx → EReal) (x0 x1 : Vec Ideal S2000x128 .f32)
    (x2 x3 : Vec Ideal S128x128 .f32) (x4 : Vec Ideal S128 .f32) (x5 : Vec Ideal S128x128 .f32) (x6 x7 x8 : Vec Ideal S128 .f32)
    (i : S50000x128.Idx) (p : Fin 2000) (q : Fin 128)
    (h0 : ∀ k : Fin 128, x0 (ix2 p k) = X (ix2 ⟨(i 0).val, idx2_lt0 i⟩ k))
    (h1 : ∀ k : Fin 128, x1 (ix2 p k) = A (ix2 ⟨(i 0).val, idx2_lt0 i⟩ k))
    (hq : q.val = (i 1).val)
    (A2 A3 : S128x128.Idx → EReal) (A4 : S128.Idx → EReal) (A5 : S128x128.Idx → EReal) (A6 A7 A8 : S128.Idx → EReal)
    (h2 : x2 = A2) (h3 : x3 = A3) (h4 : x4 = A4) (h5 : x5 = A5) (h6 : x6 = A6) (h7 : x7 = A7) (h8 : x8 = A8) :
    k1_pay1 (F := Ideal) (k1_pay2 x0 x1 x2 x3 x4 x5 x6) (k1_pay3 x0 x1 x2 x3 x4 x5 x6) (k1_pay4 (F := Ideal)) x7 x8 (ix2 p q)
      = G1 X A A2 A3 A4 A5 A6 A7 A8 i := by
  subst h2 h3 h4 h5 h6 h7 h8
  rw [hpay]
  unfold G1
  have e0 : rowOf x0 p = rowOf X ⟨(i 0).val, idx2_lt0 i⟩ := funext h0
  have e1 : rowOf x1 p = rowOf A ⟨(i 0).val, idx2_lt0 i⟩ := funext h1
  have eq : q = ⟨(i 1).val, idx2_lt1 i⟩ := Fin.ext hq
  rw [e0, e1, eq]

/-! ## The blocks -/

/-- The printed index maps over the 25 points: the two row inputs and the result sit at block row `t`, column block 0;
    every weight and bias window is its whole array. -/
theorem idx_facts : ∀ t : Fin cfg1.N,
    win1_9.index t (0 : Fin 2) = t.val ∧ win1_9.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0 ∧ win1_7.index t (0 : Fin 1) = 0 ∧ win1_8.index t (0 : Fin 1) = 0 :=
  (by decide +kernel : ∀ t : Fin grid1.N, _)

section Blocks
variable (V : (c : Dev nD) → (b : Ref sig .tc) → Buf (Elt Ideal) ((c : Thread nD τ).loc b)) (c : Dev nD) (t : Fin cfg1.N)

/-- A whole-array window's block is the array. -/
theorem blk2 : iblk1 V c 2 t = V c (Pipeline.arrRef spec1 2) := by
  obtain ⟨-, -, -, -, -, -, e0, e1, -⟩ := idx_facts t
  funext j
  show V c (Pipeline.arrRef spec1 2) (((cfg1.win 2).blk t).view.emb j) = V c (Pipeline.arrRef spec1 2) j
  refine congrArg _ (funext fun a => Fin.ext ?_)
  match a with
  | ⟨0, _⟩ => show win1_2.index t (0 : Fin 2) * 128 + 1 * (j 0).val = (j 0).val; omega
  | ⟨1, _⟩ => show win1_2.index t (1 : Fin 2) * 128 + 1 * (j 1).val = (j 1).val; omega

theorem blk3 : iblk1 V c 3 t = V c (Pipeline.arrRef spec1 3) := by
  obtain ⟨-, -, -, -, -, -, e20, e21, e30, e31, e4, e50, e51, e6, e7, e8⟩ := idx_facts t
  funext j
  show V c (Pipeline.arrRef spec1 3) (((cfg1.win 3).blk t).view.emb j) = V c (Pipeline.arrRef spec1 3) j
  refine congrArg _ (funext fun a => Fin.ext ?_)
  match a with
  | ⟨0, _⟩ => show win1_3.index t (0 : Fin 2) * 128 + 1 * (j 0).val = (j 0).val; omega
  | ⟨1, _⟩ => show win1_3.index t (1 : Fin 2) * 128 + 1 * (j 1).val = (j 1).val; omega

theorem blk4 : iblk1 V c 4 t = V c (Pipeline.arrRef spec1 4) := by
  obtain ⟨-, -, -, -, -, -, e20, e21, e30, e31, e4, e50, e51, e6, e7, e8⟩ := idx_facts t
  funext j
  show V c (Pipeline.arrRef spec1 4) (((cfg1.win 4).blk t).view.emb j) = V c (Pipeline.arrRef spec1 4) j
  refine congrArg _ (funext fun a => Fin.ext ?_)
  match a with
  | ⟨0, _⟩ => show win1_4.index t (0 : Fin 1) * 128 + 1 * (j 0).val = (j 0).val; omega

theorem blk5 : iblk1 V c 5 t = V c (Pipeline.arrRef spec1 5) := by
  obtain ⟨-, -, -, -, -, -, e20, e21, e30, e31, e4, e50, e51, e6, e7, e8⟩ := idx_facts t
  funext j
  show V c (Pipeline.arrRef spec1 5) (((cfg1.win 5).blk t).view.emb j) = V c (Pipeline.arrRef spec1 5) j
  refine congrArg _ (funext fun a => Fin.ext ?_)
  match a with
  | ⟨0, _⟩ => show win1_5.index t (0 : Fin 2) * 128 + 1 * (j 0).val = (j 0).val; omega
  | ⟨1, _⟩ => show win1_5.index t (1 : Fin 2) * 128 + 1 * (j 1).val = (j 1).val; omega

theorem blk6 : iblk1 V c 6 t = V c (Pipeline.arrRef spec1 6) := by
  obtain ⟨-, -, -, -, -, -, e20, e21, e30, e31, e4, e50, e51, e6, e7, e8⟩ := idx_facts t
  funext j
  show V c (Pipeline.arrRef spec1 6) (((cfg1.win 6).blk t).view.emb j) = V c (Pipeline.arrRef spec1 6) j
  refine congrArg _ (funext fun a => Fin.ext ?_)
  match a with
  | ⟨0, _⟩ => show win1_6.index t (0 : Fin 1) * 128 + 1 * (j 0).val = (j 0).val; omega

theorem blk7 : iblk1 V c 7 t = V c (Pipeline.arrRef spec1 7) := by
  obtain ⟨-, -, -, -, -, -, e20, e21, e30, e31, e4, e50, e51, e6, e7, e8⟩ := idx_facts t
  funext j
  show V c (Pipeline.arrRef spec1 7) (((cfg1.win 7).blk t).view.emb j) = V c (Pipeline.arrRef spec1 7) j
  refine congrArg _ (funext fun a => Fin.ext ?_)
  match a with
  | ⟨0, _⟩ => show win1_7.index t (0 : Fin 1) * 128 + 1 * (j 0).val = (j 0).val; omega

theorem blk8 : iblk1 V c 8 t = V c (Pipeline.arrRef spec1 8) := by
  obtain ⟨-, -, -, -, -, -, e20, e21, e30, e31, e4, e50, e51, e6, e7, e8⟩ := idx_facts t
  funext j
  show V c (Pipeline.arrRef spec1 8) (((cfg1.win 8).blk t).view.emb j) = V c (Pipeline.arrRef spec1 8) j
  refine congrArg _ (funext fun a => Fin.ext ?_)
  match a with
  | ⟨0, _⟩ => show win1_8.index t (0 : Fin 1) * 128 + 1 * (j 0).val = (j 0).val; omega

/-- Row `p` of window 0's block at `t` is row `2000 t + p` of its array. -/
theorem rowblk0 (p : Fin 2000) (k : Fin 128) (r : Fin 50000) (hr : r.val = t.val * 2000 + p.val) :
    iblk1 V c 0 t (ix2 p k) = V c (Pipeline.arrRef spec1 0) (ix2 r k) := by
  obtain ⟨-, -, e00, e01, e10, e11, -⟩ := idx_facts t
  show V c (Pipeline.arrRef spec1 0) (((cfg1.win 0).blk t).view.emb (ix2 p k)) = V c (Pipeline.arrRef spec1 0) (ix2 r k)
  refine congrArg _ (funext fun a => Fin.ext ?_)
  match a with
  | ⟨0, _⟩ => show win1_0.index t (0 : Fin 2) * 2000 + 1 * p.val = r.val; omega
  | ⟨1, _⟩ => show win1_0.index t (1 : Fin 2) * 128 + 1 * k.val = k.val; omega

/-- Row `p` of window 1's block at `t` is row `2000 t + p` of its array. -/
theorem rowblk1 (p : Fin 2000) (k : Fin 128) (r : Fin 50000) (hr : r.val = t.val * 2000 + p.val) :
    iblk1 V c 1 t (ix2 p k) = V c (Pipeline.arrRef spec1 1) (ix2 r k) := by
  obtain ⟨-, -, e00, e01, e10, e11, -⟩ := idx_facts t
  show V c (Pipeline.arrRef spec1 1) (((cfg1.win 1).blk t).view.emb (ix2 p k)) = V c (Pipeline.arrRef spec1 1) (ix2 r k)
  refine congrArg _ (funext fun a => Fin.ext ?_)
  match a with
  | ⟨0, _⟩ => show win1_1.index t (0 : Fin 2) * 2000 + 1 * p.val = r.val; omega
  | ⟨1, _⟩ => show win1_1.index t (1 : Fin 2) * 128 + 1 * k.val = k.val; omega

/-- WHAT POINT `t` WRITES BACK is block `t` of the whole-array function of the arrays the call finds. -/
theorem flushed_eq (hpay : PayloadAt) :
    (dat1 (F := Ideal) V c).flushed 9 t = ((cfg1.win 9).blk t).view.read (Elt Ideal)
      (G1 (V c (Pipeline.arrRef spec1 0)) (V c (Pipeline.arrRef spec1 1)) (V c (Pipeline.arrRef spec1 2)) (V c (Pipeline.arrRef spec1 3))
        (V c (Pipeline.arrRef spec1 4)) (V c (Pipeline.arrRef spec1 5)) (V c (Pipeline.arrRef spec1 6)) (V c (Pipeline.arrRef spec1 7))
        (V c (Pipeline.arrRef spec1 8))) := by
  show (cfg1.win 9).cut (grid1.coords t) ((dat1 V c).after 9 t) = _
  rw [after1_9]
  unfold out1_9
  rw [View.canon_unit_zero hz2]
  simp only [View.ld_unit_zero (S := S2000x128) hz2, View.ld_unit_zero (S := S128x128) hz2, View.ld_unit_zero (S := S128) hz1]
  obtain ⟨e90, e91, -⟩ := idx_facts t
  funext y
  obtain ⟨p, q, rfl⟩ : ∃ (p : Fin 2000) (q : Fin 128), y = ix2 p q := ⟨y 0, y 1, eq_ix2 y⟩
  have hp : p.val < 2000 := p.isLt
  have hi0 : ((((cfg1.win 9).blk t).view.emb (ix2 p q)) 0).val = t.val * 2000 + p.val := by
    show win1_9.index t (0 : Fin 2) * 2000 + 1 * p.val = _; omega
  have hi1 : ((((cfg1.win 9).blk t).view.emb (ix2 p q)) 1).val = q.val := by
    show win1_9.index t (1 : Fin 2) * 128 + 1 * q.val = _; omega
  exact block_entry hpay _ _ _ _ _ _ _ _ _ _ _ (((cfg1.win 9).blk t).view.emb (ix2 p q)) p q
    (fun k => rowblk0 V c t p k _ hi0) (fun k => rowblk1 V c t p k _ hi0) hi1.symm _ _ _ _ _ _ _
    (blk2 V c t) (blk3 V c t) (blk4 V c t) (blk5 V c t) (blk6 V c t) (blk7 V c t) (blk8 V c t)

end Blocks

/-! ## The cover, and the array -/

/-- An index of the result is in point `t`'s block iff each coordinate is in the block's range on its axis. -/
theorem mem_blk (t : Fin cfg1.N) (i : S50000x128.Idx) :
    i ∈ ((cfg1.win 9).blk t).view.set ↔ ∀ a : Fin 2, win1_9.index t a * S2000x128.size a ≤ (i a).val
      ∧ (i a).val < win1_9.index t a * S2000x128.size a + S2000x128.size a := by
  show i ∈ ((View.whole main_v48).slice (win1_9.rect t)).set ↔ _
  rw [View.set_slice_whole, Rect.mem_set_unit]
  exact Iff.rfl

/-- Row `r` of the result is written by point `r / 2000`. -/
theorem cover (i : S50000x128.Idx) :
    ∃ t : Fin cfg1.N, (cfg1.win 9).flush t = true ∧ i ∈ ((cfg1.win 9).blk t).view.set := by
  have hi0 : (i 0).val < 50000 := idx2_lt0 i
  have hi1 : (i 1).val < 128 := idx2_lt1 i
  have hN : cfg1.N = 25 := N_1
  have hlt : (i 0).val / 2000 < cfg1.N := by rw [hN]; omega
  obtain ⟨e90, e91, -⟩ := idx_facts ⟨(i 0).val / 2000, hlt⟩
  have e90' : win1_9.index ⟨(i 0).val / 2000, hlt⟩ (0 : Fin 2) = (i 0).val / 2000 := e90
  refine ⟨⟨(i 0).val / 2000, hlt⟩, flush1_9 _, ?_⟩
  rw [mem_blk]
  intro a
  match a with
  | ⟨0, _⟩ =>
    show win1_9.index ⟨(i 0).val / 2000, hlt⟩ (0 : Fin 2) * 2000 ≤ (i 0).val
      ∧ (i 0).val < win1_9.index ⟨(i 0).val / 2000, hlt⟩ (0 : Fin 2) * 2000 + 2000
    omega
  | ⟨1, _⟩ =>
    show win1_9.index ⟨(i 0).val / 2000, hlt⟩ (1 : Fin 2) * 128 ≤ (i 1).val
      ∧ (i 1).val < win1_9.index ⟨(i 0).val / 2000, hlt⟩ (1 : Fin 2) * 128 + 128
    omega

/-- THE RESULT ARRAY after the call: the whole-array function of the arrays the call finds. -/
theorem final (hpay : PayloadAt) (V : (c : Dev nD) → (b : Ref sig .tc) → Buf (Elt Ideal) ((c : Thread nD τ).loc b)) (c : Dev nD) :
    (dat1 (F := Ideal) V c).arrAt 9 cfg1.N
      = G1 (V c (Pipeline.arrRef spec1 0)) (V c (Pipeline.arrRef spec1 1)) (V c (Pipeline.arrRef spec1 2)) (V c (Pipeline.arrRef spec1 3))
        (V c (Pipeline.arrRef spec1 4)) (V c (Pipeline.arrRef spec1 5)) (V c (Pipeline.arrRef spec1 6)) (V c (Pipeline.arrRef spec1 7))
        (V c (Pipeline.arrRef spec1 8)) :=
  (dat1 (F := Ideal) V c).arrAt_eq_of_cover 9 _ (fun t _ => flushed_eq V c t hpay) cover

end Cert.KernelIdeal.Reg1

end
-- ==== Proof.KerHost.lean ====
/-
  The kernel program's buffers at the two calls' boundaries, read back to the arguments.

  The contents of every buffer at a boundary are a fold of the host operations over the launch memory. Read at the
  buffers the two calls take, the fold is the named host value of the arguments (the gathered and padded rows, the
  weight slabs, the padded target numbers); read at the first call's result it is the message table as a function of
  those; read at the summed-message buffer it is the scatter of that table; and read at the program's result it is the
  update call's function of the node features, the summed messages and the weights.
-/
import proofs.«158953_j29669634081214_2_alg».proof.Proof.Gen.KernelIdeal.Frame
import proofs.«158953_j29669634081214_2_alg».proof.Proof.KerVals
import proofs.«158953_j29669634081214_2_alg».proof.Proof.KerFuns
import proofs.«158953_j29669634081214_2_alg».proof.Proof.KerReg0
import proofs.«158953_j29669634081214_2_alg».proof.Proof.KerReg1
import Idealize.ShloMosaic.Lib.StableHlo.Run
import Idealize.ShloMosaic.PureOps.Ideal

set_option maxRecDepth 16384

noncomputable section

namespace Cert.KernelIdeal.KHost

open Cert.KernelIdeal Cert.KernelIdeal.Gen Cert.KernelIdeal.KVals Cert.KernelIdeal.KFuns
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## At the first call's entry -/

attribute [local irreducible] Host.gather pad Host.scatterAdd concatenate extractStridedSlice in
set_option maxHeartbeats 1000000 in
theorem W9_v34 : W9 m ρ c (Proc.devRef .tc main_v34) = pad128 (F := Ideal) (xsrc (F := Ideal) (m ((c : Thread nD τ).loc main_arg0)) (m ((c : Thread nD τ).loc main_arg1))) := by
  dsimp only [W9, W8, W7, W6, W5, W4, W3, W2, W1]
  after_results
  rfl

attribute [local irreducible] Host.gather pad Host.scatterAdd concatenate extractStridedSlice in
set_option maxHeartbeats 1000000 in
theorem W9_v35 : W9 m ρ c (Proc.devRef .tc main_v35) = pad128 (F := Ideal) (xdst (F := Ideal) (m ((c : Thread nD τ).loc main_arg0)) (m ((c : Thread nD τ).loc main_arg1))) := by
  dsimp only [W9, W8, W7, W6, W5, W4, W3, W2, W1]
  after_results
  rfl

attribute [local irreducible] Host.gather pad Host.scatterAdd concatenate extractStridedSlice in
set_option maxHeartbeats 1000000 in
theorem W9_v36 : W9 m ρ c (Proc.devRef .tc main_v36) = pad35 (F := Ideal) (eaRel (F := Ideal) (m ((c : Thread nD τ).loc main_arg2)) (m ((c : Thread nD τ).loc main_arg3)) (m ((c : Thread nD τ).loc main_arg1))) := by
  dsimp only [W9, W8, W7, W6, W5, W4, W3, W2, W1]
  after_results_simp
  rfl

attribute [local irreducible] Host.gather pad Host.scatterAdd concatenate extractStridedSlice in
set_option maxHeartbeats 1000000 in
theorem W9_v37 : W9 m ρ c (Proc.devRef .tc main_v37) = padDst (m ((c : Thread nD τ).loc main_arg1)) := by
  dsimp only [W9, W8, W7, W6, W5, W4, W3, W2, W1]
  after_results
  rfl

attribute [local irreducible] Host.gather pad Host.scatterAdd concatenate extractStridedSlice in
set_option maxHeartbeats 1000000 in
theorem W9_v38 : W9 m ρ c (Proc.devRef .tc main_v38) = w1s (F := Ideal) (m ((c : Thread nD τ).loc main_arg4)) := by
  dsimp only [W9, W8, W7, W6, W5, W4, W3, W2, W1]
  after_results
  rfl

attribute [local irreducible] Host.gather pad Host.scatterAdd concatenate extractStridedSlice in
set_option maxHeartbeats 1000000 in
theorem W9_v39 : W9 m ρ c (Proc.devRef .tc main_v39) = w1d (F := Ideal) (m ((c : Thread nD τ).loc main_arg4)) := by
  dsimp only [W9, W8, W7, W6, W5, W4, W3, W2, W1]
  after_results
  rfl

attribute [local irreducible] Host.gather pad Host.scatterAdd concatenate extractStridedSlice in
set_option maxHeartbeats 1000000 in
theorem W9_v40 : W9 m ρ c (Proc.devRef .tc main_v40) = w1e (F := Ideal) (m ((c : Thread nD τ).loc main_arg4)) := by
  dsimp only [W9, W8, W7, W6, W5, W4, W3, W2, W1]
  after_results
  rfl

attribute [local irreducible] Host.gather pad Host.scatterAdd concatenate extractStridedSlice in
set_option maxHeartbeats 1000000 in
theorem W9_arg0 : W9 m ρ c (Proc.devRef .tc main_arg0) = (m ((c : Thread nD τ).loc main_arg0)) := by
  dsimp only [W9, W8, W7, W6, W5, W4, W3, W2, W1]
  after_results

attribute [local irreducible] Host.gather pad Host.scatterAdd concatenate extractStridedSlice in
set_option maxHeartbeats 1000000 in
theorem W9_arg5 : W9 m ρ c (Proc.devRef .tc main_arg5) = (m ((c : Thread nD τ).loc main_arg5)) := by
  dsimp only [W9, W8, W7, W6, W5, W4, W3, W2, W1]
  after_results

attribute [local irreducible] Host.gather pad Host.scatterAdd concatenate extractStridedSlice in
set_option maxHeartbeats 1000000 in
theorem W9_arg6 : W9 m ρ c (Proc.devRef .tc main_arg6) = (m ((c : Thread nD τ).loc main_arg6)) := by
  dsimp only [W9, W8, W7, W6, W5, W4, W3, W2, W1]
  after_results

attribute [local irreducible] Host.gather pad Host.scatterAdd concatenate extractStridedSlice in
set_option maxHeartbeats 1000000 in
theorem W9_arg7 : W9 m ρ c (Proc.devRef .tc main_arg7) = (m ((c : Thread nD τ).loc main_arg7)) := by
  dsimp only [W9, W8, W7, W6, W5, W4, W3, W2, W1]
  after_results

attribute [local irreducible] Host.gather pad Host.scatterAdd concatenate extractStridedSlice in
set_option maxHeartbeats 1000000 in
theorem W9_arg8 : W9 m ρ c (Proc.devRef .tc main_arg8) = (m ((c : Thread nD τ).loc main_arg8)) := by
  dsimp only [W9, W8, W7, W6, W5, W4, W3, W2, W1]
  after_results

attribute [local irreducible] Host.gather pad Host.scatterAdd concatenate extractStridedSlice in
set_option maxHeartbeats 1000000 in
theorem W9_arg9 : W9 m ρ c (Proc.devRef .tc main_arg9) = (m ((c : Thread nD τ).loc main_arg9)) := by
  dsimp only [W9, W8, W7, W6, W5, W4, W3, W2, W1]
  after_results

attribute [local irreducible] Host.gather pad Host.scatterAdd concatenate extractStridedSlice in
set_option maxHeartbeats 1000000 in
theorem W9_arg10 : W9 m ρ c (Proc.devRef .tc main_arg10) = (m ((c : Thread nD τ).loc main_arg10)) := by
  dsimp only [W9, W8, W7, W6, W5, W4, W3, W2, W1]
  after_results

attribute [local irreducible] Host.gather pad Host.scatterAdd concatenate extractStridedSlice in
set_option maxHeartbeats 1000000 in
theorem W9_arg11 : W9 m ρ c (Proc.devRef .tc main_arg11) = (m ((c : Thread nD τ).loc main_arg11)) := by
  dsimp only [W9, W8, W7, W6, W5, W4, W3, W2, W1]
  after_results

attribute [local irreducible] Host.gather pad Host.scatterAdd concatenate extractStridedSlice in
set_option maxHeartbeats 1000000 in
theorem W9_arg12 : W9 m ρ c (Proc.devRef .tc main_arg12) = (m ((c : Thread nD τ).loc main_arg12)) := by
  dsimp only [W9, W8, W7, W6, W5, W4, W3, W2, W1]
  after_results

attribute [local irreducible] Host.gather pad Host.scatterAdd concatenate extractStridedSlice in
set_option maxHeartbeats 1000000 in
theorem W9_arg13 : W9 m ρ c (Proc.devRef .tc main_arg13) = (m ((c : Thread nD τ).loc main_arg13)) := by
  dsimp only [W9, W8, W7, W6, W5, W4, W3, W2, W1]
  after_results

/-! ## At the first call's exit -/

/-- The message table: the first call's function of the padded gathered rows and the weight slabs. -/
abbrev msgK : S802816x128.Idx → EReal :=
  (G0 (pad128 (F := Ideal) (xsrc (F := Ideal) (m ((c : Thread nD τ).loc main_arg0)) (m ((c : Thread nD τ).loc main_arg1)))) (pad128 (F := Ideal) (xdst (F := Ideal) (m ((c : Thread nD τ).loc main_arg0)) (m ((c : Thread nD τ).loc main_arg1))))
      (pad35 (F := Ideal) (eaRel (F := Ideal) (m ((c : Thread nD τ).loc main_arg2)) (m ((c : Thread nD τ).loc main_arg3)) (m ((c : Thread nD τ).loc main_arg1)))) (w1s (F := Ideal) (m ((c : Thread nD τ).loc main_arg4))) (w1d (F := Ideal) (m ((c : Thread nD τ).loc main_arg4))) (w1e (F := Ideal) (m ((c : Thread nD τ).loc main_arg4)))
      (m ((c : Thread nD τ).loc main_arg5)) (m ((c : Thread nD τ).loc main_arg6)) (m ((c : Thread nD τ).loc main_arg7)))

theorem W10_v41 (hpay0 : Reg0.PayloadAt) : W10 m ρ c (Proc.devRef .tc main_v41) = msgK m c := by
  show W10 m ρ c (Proc.devRef .tc (Pipeline.arrRef spec0 9)) = _
  rw [W10_arr m ρ c 9, Reg0.final hpay0 (V9 m ρ) c]
  show G0 (W9 m ρ c (Proc.devRef .tc main_v34)) (W9 m ρ c (Proc.devRef .tc main_v35)) (W9 m ρ c (Proc.devRef .tc main_v36))
    (W9 m ρ c (Proc.devRef .tc main_v38)) (W9 m ρ c (Proc.devRef .tc main_v39)) (W9 m ρ c (Proc.devRef .tc main_v40))
    (W9 m ρ c (Proc.devRef .tc main_arg5)) (W9 m ρ c (Proc.devRef .tc main_arg6)) (W9 m ρ c (Proc.devRef .tc main_arg7)) = _
  rw [W9_v34, W9_v35, W9_v36, W9_v38, W9_v39, W9_v40, W9_arg5, W9_arg6, W9_arg7]

theorem W10_v37 : W10 m ρ c (Proc.devRef .tc main_v37) = padDst (m ((c : Thread nD τ).loc main_arg1)) :=
  (W10_of_ne m ρ c main_v37 (by decide)).trans (W9_v37 m ρ c)

theorem W10_arg0 : W10 m ρ c (Proc.devRef .tc main_arg0) = (m ((c : Thread nD τ).loc main_arg0)) :=
  (W10_of_ne m ρ c main_arg0 (by decide)).trans (W9_arg0 m ρ c)

theorem W10_arg8 : W10 m ρ c (Proc.devRef .tc main_arg8) = (m ((c : Thread nD τ).loc main_arg8)) :=
  (W10_of_ne m ρ c main_arg8 (by decide)).trans (W9_arg8 m ρ c)

theorem W10_arg9 : W10 m ρ c (Proc.devRef .tc main_arg9) = (m ((c : Thread nD τ).loc main_arg9)) :=
  (W10_of_ne m ρ c main_arg9 (by decide)).trans (W9_arg9 m ρ c)

theorem W10_arg10 : W10 m ρ c (Proc.devRef .tc main_arg10) = (m ((c : Thread nD τ).loc main_arg10)) :=
  (W10_of_ne m ρ c main_arg10 (by decide)).trans (W9_arg10 m ρ c)

theorem W10_arg11 : W10 m ρ c (Proc.devRef .tc main_arg11) = (m ((c : Thread nD τ).loc main_arg11)) :=
  (W10_of_ne m ρ c main_arg11 (by decide)).trans (W9_arg11 m ρ c)

theorem W10_arg12 : W10 m ρ c (Proc.devRef .tc main_arg12) = (m ((c : Thread nD τ).loc main_arg12)) :=
  (W10_of_ne m ρ c main_arg12 (by decide)).trans (W9_arg12 m ρ c)

theorem W10_arg13 : W10 m ρ c (Proc.devRef .tc main_arg13) = (m ((c : Thread nD τ).loc main_arg13)) :=
  (W10_of_ne m ρ c main_arg13 (by decide)).trans (W9_arg13 m ρ c)

/-! ## At the second call's entry -/

attribute [local irreducible] Host.gather pad Host.scatterAdd concatenate extractStridedSlice in
theorem W11_v45 (hpay0 : Reg0.PayloadAt) : W11 m ρ c (Proc.devRef .tc main_v45) = aggr (F := Ideal) (m ((c : Thread nD τ).loc main_arg1)) (msgK m c) := by
  dsimp only [W11]
  after_results
  rw [W10_v37, W10_v41 m ρ c hpay0]
  rfl

attribute [local irreducible] Host.gather pad Host.scatterAdd concatenate extractStridedSlice in
theorem W11_v46 : W11 m ρ c (Proc.devRef .tc main_v46) = u1x (F := Ideal) (m ((c : Thread nD τ).loc main_arg8)) := by
  dsimp only [W11]
  after_results
  rw [W10_arg8]
  rfl

attribute [local irreducible] Host.gather pad Host.scatterAdd concatenate extractStridedSlice in
theorem W11_v47 : W11 m ρ c (Proc.devRef .tc main_v47) = u1a (F := Ideal) (m ((c : Thread nD τ).loc main_arg8)) := by
  dsimp only [W11]
  after_results
  rw [W10_arg8]
  rfl

theorem W11_arg0 : W11 m ρ c (Proc.devRef .tc main_arg0) = (m ((c : Thread nD τ).loc main_arg0)) := by
  dsimp only [W11]
  after_results
  exact W10_arg0 m ρ c

theorem W11_arg9 : W11 m ρ c (Proc.devRef .tc main_arg9) = (m ((c : Thread nD τ).loc main_arg9)) := by
  dsimp only [W11]
  after_results
  exact W10_arg9 m ρ c

theorem W11_arg10 : W11 m ρ c (Proc.devRef .tc main_arg10) = (m ((c : Thread nD τ).loc main_arg10)) := by
  dsimp only [W11]
  after_results
  exact W10_arg10 m ρ c

theorem W11_arg11 : W11 m ρ c (Proc.devRef .tc main_arg11) = (m ((c : Thread nD τ).loc main_arg11)) := by
  dsimp only [W11]
  after_results
  exact W10_arg11 m ρ c

theorem W11_arg12 : W11 m ρ c (Proc.devRef .tc main_arg12) = (m ((c : Thread nD τ).loc main_arg12)) := by
  dsimp only [W11]
  after_results
  exact W10_arg12 m ρ c

theorem W11_arg13 : W11 m ρ c (Proc.devRef .tc main_arg13) = (m ((c : Thread nD τ).loc main_arg13)) := by
  dsimp only [W11]
  after_results
  exact W10_arg13 m ρ c

/-! ## The result -/

/-- THE RESULT BUFFER after the run: the update call's function of the node features, the summed messages and the
    weights, all of them named host values of the arguments. -/
theorem W12_v48 (hpay0 : Reg0.PayloadAt) (hpay1 : Reg1.PayloadAt) :
    W12 m ρ c (Proc.devRef .tc main_v48)
      = G1 (m ((c : Thread nD τ).loc main_arg0)) (aggr (F := Ideal) (m ((c : Thread nD τ).loc main_arg1)) (msgK m c)) (u1x (F := Ideal) (m ((c : Thread nD τ).loc main_arg8))) (u1a (F := Ideal) (m ((c : Thread nD τ).loc main_arg8)))
          (m ((c : Thread nD τ).loc main_arg9)) (m ((c : Thread nD τ).loc main_arg10)) (m ((c : Thread nD τ).loc main_arg11)) (m ((c : Thread nD τ).loc main_arg12)) (m ((c : Thread nD τ).loc main_arg13)) := by
  show W12 m ρ c (Proc.devRef .tc (Pipeline.arrRef spec1 9)) = _
  rw [W12_arr m ρ c 9, Reg1.final hpay1 (V11 m ρ) c]
  show G1 (W11 m ρ c (Proc.devRef .tc main_arg0)) (W11 m ρ c (Proc.devRef .tc main_v45)) (W11 m ρ c (Proc.devRef .tc main_v46))
    (W11 m ρ c (Proc.devRef .tc main_v47)) (W11 m ρ c (Proc.devRef .tc main_arg9)) (W11 m ρ c (Proc.devRef .tc main_arg10))
    (W11 m ρ c (Proc.devRef .tc main_arg11)) (W11 m ρ c (Proc.devRef .tc main_arg12)) (W11 m ρ c (Proc.devRef .tc main_arg13)) = _
  rw [W11_arg0, W11_v45 m ρ c hpay0, W11_v46, W11_v47, W11_arg9, W11_arg10, W11_arg11, W11_arg12, W11_arg13]

end Cert.KernelIdeal.KHost

end
-- ==== Proof.LibDotRows.lean ====
/-
  One tactic shared by the kernel's and the reference's matrix products: a contraction of a rank-2 left operand's
  axis 1 with a rank-2 right operand's axis 0, summed over the contraction index, is re-indexed as the sum over
  k of left (p, k) times right (k, q) at the output entry (p, q).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 k q)` for a
    dimension record `D` that contracts the left operand's axis 1 (extent `K`) with the right operand's axis 0 and keeps
    the left operand's axis 0 and the right operand's axis 1 as the output's two axes; `SL` and `SR` are the operands'
    shapes. It expects `l`, `r`, `p`, `q` in scope under these names. -/
macro "dot_rows " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = (c ⟨0, by decide⟩).val := fun c =>
    ($D).rhsIdx_val_of_single rfl (ValueIdx.ix2 p q) c
  have r1 : ∀ c, ((($D).rhsIdx (ValueIdx.ix2 p q) c) 1).val = q.val := fun c => by
    unfold DotDims.rhsIdx
    rw [dif_neg (show ¬(1 : Fin ($SR).rank) ∈ ($D).rhsBatch by decide), dif_pos (show (1 : Fin ($SR).rank) ∈ ($D).rhsNonContracting by decide)]
    rfl
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 k q := funext fun a => Fin.ext (by
    match a with
    | ⟨0, _⟩ => exact (r0 _).trans hk
    | ⟨1, _⟩ => exact r1 _)
  rw [el, er]))

end Cert.Hand
-- ==== Proof.MsgPayload.lean ====
/-
  The edge perceptron's arithmetic at one entry.

  For one edge (a row p of the block) the body multiplies the source features, the target features and the edge's
  own 35 numbers into their three slabs of the first weight matrix, adds the three products and the first bias,
  rectifies, multiplies the hidden row into the second weight matrix and adds the second bias. A matrix product
  into a zero accumulator, read at (p, q), is the plain sum over the contracted coordinate; a change of float format
  is the identity on the extended reals; a bias vector cast to one row and broadcast over the rows reads, at (p, q),
  its entry q. So the entry (p, q) of the body's result is the split spelling of the message at column q.
-/
import proofs.«158953_j29669634081214_2_alg».proof.Proof.Gen.KernelIdeal.Skeleton
import proofs.«158953_j29669634081214_2_alg».proof.Proof.Spec
import proofs.«158953_j29669634081214_2_alg».proof.Proof.LibDotRows
import Idealize.ShloMosaic.Lib.ValueLayout
import Idealize.ShloMosaic.PureOps.Ideal.Laws

noncomputable section

namespace Cert.Gnn.Payload

open Idealize.ShloMosaic Idealize.ShloMosaic.ValueIdx Cert.KernelIdeal Cert.KernelIdeal.Gen
open scoped BigOperators

/-- A 4096×128 by 128×128 product into the zero accumulator, at (p, q): the sum over the 128 contracted coordinates. -/
theorem mm_4096_128 {φ₁ φ₂ : FTy} (l : FVec Ideal S4096x128 φ₁) (r : FVec Ideal S128x128 φ₂) (p : Fin 4096) (q : Fin 128) :
    matmul (F := Ideal) dot_S4096x128_S128x128_S4096x128_1_0_0_1_n_n none l r (constant (F := Ideal) S4096x128 .f32 0x00000000#32)
        (ix2 p q)
      = ∑ k : Fin 128, l (ix2 p k) * r (ix2 k q) := by
  refine (Ideal.matmul_constant_zero_apply dot_S4096x128_S128x128_S4096x128_1_0_0_1_n_n none l r (ix2 p q)).trans ?_
  dot_rows dot_S4096x128_S128x128_S4096x128_1_0_0_1_n_n S4096x128 S128x128 128

/-- A 4096×35 by 35×128 product into the zero accumulator, at (p, q): the sum over the 35 contracted coordinates. -/
theorem mm_4096_35 {φ₁ φ₂ : FTy} (l : FVec Ideal S4096x35 φ₁) (r : FVec Ideal S35x128 φ₂) (p : Fin 4096) (q : Fin 128) :
    matmul (F := Ideal) dot_S4096x35_S35x128_S4096x128_1_0_0_1_n_n none l r (constant (F := Ideal) S4096x128 .f32 0x00000000#32)
        (ix2 p q)
      = ∑ k : Fin 35, l (ix2 p k) * r (ix2 k q) := by
  refine (Ideal.matmul_constant_zero_apply dot_S4096x35_S35x128_S4096x128_1_0_0_1_n_n none l r (ix2 p q)).trans ?_
  dot_rows dot_S4096x35_S35x128_S4096x128_1_0_0_1_n_n S4096x35 S35x128 35

/-- A bias vector cast to one row and broadcast over 4096 rows reads, at (p, q), its entry q. -/
theorem bias_4096 (b : FVec Ideal S128 .f32) (h1 : S128.ShapeCasts S1x128) (h2 : S1x128.Broadcasts S4096x128)
    (p : Fin 4096) (q : Fin 128) :
    broadcastTo S4096x128 (shapeCast S1x128 b h1) h2 (ix2 p q) = b (ix1 q) :=
  (broadcastTo_1b_ab_apply _ h2 p q).trans (shapeCast_a_1a_apply b h1 0 q)

/-- Entry (p, q) of the message body's result: the split spelling of edge p's message, at column q. -/
theorem msg_payload_apply (v0 v3 : Vec Ideal S4096x128 .f32) (v6 : Vec Ideal S4096x35 .f32) (v9 v12 : Vec Ideal S128x128 .f32)
    (v15 : Vec Ideal S35x128 .f32) (v23 : Vec Ideal S128 .f32) (v30 : Vec Ideal S128x128 .f32) (v33 : Vec Ideal S128 .f32)
    (p : Fin 4096) (q : Fin 128) :
    Cert.KernelIdeal.Gen.k0_pay1 (F := Ideal) v0 v3 v6 v9 v12 v15 v23 v30 v33 (ValueIdx.ix2 p q)
      = Cert.Gnn.msgSplit (fun k => v0 (ix2 p k)) (fun k => v3 (ix2 p k)) (fun k => v6 (ix2 p k))
          (fun k j => v9 (ix2 k j)) (fun k j => v12 (ix2 k j)) (fun k j => v15 (ix2 k j)) (fun k => v23 (ix1 k))
          (fun k j => v30 (ix2 k j)) (fun k => v33 (ix1 k)) q := by
  unfold Cert.KernelIdeal.Gen.k0_pay1
  simp only [addf_apply, mm_4096_128, mm_4096_35, bias_4096, truncf_apply, maximumf_apply, broadcast_apply,
    shapeCast_self]
  rfl

end Cert.Gnn.Payload

end
-- ==== Proof.LibColumns.lean ====
/-
  Columns and rows of a rank-2 array, read at an index given by coordinates.

  A row-wise computation on an `[a, b]` array keeps one value per row in a COLUMN, an array of shape `[a, 1]`:
  it cuts single columns out of the array, casts a vector of `a` row results to a column, and broadcasts a column
  back along the second axis. Each of these reads, at `(r, ·)`, one entry of its operand in row `r`:
  • column `o` cut out of `[a, b]` reads the array at `(r, o)` (`slice_col_apply`);
  • a vector `[a]` cast to a column `[a, 1]` reads entry `r` (`shapeCast_a_a1_apply`);
  • a column `[a, 1]` broadcast to `[a, b]` reads, at `(r, j)`, the column's entry `r` for every `j`
    (`broadcastTo_a1_ab_apply`).
  A reduction of `[a, b]` along its second axis reads, at row `r`, a fold over the row's `b` entries. Over the
  extended reals `min` and `max` commute and associate, so the order of the fold does not matter and a kernel's
  vector reduction and a host reduce of the same row are the same fold over `Fin b`, started from the
  accumulator's (the initial value's) extended real (`multiReduction_minimumf_row`, `multiReduction_maximumf_row`,
  `hostReduce_minimumf_row`, `hostReduce_maximumf_row`). The index that a row's result `r` and a coordinate `k`
  on the reduced axis name together is `(r, k)` (`lift_row`).
-/
import Idealize.ShloMosaic.Lib.ValueLayout
import Idealize.ShloMosaic.Lib.ValueIdx
import Idealize.ShloMosaic.Lib.Pipeline.Value
import Idealize.ShloMosaic.PureOps.Ideal.Laws
import Idealize.ShloMosaic.PureOps.Reduce

noncomputable section

namespace Cert.Columns

open Idealize.ShloMosaic Idealize.ShloMosaic.ValueIdx

variable {α : Type}

/-! ## Layout operations on columns -/

/-- Column `o` of an `[a, b]` array, cut out as a column `[a, 1]`, reads at `(r, u)` the array at `(r, o)`. -/
theorem slice_col_apply {a b : ℕ} (o : ℕ) (ho : o < b) (X : (⟨2, ![a, b]⟩ : Shape).Idx → α)
    (h : (⟨2, ![a, b]⟩ : Shape).Slices ![0, o] ⟨2, ![a, 1]⟩) (r : Fin a) (u : Fin 1) :
    extractStridedSlice ⟨2, ![a, 1]⟩ ![0, o] X h (ix2 r u) = X (ix2 r (⟨o, ho⟩ : Fin b)) :=
  slice2_axis1_apply o X h r u ⟨o, ho⟩ (by have := u.isLt; show o = o + u.val; omega)

/-- A vector of `a` entries cast to a column `[a, 1]` reads, at `(r, u)`, entry `r`: the two indices have the same
    row-major position `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column `[a, 1]` broadcast along the second axis to `[a, b]` reads, at `(r, j)`, the column's entry `r`. -/
theorem broadcastTo_a1_ab_apply {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-! ## A row's reduction along the second axis -/

/-- Row `r` of the reduced array with coordinate `k` put back on the reduced (second) axis is the index `(r, k)`. -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A kernel's minimum reduction of an `[a, b]` array along its second axis, at the extended reals, read at row `r`:
    the fold of `min` from the accumulator's value over the row's `b` entries. -/
theorem multiReduction_minimumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.minimumf.neutral φ hφ) (r : Fin a) :
    multiReduction .minimumf [1] ⟨1, ![a]⟩ src acc h hφ hacc (ix1 r)
      = (Finset.univ : Finset (Fin b)).fold min (Ideal.ofBits φ acc) (fun k => src (ix2 r k)) := by
  rw [multiReduction_minimumf_eq_fold]
  refine (h.fold_filter_drop_single _ _ src (ix1 r)).trans ?_
  exact congrArg (fun f => Finset.fold min (Ideal.ofBits φ acc) f (Finset.univ : Finset (Fin b)))
    (funext fun k => congrArg src (lift_row h r k))

/-- The same for a maximum reduction: the fold of `max` over the row. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [multiReduction_maximumf_eq_fold]
  refine (h.fold_filter_drop_single _ _ src (ix1 r)).trans ?_
  exact congrArg (fun f => Finset.fold max (Ideal.ofBits φ acc) f (Finset.univ : Finset (Fin b)))
    (funext fun k => congrArg src (lift_row h r k))

/-- A host reduce with a minimum body of an `[a, b]` array along its second axis, from the scalar constant `w`, read
    at row `r`: the same fold of `min` over the row, from the extended real `w` denotes. -/
theorem hostReduce_minimumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.minimumf x (constant (F := Ideal) (⟨0, ![]⟩ : Shape) .f32 w) h' hu (ix1 r)
      = (Finset.univ : Finset (Fin b)).fold min (Ideal.ofBits .f32 w) (fun k => x (ix2 r k)) := by
  rw [Host.reduce_eq_fold_single FloatOps.minimumf x _ h' h hu]
  exact congrArg (fun f => Finset.fold min (Ideal.ofBits .f32 w) f (Finset.univ : Finset (Fin b)))
    (funext fun k => congrArg x (lift_row h r k))

/-- The same for a maximum body: the fold of `max` over the row. -/
theorem hostReduce_maximumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.maximumf x (constant (F := Ideal) (⟨0, ![]⟩ : Shape) .f32 w) h' hu (ix1 r)
      = (Finset.univ : Finset (Fin b)).fold max (Ideal.ofBits .f32 w) (fun k => x (ix2 r k)) := by
  rw [Host.reduce_eq_fold_single FloatOps.maximumf x _ h' h hu]
  exact congrArg (fun f => Finset.fold max (Ideal.ofBits .f32 w) f (Finset.univ : Finset (Fin b)))
    (funext fun k => congrArg x (lift_row h r k))

end Cert.Columns

end
-- ==== Proof.LibRowSum.lean ====
/-
  The sum of a row of a rank-2 array, read at the row.

  A kernel's vector reduction by addition of an `[a, b]` array along its second axis keeps one value per row.
  Over the extended reals addition is exact, so the value at row `r` is the plain sum over the row's `b` entries,
  `∑ k, src (r, k)`, whatever order the hardware adds them in (`multiReduction_add_row`).
-/
import proofs.«158953_j29669634081214_2_alg».proof.Proof.LibColumns

noncomputable section

namespace Cert.RowSum

open Idealize.ShloMosaic Idealize.ShloMosaic.ValueIdx

/-- A kernel's sum of an `[a, b]` array along its second axis, at the extended reals, read at row `r`: the sum of the
    row's `b` entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  exact congrArg (fun f => Finset.sum (Finset.univ : Finset (Fin b)) f)
    (funext fun k => congrArg src (Cert.Columns.lift_row h r k))

end Cert.RowSum

end
-- ==== Proof.UpdPayload.lean ====
/-
  The node perceptron, the residual and the row normalisation at one entry.

  For one node (a row p of the block) the body multiplies the node's features and its summed messages into their two
  slabs of the first weight matrix, adds the first bias, rectifies, multiplies into the second weight matrix, adds the
  second bias and the node's own features: the row y. It then takes the row's mean (the sum of its 128 entries divided
  by 128), centres the row, takes the mean of the squares of the centred row, adds the guard, takes the reciprocal
  square root and multiplies the centred row by it, by the gain, and adds the offset. A sum along the row, kept as a
  column and broadcast back over the row, reads at every column of row p the same number: the row's sum. So entry
  (p, q) of the body's result is the normalised row at column q.
-/
import proofs.«158953_j29669634081214_2_alg».proof.Proof.Gen.KernelIdeal.Skeleton
import proofs.«158953_j29669634081214_2_alg».proof.Proof.Spec
import proofs.«158953_j29669634081214_2_alg».proof.Proof.LibDotRows
import proofs.«158953_j29669634081214_2_alg».proof.Proof.LibColumns
import proofs.«158953_j29669634081214_2_alg».proof.Proof.LibRowSum
import Idealize.ShloMosaic.Lib.ValueLayout
import Idealize.ShloMosaic.PureOps.Ideal.Laws

noncomputable section

namespace Cert.Gnn.Payload

open Idealize.ShloMosaic Idealize.ShloMosaic.ValueIdx Cert.KernelIdeal Cert.KernelIdeal.Gen
open scoped BigOperators

/-- A 2000×128 by 128×128 product into the zero accumulator, at (p, q): the sum over the 128 contracted coordinates. -/
theorem mm_2000_128 {φ₁ φ₂ : FTy} (l : FVec Ideal S2000x128 φ₁) (r : FVec Ideal S128x128 φ₂) (p : Fin 2000) (q : Fin 128) :
    matmul (F := Ideal) dot_S2000x128_S128x128_S2000x128_1_0_0_1_n_n none l r (constant (F := Ideal) S2000x128 .f32 0x00000000#32)
        (ix2 p q)
      = ∑ k : Fin 128, l (ix2 p k) * r (ix2 k q) := by
  refine (Ideal.matmul_constant_zero_apply dot_S2000x128_S128x128_S2000x128_1_0_0_1_n_n none l r (ix2 p q)).trans ?_
  dot_rows dot_S2000x128_S128x128_S2000x128_1_0_0_1_n_n S2000x128 S128x128 128

/-- A 128-vector cast to one row and broadcast over 2000 rows reads, at (p, q), its entry q. -/
theorem bias_2000 (b : FVec Ideal S128 .f32) (h1 : S128.ShapeCasts S1x128) (h2 : S1x128.Broadcasts S2000x128)
    (p : Fin 2000) (q : Fin 128) :
    broadcastTo S2000x128 (shapeCast S1x128 b h1) h2 (ix2 p q) = b (ix1 q) :=
  (broadcastTo_1b_ab_apply _ h2 p q).trans (shapeCast_a_1a_apply b h1 0 q)

/-- The sum along each row, at row r: the sum of the row's 128 entries. -/
theorem rowsum_2000 (src : FVec Ideal S2000x128 .f32) (h : S2000x128.Reduces [1] S2000) (hφ : FKind.Formats .f32)
    (hacc : (0x00000000#32 : BitVec 32) = 0x00000000#32) (r : Fin 2000) :
    multiReduction (F := Ideal) .add [1] S2000 src 0x00000000#32 h hφ hacc (ix1 r) = ∑ k : Fin 128, src (ix2 r k) :=
  Cert.RowSum.multiReduction_add_row src 0x00000000#32 h hφ hacc r

/-- A vector of 2000 row results kept as a column reads, at (r, u), entry r. -/
theorem col_2000 (x : FVec Ideal S2000 .f32) (h : S2000.ShapeCasts S2000x1) (r : Fin 2000) (u : Fin 1) :
    shapeCast S2000x1 x h (ix2 r u) = x (ix1 r) :=
  Cert.Columns.shapeCast_a_a1_apply x h r u

/-- A column broadcast back over the 128 columns reads, at (r, j), the column's entry r. -/
theorem bcol_2000 (v : FVec Ideal S2000x1 .f32) (h : S2000x1.Broadcasts S2000x128) (r : Fin 2000) (j : Fin 128) :
    broadcastTo S2000x128 v h (ix2 r j) = v (ix2 r (0 : Fin 1)) :=
  Cert.Columns.broadcastTo_a1_ab_apply v h r j

/-- The reciprocal square root of a vector, at an index. -/
theorem rsqrt_apply {s : Shape} {φ : FTy} (x : FVec Ideal s φ) (i : s.Idx) : rsqrt x i = Ideal.rsqrt (x i) := rfl

/-- The row before normalisation, as a function of the column: node p's features plus its perceptron's output. -/
abbrev yrow (v0 v1 : Vec Ideal S2000x128 .f32) (v5 v8 : Vec Ideal S128x128 .f32) (v14 : Vec Ideal S128 .f32)
    (v21 : Vec Ideal S128x128 .f32) (v24 : Vec Ideal S128 .f32) (p : Fin 2000) : Fin 128 → EReal :=
  Cert.Gnn.updSplit (fun k => v0 (ix2 p k)) (fun k => v1 (ix2 p k)) (fun k j => v5 (ix2 k j)) (fun k j => v8 (ix2 k j))
    (fun k => v14 (ix1 k)) (fun k j => v21 (ix2 k j)) (fun k => v24 (ix1 k))

/-- The centred row at (p, q): the row's entry q minus the row's mean. -/
theorem centred_apply (v0 v1 : Vec Ideal S2000x128 .f32) (v5 v8 : Vec Ideal S128x128 .f32) (v14 : Vec Ideal S128 .f32)
    (v21 : Vec Ideal S128x128 .f32) (v24 : Vec Ideal S128 .f32) (p : Fin 2000) (q : Fin 128) :
    k1_pay2 (F := Ideal) v0 v1 v5 v8 v14 v21 v24 (ix2 p q)
      = yrow v0 v1 v5 v8 v14 v21 v24 p q - Cert.Gnn.mean (yrow v0 v1 v5 v8 v14 v21 v24 p) := by
  unfold Cert.KernelIdeal.Gen.k1_pay2
  simp only [subf_apply, bcol_2000, divf_apply, col_2000, broadcast_apply]
  rw [rowsum_2000]
  simp only [addf_apply, mm_2000_128, bias_2000, truncf_apply, maximumf_apply, broadcast_apply, shapeCast_self]
  rfl

/-- The column of sums of squares at (p, u): the sum over the row of the squares of the centred entries. -/
theorem sumsq_apply (v0 v1 : Vec Ideal S2000x128 .f32) (v5 v8 : Vec Ideal S128x128 .f32) (v14 : Vec Ideal S128 .f32)
    (v21 : Vec Ideal S128x128 .f32) (v24 : Vec Ideal S128 .f32) (p : Fin 2000) (u : Fin 1) :
    k1_pay3 (F := Ideal) v0 v1 v5 v8 v14 v21 v24 (ix2 p u)
      = ∑ k : Fin 128, (yrow v0 v1 v5 v8 v14 v21 v24 p k - Cert.Gnn.mean (yrow v0 v1 v5 v8 v14 v21 v24 p))
          * (yrow v0 v1 v5 v8 v14 v21 v24 p k - Cert.Gnn.mean (yrow v0 v1 v5 v8 v14 v21 v24 p)) := by
  unfold Cert.KernelIdeal.Gen.k1_pay3
  simp only [col_2000]
  rw [rowsum_2000]
  simp only [mulf_apply, centred_apply]

/-- The last stage at (p, q), over any centred block, column of sums of squares and column of divisors. -/
theorem scale_apply (v34 : FVec Ideal S2000x128 .f32) (v37 v38 : FVec Ideal S2000x1 .f32) (v45 v49 : Vec Ideal S128 .f32)
    (p : Fin 2000) (q : Fin 128) :
    k1_pay1 (F := Ideal) v34 v37 v38 v45 v49 (ix2 p q)
      = v34 (ix2 p q) * Ideal.rsqrt (Ideal.div (v37 (ix2 p (0 : Fin 1))) (v38 (ix2 p (0 : Fin 1))) + Cert.Gnn.epsE)
          * v45 (ix1 q) + v49 (ix1 q) := by
  unfold Cert.KernelIdeal.Gen.k1_pay1
  simp only [addf_apply, mulf_apply, bias_2000, bcol_2000, rsqrt_apply, divf_apply, broadcast_apply]
  rfl

/-- Entry (p, q) of the update body's result: node p's new row, normalised, at column q. -/
theorem upd_payload_apply (v0 v1 : Vec Ideal S2000x128 .f32) (v5 v8 : Vec Ideal S128x128 .f32) (v14 : Vec Ideal S128 .f32)
    (v21 : Vec Ideal S128x128 .f32) (v24 v45 v49 : Vec Ideal S128 .f32) (p : Fin 2000) (q : Fin 128) :
    Cert.KernelIdeal.Gen.k1_pay1 (F := Ideal) (k1_pay2 v0 v1 v5 v8 v14 v21 v24) (k1_pay3 v0 v1 v5 v8 v14 v21 v24)
        (k1_pay4 (F := Ideal)) v45 v49 (ix2 p q)
      = Cert.Gnn.lnorm
          (Cert.Gnn.updSplit (fun k => v0 (ix2 p k)) (fun k => v1 (ix2 p k)) (fun k j => v5 (ix2 k j))
            (fun k j => v8 (ix2 k j)) (fun k => v14 (ix1 k)) (fun k j => v21 (ix2 k j)) (fun k => v24 (ix1 k)))
          (fun k => v45 (ix1 k)) (fun k => v49 (ix1 k)) q := by
  rw [scale_apply, centred_apply, sumsq_apply]
  rfl

end Cert.Gnn.Payload

end
-- ==== Proof.RefRun.lean ====
/-
  The reference program's @main as a list of its host operations, and its run read back.

  @main is printed as two consecutive windows (`main_part0`, `main_part1`) and calls three module-local
  functions: the rectifier on the edge rows (`fn_relu`), the rectifier on the node rows (`fn_relu_0`) and the
  variance of a row (`fn_var`, which itself calls `fn_where`). A call means its callee's body over the call's
  buffer record, so each callee's operations are listed here at the call site over that record
  (`main_call0`, `main_call1`, `main_call2`, `main_call2.call0`). The first window is `ops0` (62 operations: its
  59 own and the rectifier's 3), the second `ops1` (52: its 26 own, the rectifier's 3, the variance's 20 and the
  3 of the select inside it); @main is the straight line `ops0 ++ ops1`.

  Each window equals the straight line of its list once the callees' definitions unfold and sequencing is
  reassociated; the run is then the library's `StableHlo.run_seq`: every weakly fair execution terminates with
  each TensorCore buffer at the operations' fold over the launch contents (`StableHlo.after`). No operation
  writes an argument buffer, so the fourteen arguments end as they started.
-/
import proofs.«158953_j29669634081214_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first window's 62 operations, in order: the edge index columns, the four gathers, the 291-wide
    concatenate, the first perceptron (its rectifier's three operations over `main_call0`), the scatter-add onto
    the target nodes, the node rows' concatenate and the second perceptron's first layer. -/
abbrev ops0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v3 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v3 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v3 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg3 main_v9 main_v10 ((fun x i => Host.gather gather_S50000x3_S800000x1_S800000x3_1_0_n_n_0_1_13 x i) : (⟨S50000x3, .f32⟩ : BufTy).Contents (Elt F) → (⟨S800000x1, .i32⟩ : BufTy).Contents (Elt F) → (⟨S800000x3, .f32⟩ : BufTy).Contents (Elt F)),
    StableHlo.nullary main_c_1 (constantI S_ 32 0#32),
    StableHlo.unary main_c_1 main_v11 (broadcastInDim S800000 ![] bcast_S_S800000 : (⟨S_, .i32⟩ : BufTy).Contents (Elt F) → (⟨S800000, .i32⟩ : BufTy).Contents (Elt F)),
    StableHlo.binary main_v1 main_v11 main_v12 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v13 (broadcastInDim S800000 ![] bcast_S_S800000 : (⟨S_, .i32⟩ : BufTy).Contents (Elt F) → (⟨S800000, .i32⟩ : BufTy).Contents (Elt F)),
    StableHlo.binary main_v1 main_v13 main_v14 (addi : (⟨S800000, .i32⟩ : BufTy).Contents (Elt F) → (⟨S800000, .i32⟩ : BufTy).Contents (Elt F) → (⟨S800000, .i32⟩ : BufTy).Contents (Elt F)),
    StableHlo.ternary main_v12 main_v14 main_v1 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v15 main_v16 (broadcastInDim S800000x1 ![0] bcast_S800000_S800000x1_0 : (⟨S800000, .i32⟩ : BufTy).Contents (Elt F) → (⟨S800000x1, .i32⟩ : BufTy).Contents (Elt F)),
    StableHlo.binary main_arg3 main_v16 main_v17 ((fun x i => Host.gather gather_S50000x3_S800000x1_S800000x3_1_0_n_n_0_1_13 x i) : (⟨S50000x3, .f32⟩ : BufTy).Contents (Elt F) → (⟨S800000x1, .i32⟩ : BufTy).Contents (Elt F) → (⟨S800000x3, .f32⟩ : BufTy).Contents (Elt F)),
    StableHlo.binary main_v10 main_v17 main_v18 (subf : (⟨S800000x3, .f32⟩ : BufTy).Contents (Elt F) → (⟨S800000x3, .f32⟩ : BufTy).Contents (Elt F) → (⟨S800000x3, .f32⟩ : BufTy).Contents (Elt F)),
    StableHlo.nullary main_c_3 (constantI S_ 32 0#32),
    StableHlo.unary main_c_3 main_v19 (broadcastInDim S800000 ![] bcast_S_S800000 : (⟨S_, .i32⟩ : BufTy).Contents (Elt F) → (⟨S800000, .i32⟩ : BufTy).Contents (Elt F)),
    StableHlo.binary main_v1 main_v19 main_v20 (cmpi .slt : (⟨S800000, .i32⟩ : BufTy).Contents (Elt F) → (⟨S800000, .i32⟩ : BufTy).Contents (Elt F) → (⟨S800000, .i1⟩ : BufTy).Contents (Elt F)),
    StableHlo.nullary main_c_4 (constantI S_ 32 50000#32),
    StableHlo.unary main_c_4 main_v21 (broadcastInDim S800000 ![] bcast_S_S800000 : (⟨S_, .i32⟩ : BufTy).Contents (Elt F) → (⟨S800000, .i32⟩ : BufTy).Contents (Elt F)),
    StableHlo.binary main_v1 main_v21 main_v22 (addi : (⟨S800000, .i32⟩ : BufTy).Contents (Elt F) → (⟨S800000, .i32⟩ : BufTy).Contents (Elt F) → (⟨S800000, .i32⟩ : BufTy).Contents (Elt F)),
    StableHlo.ternary main_v20 main_v22 main_v1 main_v23 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v23 main_v24 (broadcastInDim S800000x1 ![0] bcast_S800000_S800000x1_0 : (⟨S800000, .i32⟩ : BufTy).Contents (Elt F) → (⟨S800000x1, .i32⟩ : BufTy).Contents (Elt F)),
    StableHlo.binary main_arg0 main_v24 main_v25 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_c_5 (constantI S_ 32 0#32),
    StableHlo.unary main_c_5 main_v26 (broadcastInDim S800000 ![] bcast_S_S800000 : (⟨S_, .i32⟩ : BufTy).Contents (Elt F) → (⟨S800000, .i32⟩ : BufTy).Contents (Elt F)),
    StableHlo.binary main_v3 main_v26 main_v27 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 50000#32),
    StableHlo.unary main_c_6 main_v28 (broadcastInDim S800000 ![] bcast_S_S800000 : (⟨S_, .i32⟩ : BufTy).Contents (Elt F) → (⟨S800000, .i32⟩ : BufTy).Contents (Elt F)),
    StableHlo.binary main_v3 main_v28 main_v29 (addi : (⟨S800000, .i32⟩ : BufTy).Contents (Elt F) → (⟨S800000, .i32⟩ : BufTy).Contents (Elt F) → (⟨S800000, .i32⟩ : BufTy).Contents (Elt F)),
    StableHlo.ternary main_v27 main_v29 main_v3 main_v30 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v30 main_v31 (broadcastInDim S800000x1 ![0] bcast_S800000_S800000x1_0 : (⟨S800000, .i32⟩ : BufTy).Contents (Elt F) → (⟨S800000x1, .i32⟩ : BufTy).Contents (Elt F)),
    StableHlo.binary main_arg0 main_v31 main_v32 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nary ![main_v25, main_v32, main_arg2, main_v18] main_v33 (fun u => concatenate S800000x291 1 [⟨S800000x128, u 0⟩, ⟨S800000x128, u 1⟩, ⟨S800000x32, u 2⟩, ⟨S800000x3, u 3⟩] concatenates_S800000x128_S800000x128_S800000x32_S800000x3_S800000x291_d1),
    StableHlo.binary main_v33 main_arg4 main_v34 ((fun l r => Host.dotGeneral dot_S800000x291_S291x128_S800000x128_1_0_0_1_n_n none l r) : (⟨S800000x291, .f32⟩ : BufTy).Contents (Elt F) → (⟨S291x128, .f32⟩ : BufTy).Contents (Elt F) → (⟨S800000x128, .f32⟩ : BufTy).Contents (Elt F)),
    StableHlo.unary main_arg5 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S800000x128 ![0, 1] bcast_S1x128_S800000x128_0_1 : (⟨S1x128, .f32⟩ : BufTy).Contents (Elt F) → (⟨S800000x128, .f32⟩ : BufTy).Contents (Elt F)),
    StableHlo.binary main_v34 main_v36 main_v37 (addf : (⟨S800000x128, .f32⟩ : BufTy).Contents (Elt F) → (⟨S800000x128, .f32⟩ : BufTy).Contents (Elt F) → (⟨S800000x128, .f32⟩ : BufTy).Contents (Elt F)),
    StableHlo.TRef.nullary main_call0.cst (constant S_ .f32 0x00000000#32),
    StableHlo.TRef.unary main_call0.cst main_call0.v0 (broadcastInDim S800000x128 ![] bcast_S_S800000x128),
    StableHlo.TRef.binary (.of main_v37 : StableHlo.TRef sig ⟨S800000x128, .f32⟩) main_call0.v0 main_call0.v1 maximumf,
    StableHlo.binary main_v38 main_arg6 main_v39 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    StableHlo.unary main_arg7 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S800000x128 ![0, 1] bcast_S1x128_S800000x128_0_1 : (⟨S1x128, .f32⟩ : BufTy).Contents (Elt F) → (⟨S800000x128, .f32⟩ : BufTy).Contents (Elt F)),
    StableHlo.binary main_v39 main_v41 main_v42 (addf : (⟨S800000x128, .f32⟩ : BufTy).Contents (Elt F) → (⟨S800000x128, .f32⟩ : BufTy).Contents (Elt F) → (⟨S800000x128, .f32⟩ : BufTy).Contents (Elt F)),
    StableHlo.nullary main_cst (constant S_ .f32 0x00000000#32),
    StableHlo.unary main_cst main_v43 (broadcastInDim S50000x128 ![] bcast_S_S50000x128 : (⟨S_, .f32⟩ : BufTy).Contents (Elt F) → (⟨S50000x128, .f32⟩ : BufTy).Contents (Elt F)),
    StableHlo.unary main_v3 main_v44 (broadcastInDim S800000x1 ![0] bcast_S800000_S800000x1_0 : (⟨S800000, .i32⟩ : BufTy).Contents (Elt F) → (⟨S800000x1, .i32⟩ : BufTy).Contents (Elt F)),
    StableHlo.ternary main_v43 main_v44 main_v42 main_v45 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_arg0 main_v45 main_v46 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    StableHlo.binary main_v46 main_arg8 main_v47 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg9 main_v48 (broadcastInDim S1x128 ![1] bcast_S128_S1x128_1 : (⟨S128, .f32⟩ : BufTy).Contents (Elt F) → (⟨S1x128, .f32⟩ : BufTy).Contents (Elt F)),
    StableHlo.unary main_v48 main_v49 (broadcastInDim S50000x128 ![0, 1] bcast_S1x128_S50000x128_0_1 : (⟨S1x128, .f32⟩ : BufTy).Contents (Elt F) → (⟨S50000x128, .f32⟩ : BufTy).Contents (Elt F)),
    StableHlo.binary main_v47 main_v49 main_v50 (addf : (⟨S50000x128, .f32⟩ : BufTy).Contents (Elt F) → (⟨S50000x128, .f32⟩ : BufTy).Contents (Elt F) → (⟨S50000x128, .f32⟩ : BufTy).Contents (Elt F)) ]

/-- The second window's 52 operations, in order: the second perceptron's rectifier (over `main_call1`) and
    second layer, the residual, the row mean, the row variance (the 20 operations of the variance over
    `main_call2`, then the 3 of its select over `main_call2.call0`), and the normalisation with gain and offset. -/
abbrev ops1 : List (HloOp τ sig (Elt F)) :=
  [ StableHlo.TRef.nullary main_call1.cst (constant S_ .f32 0x00000000#32),
    StableHlo.TRef.unary main_call1.cst main_call1.v0 (broadcastInDim S50000x128 ![] bcast_S_S50000x128),
    StableHlo.TRef.binary (.of main_v50 : StableHlo.TRef sig ⟨S50000x128, .f32⟩) main_call1.v0 main_call1.v1 maximumf,
    StableHlo.binary main_v51 main_arg10 main_v52 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg11 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S50000x128 ![0, 1] bcast_S1x128_S50000x128_0_1 : (⟨S1x128, .f32⟩ : BufTy).Contents (Elt F) → (⟨S50000x128, .f32⟩ : BufTy).Contents (Elt F)),
    StableHlo.binary main_v52 main_v54 main_v55 (addf : (⟨S50000x128, .f32⟩ : BufTy).Contents (Elt F) → (⟨S50000x128, .f32⟩ : BufTy).Contents (Elt F) → (⟨S50000x128, .f32⟩ : BufTy).Contents (Elt F)),
    StableHlo.binary main_arg0 main_v55 main_v56 (addf : (⟨S50000x128, .f32⟩ : BufTy).Contents (Elt F) → (⟨S50000x128, .f32⟩ : BufTy).Contents (Elt F) → (⟨S50000x128, .f32⟩ : BufTy).Contents (Elt F)),
    StableHlo.nullary main_cst_7 (constant S_ .f32 0x00000000#32),
    StableHlo.binary main_v56 main_cst_7 main_v57 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v57 main_v58 (broadcastInDim S50000x1 ![0] bcast_S50000_S50000x1_0 : (⟨S50000, .f32⟩ : BufTy).Contents (Elt F) → (⟨S50000x1, .f32⟩ : BufTy).Contents (Elt F)),
    StableHlo.nullary main_cst_8 (constant S_ .f32 0x43000000#32),
    StableHlo.unary main_cst_8 main_v59 (broadcastInDim S50000x1 ![] bcast_S_S50000x1 : (⟨S_, .f32⟩ : BufTy).Contents (Elt F) → (⟨S50000x1, .f32⟩ : BufTy).Contents (Elt F)),
    StableHlo.binary main_v58 main_v59 main_v60 (Host.divf : (⟨S50000x1, .f32⟩ : BufTy).Contents (Elt F) → (⟨S50000x1, .f32⟩ : BufTy).Contents (Elt F) → (⟨S50000x1, .f32⟩ : BufTy).Contents (Elt F)),
    StableHlo.nullary main_c_9 (constantI S_ 32 0#32),
    StableHlo.TRef.nullary main_call2.cst (constant S_ .f32 0x00000000#32),
    StableHlo.TRef.binary (.of main_v56 : StableHlo.TRef sig ⟨S50000x128, .f32⟩) main_call2.cst main_call2.v0 (fun x v => Host.reduceAdd x v reducesTo_S50000x128_S50000_d1 h_S_),
    StableHlo.TRef.unary main_call2.v0 main_call2.v1 (broadcastInDim S50000x1 ![0] bcast_S50000_S50000x1_0),
    StableHlo.TRef.nullary main_call2.cst_0 (constant S_ .f32 0x43000000#32),
    StableHlo.TRef.unary main_call2.cst_0 main_call2.v2 (broadcastInDim S50000x1 ![] bcast_S_S50000x1),
    StableHlo.TRef.binary main_call2.v1 main_call2.v2 main_call2.v3 Host.divf,
    StableHlo.TRef.unary main_call2.v3 main_call2.v4 (broadcastInDim S50000x128 ![0, 1] bcast_S50000x1_S50000x128_0_1),
    StableHlo.TRef.binary (.of main_v56 : StableHlo.TRef sig ⟨S50000x128, .f32⟩) main_call2.v4 main_call2.v5 subf,
    StableHlo.TRef.binary main_call2.v5 main_call2.v5 main_call2.v6 mulf,
    StableHlo.TRef.unary (.of main_c_9 : StableHlo.TRef sig ⟨S_, .i32⟩) main_call2.v7 (sitofp .f32),
    StableHlo.TRef.nullary main_call2.cst_1 (constant S_ .f32 0x43000000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S50000_d1 h_S_),
    StableHlo.TRef.unary main_call2.v9 main_call2.v10 (broadcastInDim S50000x1 ![0] bcast_S50000_S50000x1_0),
    StableHlo.TRef.unary main_call2.v8 main_call2.v11 (broadcastInDim S50000x1 ![] bcast_S_S50000x1),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S50000x1 ![] bcast_S_S50000x1),
    StableHlo.TRef.ternary main_call2.v13 main_call2.v12 main_call2.call0.v1 main_call2.call0.v2 (fun p a b => select (broadcastInDim S50000x1 ![] bcast_S_S50000x1 p) a b),
    StableHlo.unary main_v60 main_v62 (broadcastInDim S50000x128 ![0, 1] bcast_S50000x1_S50000x128_0_1 : (⟨S50000x1, .f32⟩ : BufTy).Contents (Elt F) → (⟨S50000x128, .f32⟩ : BufTy).Contents (Elt F)),
    StableHlo.binary main_v56 main_v62 main_v63 (subf : (⟨S50000x128, .f32⟩ : BufTy).Contents (Elt F) → (⟨S50000x128, .f32⟩ : BufTy).Contents (Elt F) → (⟨S50000x128, .f32⟩ : BufTy).Contents (Elt F)),
    StableHlo.nullary main_cst_10 (constant S_ .f32 0x3727C5AC#32),
    StableHlo.unary main_cst_10 main_v64 (broadcastInDim S50000x1 ![] bcast_S_S50000x1 : (⟨S_, .f32⟩ : BufTy).Contents (Elt F) → (⟨S50000x1, .f32⟩ : BufTy).Contents (Elt F)),
    StableHlo.binary main_v61 main_v64 main_v65 (addf : (⟨S50000x1, .f32⟩ : BufTy).Contents (Elt F) → (⟨S50000x1, .f32⟩ : BufTy).Contents (Elt F) → (⟨S50000x1, .f32⟩ : BufTy).Contents (Elt F)),
    StableHlo.unary main_v65 main_v66 (Host.rsqrt : (⟨S50000x1, .f32⟩ : BufTy).Contents (Elt F) → (⟨S50000x1, .f32⟩ : BufTy).Contents (Elt F)),
    StableHlo.unary main_v66 main_v67 (broadcastInDim S50000x128 ![0, 1] bcast_S50000x1_S50000x128_0_1 : (⟨S50000x1, .f32⟩ : BufTy).Contents (Elt F) → (⟨S50000x128, .f32⟩ : BufTy).Contents (Elt F)),
    StableHlo.binary main_v63 main_v67 main_v68 (mulf : (⟨S50000x128, .f32⟩ : BufTy).Contents (Elt F) → (⟨S50000x128, .f32⟩ : BufTy).Contents (Elt F) → (⟨S50000x128, .f32⟩ : BufTy).Contents (Elt F)),
    StableHlo.unary main_arg12 main_v69 (broadcastInDim S1x128 ![1] bcast_S128_S1x128_1 : (⟨S128, .f32⟩ : BufTy).Contents (Elt F) → (⟨S1x128, .f32⟩ : BufTy).Contents (Elt F)),
    StableHlo.unary main_v69 main_v70 (broadcastInDim S50000x128 ![0, 1] bcast_S1x128_S50000x128_0_1 : (⟨S1x128, .f32⟩ : BufTy).Contents (Elt F) → (⟨S50000x128, .f32⟩ : BufTy).Contents (Elt F)),
    StableHlo.binary main_v68 main_v70 main_v71 (mulf : (⟨S50000x128, .f32⟩ : BufTy).Contents (Elt F) → (⟨S50000x128, .f32⟩ : BufTy).Contents (Elt F) → (⟨S50000x128, .f32⟩ : BufTy).Contents (Elt F)),
    StableHlo.unary main_arg13 main_v72 (broadcastInDim S1x128 ![1] bcast_S128_S1x128_1 : (⟨S128, .f32⟩ : BufTy).Contents (Elt F) → (⟨S1x128, .f32⟩ : BufTy).Contents (Elt F)),
    StableHlo.unary main_v72 main_v73 (broadcastInDim S50000x128 ![0, 1] bcast_S1x128_S50000x128_0_1 : (⟨S1x128, .f32⟩ : BufTy).Contents (Elt F) → (⟨S50000x128, .f32⟩ : BufTy).Contents (Elt F)),
    StableHlo.binary main_v71 main_v73 main_v74 (addf : (⟨S50000x128, .f32⟩ : BufTy).Contents (Elt F) → (⟨S50000x128, .f32⟩ : BufTy).Contents (Elt F) → (⟨S50000x128, .f32⟩ : BufTy).Contents (Elt F)) ]

/-- @main's 114 operations. -/
abbrev ops : List (HloOp τ sig (Elt F)) := ops0 ++ ops1

/-- The fold over a concatenation is the second list's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem after_ops (V : Valuation τ sig (Elt F)) : after ops V = after ops1 (after ops0 V) :=
  after_append ops0 ops1 V

set_option maxHeartbeats 4000000 in  -- sixty-two binds, each with its operation's type written out, re-associated in one pass
set_option maxRecDepth 4096 in
/-- The first window is the straight line of `ops0`: the rectifier's definition unfolded at its call and the
    record at its fields, both sides are one chain of `hlo` steps once sequencing is reassociated. -/
theorem main_part0_eq (c : Dev nD) : main_part0 (F := F) c = seq ops0 := by
  simp only [main_part0, fn_relu.body, seq, bind_assoc, pure_bind]
  rfl

set_option maxHeartbeats 4000000 in  -- fifty-two binds re-associated in one pass
set_option maxRecDepth 4096 in
/-- The second window is the straight line of `ops1`, likewise. -/
theorem main_part1_eq (c : Dev nD) : main_part1 (F := F) c = seq ops1 := by
  simp only [main_part1, fn_relu_0.body, fn_var.body, fn_where.body, seq, bind_assoc, pure_bind]

/-- @main is the straight line of its 114 operations. -/
theorem main_eq (c : Dev nD) : main (F := F) c = seq ops := by
  rw [seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    unary_bufs_sub .., unary_bufs_sub .., ternary_bufs_sub .., binary_bufs_sub .., binary_bufs_sub .., unary_bufs_sub ..,
    unary_bufs_sub .., binary_bufs_sub ..⟩

theorem ops1_sub : (ops1 : List (HloOp τ sig (Elt F))).Forall fun op => op.bufs ⊆ tcRefs τ sig :=
  ⟨nullary_bufs_sub .., unary_bufs_sub .., binary_bufs_sub .., binary_bufs_sub .., unary_bufs_sub .., unary_bufs_sub ..,
    binary_bufs_sub .., binary_bufs_sub .., nullary_bufs_sub .., binary_bufs_sub .., unary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    unary_bufs_sub .., binary_bufs_sub .., nullary_bufs_sub .., binary_bufs_sub .., nullary_bufs_sub .., unary_bufs_sub ..,
    unary_bufs_sub .., ternary_bufs_sub .., unary_bufs_sub .., binary_bufs_sub .., nullary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub ..⟩

theorem ops_sub : (ops : List (HloOp τ sig (Elt F))).Forall fun op => op.bufs ⊆ tcRefs τ sig := by
  rw [List.forall_iff_forall_mem]
  intro op h
  rcases List.mem_append.mp h with h | h
  · exact (List.forall_iff_forall_mem.mp ops0_sub) op h
  · exact (List.forall_iff_forall_mem.mp ops1_sub) op h

/-- At the compiled mesh, for any float values, from any memory with zero counters: every weakly fair execution
    of @main on the TensorCores terminates, and every final state has each TensorCore buffer at the operations'
    fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The arguments are not written -/

theorem arg0_eq0 (V : Valuation τ sig (Elt F)) :
    after ops0 V (main_arg0 : DevRef τ sig) = V (main_arg0 : DevRef τ sig) := by
  after_results_simp

theorem arg1_eq0 (V : Valuation τ sig (Elt F)) :
    after ops0 V (main_arg1 : DevRef τ sig) = V (main_arg1 : DevRef τ sig) := by
  after_results_simp

theorem arg2_eq0 (V : Valuation τ sig (Elt F)) :
    after ops0 V (main_arg2 : DevRef τ sig) = V (main_arg2 : DevRef τ sig) := by
  after_results_simp

theorem arg3_eq0 (V : Valuation τ sig (Elt F)) :
    after ops0 V (main_arg3 : DevRef τ sig) = V (main_arg3 : DevRef τ sig) := by
  after_results_simp

theorem arg4_eq0 (V : Valuation τ sig (Elt F)) :
    after ops0 V (main_arg4 : DevRef τ sig) = V (main_arg4 : DevRef τ sig) := by
  after_results_simp

theorem arg5_eq0 (V : Valuation τ sig (Elt F)) :
    after ops0 V (main_arg5 : DevRef τ sig) = V (main_arg5 : DevRef τ sig) := by
  after_results_simp

theorem arg6_eq0 (V : Valuation τ sig (Elt F)) :
    after ops0 V (main_arg6 : DevRef τ sig) = V (main_arg6 : DevRef τ sig) := by
  after_results_simp

theorem arg7_eq0 (V : Valuation τ sig (Elt F)) :
    after ops0 V (main_arg7 : DevRef τ sig) = V (main_arg7 : DevRef τ sig) := by
  after_results_simp

theorem arg8_eq0 (V : Valuation τ sig (Elt F)) :
    after ops0 V (main_arg8 : DevRef τ sig) = V (main_arg8 : DevRef τ sig) := by
  after_results_simp

theorem arg9_eq0 (V : Valuation τ sig (Elt F)) :
    after ops0 V (main_arg9 : DevRef τ sig) = V (main_arg9 : DevRef τ sig) := by
  after_results_simp

theorem arg10_eq0 (V : Valuation τ sig (Elt F)) :
    after ops0 V (main_arg10 : DevRef τ sig) = V (main_arg10 : DevRef τ sig) := by
  after_results_simp

theorem arg11_eq0 (V : Valuation τ sig (Elt F)) :
    after ops0 V (main_arg11 : DevRef τ sig) = V (main_arg11 : DevRef τ sig) := by
  after_results_simp

theorem arg12_eq0 (V : Valuation τ sig (Elt F)) :
    after ops0 V (main_arg12 : DevRef τ sig) = V (main_arg12 : DevRef τ sig) := by
  after_results_simp

theorem arg13_eq0 (V : Valuation τ sig (Elt F)) :
    after ops0 V (main_arg13 : DevRef τ sig) = V (main_arg13 : DevRef τ sig) := by
  after_results_simp

theorem arg0_eq1 (V : Valuation τ sig (Elt F)) :
    after ops1 V (main_arg0 : DevRef τ sig) = V (main_arg0 : DevRef τ sig) := by
  after_results_simp

theorem arg1_eq1 (V : Valuation τ sig (Elt F)) :
    after ops1 V (main_arg1 : DevRef τ sig) = V (main_arg1 : DevRef τ sig) := by
  after_results_simp

theorem arg2_eq1 (V : Valuation τ sig (Elt F)) :
    after ops1 V (main_arg2 : DevRef τ sig) = V (main_arg2 : DevRef τ sig) := by
  after_results_simp

theorem arg3_eq1 (V : Valuation τ sig (Elt F)) :
    after ops1 V (main_arg3 : DevRef τ sig) = V (main_arg3 : DevRef τ sig) := by
  after_results_simp

theorem arg4_eq1 (V : Valuation τ sig (Elt F)) :
    after ops1 V (main_arg4 : DevRef τ sig) = V (main_arg4 : DevRef τ sig) := by
  after_results_simp

theorem arg5_eq1 (V : Valuation τ sig (Elt F)) :
    after ops1 V (main_arg5 : DevRef τ sig) = V (main_arg5 : DevRef τ sig) := by
  after_results_simp

theorem arg6_eq1 (V : Valuation τ sig (Elt F)) :
    after ops1 V (main_arg6 : DevRef τ sig) = V (main_arg6 : DevRef τ sig) := by
  after_results_simp

theorem arg7_eq1 (V : Valuation τ sig (Elt F)) :
    after ops1 V (main_arg7 : DevRef τ sig) = V (main_arg7 : DevRef τ sig) := by
  after_results_simp

theorem arg8_eq1 (V : Valuation τ sig (Elt F)) :
    after ops1 V (main_arg8 : DevRef τ sig) = V (main_arg8 : DevRef τ sig) := by
  after_results_simp

theorem arg9_eq1 (V : Valuation τ sig (Elt F)) :
    after ops1 V (main_arg9 : DevRef τ sig) = V (main_arg9 : DevRef τ sig) := by
  after_results_simp

theorem arg10_eq1 (V : Valuation τ sig (Elt F)) :
    after ops1 V (main_arg10 : DevRef τ sig) = V (main_arg10 : DevRef τ sig) := by
  after_results_simp

theorem arg11_eq1 (V : Valuation τ sig (Elt F)) :
    after ops1 V (main_arg11 : DevRef τ sig) = V (main_arg11 : DevRef τ sig) := by
  after_results_simp

theorem arg12_eq1 (V : Valuation τ sig (Elt F)) :
    after ops1 V (main_arg12 : DevRef τ sig) = V (main_arg12 : DevRef τ sig) := by
  after_results_simp

theorem arg13_eq1 (V : Valuation τ sig (Elt F)) :
    after ops1 V (main_arg13 : DevRef τ sig) = V (main_arg13 : DevRef τ sig) := by
  after_results_simp

theorem arg0_eq (V : Valuation τ sig (Elt F)) :
    after ops V (main_arg0 : DevRef τ sig) = V (main_arg0 : DevRef τ sig) := by
  rw [after_ops, arg0_eq1, arg0_eq0]

theorem arg1_eq (V : Valuation τ sig (Elt F)) :
    after ops V (main_arg1 : DevRef τ sig) = V (main_arg1 : DevRef τ sig) := by
  rw [after_ops, arg1_eq1, arg1_eq0]

theorem arg2_eq (V : Valuation τ sig (Elt F)) :
    after ops V (main_arg2 : DevRef τ sig) = V (main_arg2 : DevRef τ sig) := by
  rw [after_ops, arg2_eq1, arg2_eq0]

theorem arg3_eq (V : Valuation τ sig (Elt F)) :
    after ops V (main_arg3 : DevRef τ sig) = V (main_arg3 : DevRef τ sig) := by
  rw [after_ops, arg3_eq1, arg3_eq0]

theorem arg4_eq (V : Valuation τ sig (Elt F)) :
    after ops V (main_arg4 : DevRef τ sig) = V (main_arg4 : DevRef τ sig) := by
  rw [after_ops, arg4_eq1, arg4_eq0]

theorem arg5_eq (V : Valuation τ sig (Elt F)) :
    after ops V (main_arg5 : DevRef τ sig) = V (main_arg5 : DevRef τ sig) := by
  rw [after_ops, arg5_eq1, arg5_eq0]

theorem arg6_eq (V : Valuation τ sig (Elt F)) :
    after ops V (main_arg6 : DevRef τ sig) = V (main_arg6 : DevRef τ sig) := by
  rw [after_ops, arg6_eq1, arg6_eq0]

theorem arg7_eq (V : Valuation τ sig (Elt F)) :
    after ops V (main_arg7 : DevRef τ sig) = V (main_arg7 : DevRef τ sig) := by
  rw [after_ops, arg7_eq1, arg7_eq0]

theorem arg8_eq (V : Valuation τ sig (Elt F)) :
    after ops V (main_arg8 : DevRef τ sig) = V (main_arg8 : DevRef τ sig) := by
  rw [after_ops, arg8_eq1, arg8_eq0]

theorem arg9_eq (V : Valuation τ sig (Elt F)) :
    after ops V (main_arg9 : DevRef τ sig) = V (main_arg9 : DevRef τ sig) := by
  rw [after_ops, arg9_eq1, arg9_eq0]

theorem arg10_eq (V : Valuation τ sig (Elt F)) :
    after ops V (main_arg10 : DevRef τ sig) = V (main_arg10 : DevRef τ sig) := by
  rw [after_ops, arg10_eq1, arg10_eq0]

theorem arg11_eq (V : Valuation τ sig (Elt F)) :
    after ops V (main_arg11 : DevRef τ sig) = V (main_arg11 : DevRef τ sig) := by
  rw [after_ops, arg11_eq1, arg11_eq0]

theorem arg12_eq (V : Valuation τ sig (Elt F)) :
    after ops V (main_arg12 : DevRef τ sig) = V (main_arg12 : DevRef τ sig) := by
  rw [after_ops, arg12_eq1, arg12_eq0]

theorem arg13_eq (V : Valuation τ sig (Elt F)) :
    after ops V (main_arg13 : DevRef τ sig) = V (main_arg13 : DevRef τ sig) := by
  rw [after_ops, arg13_eq1, arg13_eq0]

end Cert.ReferenceIdeal.RefRun

end
-- ==== Proof.RefVals.lean ====
/-
  The reference's result as one term of the argument contents.

  The layer's stages, each a definition over arrays of the printed shapes, at any float values:
  the edge index table's two rows and their index columns, the four gathers (left as the host's gather of an
  array at an index column, never opened here), the 291-wide edge rows, the edge perceptron, the scatter-add of
  the messages onto the target nodes, the 256-wide node rows, the node perceptron, the residual, and the row
  normalisation (mean, guarded variance, reciprocal square root, gain and offset). Each definition is the
  printed operations' own term, so unfolding it shows the operations.

  The result buffer's fold over @main's operations is the composition of these stages at the arguments'
  contents (`out_eq`): the first window's fold at its last buffer is the node perceptron's pre-activation
  (`window0_eq`), the second window's fold over ANY contents is the rest of the layer from that buffer
  (`window1_eq`), and the arguments pass through the first window unchanged.
-/
import proofs.«158953_j29669634081214_2_alg».proof.Proof.RefRun

noncomputable section

namespace Cert.ReferenceIdeal.RefVals

open Cert.ReferenceIdeal Cert.ReferenceIdeal.Gen Cert.ReferenceIdeal.RefRun Idealize.ShloMosaic Idealize.ShloMosaic.TcCoe
  Idealize.SL.Sem Idealize.ShloMosaic.StableHlo

variable {F : FTy → Type} [FloatOps F]

/-! ## The edge index table -/

/-- Row 0 of the edge index table, as a vector: each edge's source node (%1). -/
def srcRaw (ei : IVec S2x800000 32) : IVec S800000 32 :=
  shapeCast S800000 (extractStridedSlice S1x800000 ![0, 0] ei slices_S2x800000_S1x800000_0_0) shapeCasts_S1x800000_S800000

/-- Row 1 of the edge index table, as a vector: each edge's target node (%3). -/
def dstRaw (ei : IVec S2x800000 32) : IVec S800000 32 :=
  shapeCast S800000 (extractStridedSlice S1x800000 ![1, 0] ei slices_S2x800000_S1x800000_1_0) shapeCasts_S1x800000_S800000

/-- A negative node number counted from the end: `i < 0 ? i + 50000 : i` (%8, %15, %23, %30). -/
def wrap (r : IVec S800000 32) : IVec S800000 32 :=
  select (cmpi .slt r (broadcastInDim S800000 ![] bcast_S_S800000 (constantI S_ 32 0#32)))
    (addi r (broadcastInDim S800000 ![] bcast_S_S800000 (constantI S_ 32 50000#32))) r

/-- A vector of node numbers as an index column (%9, %16, %24, %31, %44). -/
def col (r : IVec S800000 32) : IVec S800000x1 32 := broadcastInDim S800000x1 ![0] bcast_S800000_S800000x1_0 r

/-! ## The four gathers and the scatter's index column -/

/-- The target nodes' coordinates, one row per edge (%10). -/
def pdst (pos : FVec F S50000x3 .f32) (ei : IVec S2x800000 32) : FVec F S800000x3 .f32 :=
  Host.gather gather_S50000x3_S800000x1_S800000x3_1_0_n_n_0_1_13 pos (col (wrap (dstRaw ei)))

/-- The source nodes' coordinates, one row per edge (%17). -/
def psrc (pos : FVec F S50000x3 .f32) (ei : IVec S2x800000 32) : FVec F S800000x3 .f32 :=
  Host.gather gather_S50000x3_S800000x1_S800000x3_1_0_n_n_0_1_13 pos (col (wrap (srcRaw ei)))

/-- The source nodes' features, one row per edge (%25). -/
def xsrc (x : FVec F S50000x128 .f32) (ei : IVec S2x800000 32) : FVec F S800000x128 .f32 :=
  Host.gather gather_S50000x128_S800000x1_S800000x128_1_0_n_n_0_1_1128 x (col (wrap (srcRaw ei)))

/-- The target nodes' features, one row per edge (%32). -/
def xdst (x : FVec F S50000x128 .f32) (ei : IVec S2x800000 32) : FVec F S800000x128 .f32 :=
  Host.gather gather_S50000x128_S800000x1_S800000x128_1_0_n_n_0_1_1128 x (col (wrap (dstRaw ei)))

/-- The raw target node numbers as the scatter's index column (%44): not wrapped. -/
def dstcol (ei : IVec S2x800000 32) : IVec S800000x1 32 := col (dstRaw ei)

/-- The coordinate differences, target minus source (%18). -/
def rel (pos : FVec F S50000x3 .f32) (ei : IVec S2x800000 32) : FVec F S800000x3 .f32 := subf (pdst pos ei) (psrc pos ei)

/-! ## The edge perceptron and the aggregation -/

/-- The 291-wide edge rows (%33). -/
def edgeCat (xs xd : FVec F S800000x128 .f32) (ea : FVec F S800000x32 .f32) (rl : FVec F S800000x3 .f32) :
    FVec F S800000x291 .f32 :=
  concatenate S800000x291 1 [⟨S800000x128, xs⟩, ⟨S800000x128, xd⟩, ⟨S800000x32, ea⟩, ⟨S800000x3, rl⟩]
    concatenates_S800000x128_S800000x128_S800000x32_S800000x3_S800000x291_d1

/-- A bias vector down the 800000 edge rows (%36, %41). -/
def biasE (b : FVec F S128 .f32) : FVec F S800000x128 .f32 :=
  broadcastInDim S800000x128 ![0, 1] bcast_S1x128_S800000x128_0_1 (broadcastInDim S1x128 ![1] bcast_S128_S1x128_1 b)

/-- A bias vector down the 50000 node rows (%49, %54, %70, %73). -/
def biasN (b : FVec F S128 .f32) : FVec F S50000x128 .f32 :=
  broadcastInDim S50000x128 ![0, 1] bcast_S1x128_S50000x128_0_1 (broadcastInDim S1x128 ![1] bcast_S128_S1x128_1 b)

/-- The edge perceptron's hidden rows, rectified (%38). -/
def hidE (cat : FVec F S800000x291 .f32) (W1 : FVec F S291x128 .f32) (b1 : FVec F S128 .f32) : FVec F S800000x128 .f32 :=
  maximumf (addf (Host.dotGeneral dot_S800000x291_S291x128_S800000x128_1_0_0_1_n_n none cat W1) (biasE b1))
    (broadcastInDim S800000x128 ![] bcast_S_S800000x128 (constant S_ .f32 0x00000000#32))

/-- The edge messages (%42). -/
def msg (h : FVec F S800000x128 .f32) (W2 : FVec F S128x128 .f32) (b2 : FVec F S128 .f32) : FVec F S800000x128 .f32 :=
  addf (Host.dotGeneral dot_S800000x128_S128x128_S800000x128_1_0_0_1_n_n none h W2) (biasE b2)

/-- The messages added up at their target nodes (%45). -/
def agg (dc : IVec S800000x1 32) (m : FVec F S800000x128 .f32) : FVec F S50000x128 .f32 :=
  Host.scatterAdd scatter_S50000x128_S800000x1_S800000x128_1_0_0_1
    (broadcastInDim S50000x128 ![] bcast_S_S50000x128 (constant S_ .f32 0x00000000#32)) dc m

/-! ## The node perceptron and the residual -/

/-- The 256-wide node rows (%46). -/
def nodeCat (x a : FVec F S50000x128 .f32) : FVec F S50000x256 .f32 :=
  concatenate S50000x256 1 [⟨S50000x128, x⟩, ⟨S50000x128, a⟩] concatenates_S50000x128_S50000x128_S50000x256_d1

/-- The node perceptron's hidden rows before the rectifier (%50). -/
def preN (cat : FVec F S50000x256 .f32) (W1 : FVec F S256x128 .f32) (b1 : FVec F S128 .f32) : FVec F S50000x128 .f32 :=
  addf (Host.dotGeneral dot_S50000x256_S256x128_S50000x128_1_0_0_1_n_n none cat W1) (biasN b1)

/-- The rectifier on node rows (%51). -/
def reluN (h : FVec F S50000x128 .f32) : FVec F S50000x128 .f32 :=
  maximumf h (broadcastInDim S50000x128 ![] bcast_S_S50000x128 (constant S_ .f32 0x00000000#32))

/-- The node perceptron's output (%55). -/
def upd (h : FVec F S50000x128 .f32) (W2 : FVec F S128x128 .f32) (b2 : FVec F S128 .f32) : FVec F S50000x128 .f32 :=
  addf (Host.dotGeneral dot_S50000x128_S128x128_S50000x128_1_0_0_1_n_n none h W2) (biasN b2)

/-- The residual (%56). -/
def resid (x u : FVec F S50000x128 .f32) : FVec F S50000x128 .f32 := addf x u

/-! ## The row normalisation -/

/-- The rows' sums as a column (%58; the variance's %1 and %10). -/
def rowSum (y : FVec F S50000x128 .f32) : FVec F S50000x1 .f32 :=
  broadcastInDim S50000x1 ![0] bcast_S50000_S50000x1_0
    (Host.reduceAdd y (constant S_ .f32 0x00000000#32) reducesTo_S50000x128_S50000_d1 h_S_)

/-- The rows' means as a column (%60; the variance's %3). -/
def meanCol (y : FVec F S50000x128 .f32) : FVec F S50000x1 .f32 :=
  Host.divf (rowSum y) (broadcastInDim S50000x1 ![] bcast_S_S50000x1 (constant S_ .f32 0x43000000#32))

/-- A column along the 128 columns (%62, %67; the variance's %4). -/
def spread (c : FVec F S50000x1 .f32) : FVec F S50000x128 .f32 :=
  broadcastInDim S50000x128 ![0, 1] bcast_S50000x1_S50000x128_0_1 c

/-- The rows centred (%63; the variance's %5). -/
def centred (y : FVec F S50000x128 .f32) : FVec F S50000x128 .f32 := subf y (spread (meanCol y))

/-- The variance's divisor, `128 − float(0)` (its %8). -/
def dof : FVec F S_ .f32 := subf (constant S_ .f32 0x43000000#32) (sitofp .f32 (constantI S_ 32 0#32))

/-- The rows' variances as a column, under the guard on the divisor (%61). -/
def varCol (y : FVec F S50000x128 .f32) : FVec F S50000x1 .f32 :=
  select (broadcastInDim S50000x1 ![] bcast_S_S50000x1 (cmpf .ogt (dof (F := F)) (constant S_ .f32 0x00000000#32)))
    (Host.divf (rowSum (mulf (centred y) (centred y))) (broadcastInDim S50000x1 ![] bcast_S_S50000x1 dof))
    (broadcastInDim S50000x1 ![] bcast_S_S50000x1 (id (constant S_ .f32 0x7FC00000#32)))

/-- The normalised rows with gain and offset (%74). -/
def norm (y : FVec F S50000x128 .f32) (g b : FVec F S128 .f32) : FVec F S50000x128 .f32 :=
  addf (mulf (mulf (centred y)
      (spread (Host.rsqrt (addf (varCol y) (broadcastInDim S50000x1 ![] bcast_S_S50000x1 (constant S_ .f32 0x3727C5AC#32))))))
    (biasN g)) (biasN b)

/-! ## The layer -/

/-- The node perceptron's pre-activation from the arguments (%50): everything the first window computes. -/
def pre (x : FVec F S50000x128 .f32) (ei : IVec S2x800000 32) (ea : FVec F S800000x32 .f32) (pos : FVec F S50000x3 .f32)
    (mW1 : FVec F S291x128 .f32) (mb1 : FVec F S128 .f32) (mW2 : FVec F S128x128 .f32) (mb2 : FVec F S128 .f32)
    (uW1 : FVec F S256x128 .f32) (ub1 : FVec F S128 .f32) : FVec F S50000x128 .f32 :=
  preN (nodeCat x (agg (dstcol ei) (msg (hidE (edgeCat (xsrc x ei) (xdst x ei) ea (rel pos ei)) mW1 mb1) mW2 mb2))) uW1 ub1

/-- The rest of the layer from the pre-activation (%74): everything the second window computes. -/
def post (x p : FVec F S50000x128 .f32) (uW2 : FVec F S128x128 .f32) (ub2 g b : FVec F S128 .f32) : FVec F S50000x128 .f32 :=
  norm (resid x (upd (reluN p) uW2 ub2)) g b

attribute [local irreducible] Host.gather Host.scatterAdd Host.reduceAdd concatenate in
set_option maxHeartbeats 4000000 in  -- the two-way concatenate's operands are read by computation through the fifty-seven operations before it
set_option maxRecDepth 16384 in
/-- The first window's fold at its last buffer. -/
theorem window0_eq (V : Valuation τ sig (Elt F)) :
    after ops0 V (main_v50 : DevRef τ sig)
      = pre (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) := by
  after_results_simp
  rfl

attribute [local irreducible] Host.gather Host.scatterAdd Host.reduceAdd concatenate in
set_option maxRecDepth 8192 in
/-- The second window's fold at the result buffer, over any contents. -/
theorem window1_eq (W : Valuation τ sig (Elt F)) :
    after ops1 W (main_v74 : DevRef τ sig)
      = post (W (main_arg0 : DevRef τ sig)) (W (main_v50 : DevRef τ sig)) (W (main_arg10 : DevRef τ sig))
          (W (main_arg11 : DevRef τ sig)) (W (main_arg12 : DevRef τ sig)) (W (main_arg13 : DevRef τ sig)) := by
  after_results_simp
  rfl

/-- The result buffer after @main's 114 operations: the layer at the arguments' contents. -/
theorem out_eq (V : Valuation τ sig (Elt F)) :
    after ops V (main_v74 : DevRef τ sig)
      = post (V (main_arg0 : DevRef τ sig))
          (pre (V (main_arg0 : DevRef τ sig)) (V (main_arg1 : DevRef τ sig)) (V (main_arg2 : DevRef τ sig))
            (V (main_arg3 : DevRef τ sig)) (V (main_arg4 : DevRef τ sig)) (V (main_arg5 : DevRef τ sig))
            (V (main_arg6 : DevRef τ sig)) (V (main_arg7 : DevRef τ sig)) (V (main_arg8 : DevRef τ sig))
            (V (main_arg9 : DevRef τ sig)))
          (V (main_arg10 : DevRef τ sig)) (V (main_arg11 : DevRef τ sig)) (V (main_arg12 : DevRef τ sig))
          (V (main_arg13 : DevRef τ sig)) := by
  rw [after_ops, window1_eq, window0_eq, arg0_eq0, arg10_eq0, arg11_eq0, arg12_eq0, arg13_eq0]

end Cert.ReferenceIdeal.RefVals

end
-- ==== Proof.Algebra.lean ====
/-
  The two spellings of each perceptron agree: a sum over a concatenated axis is the sum of the sums over the pieces.
  Only commutativity and associativity of addition on the extended reals are used.
-/
import proofs.«158953_j29669634081214_2_alg».proof.Proof.Spec
import Mathlib.Algebra.BigOperators.Fin

noncomputable section

namespace Cert.Gnn

open scoped BigOperators

/-- A concatenated row into a matrix is the first piece into the upper rows plus the second piece into the lower rows. -/
theorem lin_cat2 {A B : Nat} (u : Fin A → EReal) (v : Fin B → EReal) (W : Fin (A + B) → Fin 128 → EReal)
    (j : Fin 128) :
    lin (cat2 u v) W j
      = lin u (fun k => W (Fin.castAdd B k)) j + lin v (fun k => W (Fin.natAdd A k)) j := by
  unfold lin cat2
  rw [Fin.sum_univ_add]
  simp only [Fin.addCases_left, Fin.addCases_right]

/-- `lin` only reads the matrix through its entries. -/
theorem lin_congr {K : Nat} (v : Fin K → EReal) (W W' : Fin K → Fin 128 → EReal) (j : Fin 128)
    (h : ∀ k, W k j = W' k j) : lin v W j = lin v W' j := by
  unfold lin
  exact Finset.sum_congr rfl fun k _ => by rw [h k]

/-- The rectified hidden row only depends on the hidden row's entries. -/
theorem relu_congr (h h' : Fin 128 → EReal) (e : ∀ k, h k = h' k) : relu h = relu h' := by
  funext k; unfold relu; rw [e k]

/-- The edge perceptron: one 291-row into the whole first matrix, or its four pieces into four slabs
    (rows 0–127, 128–255, and 256–290 for the edge's 32 features followed by the 3 coordinate differences). -/
theorem msgCat_eq (xs xd : Fin 128 → EReal) (attr : Fin 32 → EReal) (rel : Fin 3 → EReal)
    (W1 : Fin 291 → Fin 128 → EReal) (b1 : Fin 128 → EReal) (W2 : Fin 128 → Fin 128 → EReal)
    (b2 : Fin 128 → EReal) (j : Fin 128) :
    msgCat (cat2 (cat2 (cat2 xs xd) attr) rel) W1 b1 W2 b2 j
      = msgSplit xs xd (cat2 attr rel)
          (fun k => W1 ⟨k.val, by omega⟩) (fun k => W1 ⟨128 + k.val, by omega⟩)
          (fun k => W1 ⟨256 + k.val, by omega⟩) b1 W2 b2 j := by
  unfold msgCat msgSplit
  congr 2
  apply relu_congr
  intro k
  congr 1
  rw [lin_cat2 (A := 128 + 128 + 32) (B := 3), lin_cat2 (A := 128 + 128) (B := 32), lin_cat2 (A := 128) (B := 128),
    lin_cat2 (A := 32) (B := 3), add_assoc (lin xs _ k + lin xd _ k)]
  rfl

/-- The node perceptron: one 256-row (own features, then summed messages) into the whole first matrix, or the two
    pieces into the two slabs (rows 0–127 and 128–255). -/
theorem updCat_eq (x a : Fin 128 → EReal) (W1 : Fin 256 → Fin 128 → EReal) (b1 : Fin 128 → EReal)
    (W2 : Fin 128 → Fin 128 → EReal) (b2 : Fin 128 → EReal) (j : Fin 128) :
    updCat x (cat2 x a) W1 b1 W2 b2 j
      = updSplit x a (fun k => W1 ⟨k.val, by omega⟩) (fun k => W1 ⟨128 + k.val, by omega⟩) b1 W2 b2 j := by
  unfold updCat updSplit
  congr 3
  apply relu_congr
  intro k
  congr 1
  rw [lin_cat2 (A := 128) (B := 128)]
  rfl

end Cert.Gnn

end
-- ==== Proof.HostRead.lean ====
/-
  The host-side layout operations around the two kernels, read at an index.

  Before the message kernel the program pads the per-edge arrays from 800000 to 802816 rows (a whole number of blocks
  of 4096), cuts the first weight matrix of 291 rows into its three slabs (rows 0–127, 128–255, 256–290), and puts the
  edge's 32 features and 3 coordinate differences side by side. Before the update kernel it cuts the 256-row first
  weight matrix into its two slabs and drops the last row of the 50001-row accumulator. Each of these reads, at an
  index, one entry of its operand:
  • a padded array reads the operand at a row below 800000 and the padding value at the 2816 rows after it;
  • a slab starting at row o reads the matrix at row o + k;
  • two arrays side by side along the second axis read the first below its width and the second after it;
  • a vector turned into a column reads its entry at the row.
-/
import proofs.«158953_j29669634081214_2_alg».proof.KernelIdeal
import proofs.«158953_j29669634081214_2_alg».proof.Proof.Spec
import Idealize.ShloMosaic.Lib.KernelVsHost
import Idealize.ShloMosaic.Lib.ValueLayout
import Idealize.ShloMosaic.Lib.Pipeline.Value

noncomputable section

namespace Cert.Gnn.HostRead

open Idealize.ShloMosaic Idealize.ShloMosaic.ValueIdx Cert.KernelIdeal

variable {α : Type}

/-! ## Padding 800000 rows to 802816 -/

/-- The padded 802816×128 array at a row below 800000 is the operand there. -/
theorem pad_rows128_inside (x : S800000x128.Idx → α) (v : S_.Idx → α)
    (h : S800000x128.Pads (![0, 0] : Fin 2 → Nat) ![2816, 0] ![0, 0] S802816x128) (hu : 0 < S_.numel)
    (e : Fin 800000) (k : Fin 128) :
    pad S802816x128 ![0, 0] ![2816, 0] ![0, 0] x v h hu (ix2 (⟨e.val, by omega⟩ : Fin 802816) k) = x (ix2 e k) :=
  pad_apply_of_inside _ _ _ x v h hu _ (ix2 e k) (fun a => by
    match a with
    | ⟨0, _⟩ => show e.val = 0 + e.val * (0 + 1); omega
    | ⟨1, _⟩ => show k.val = 0 + k.val * (0 + 1); omega)

/-- The padded 802816×35 array at a row below 800000 is the operand there. -/
theorem pad_rows35_inside (x : S800000x35.Idx → α) (v : S_.Idx → α)
    (h : S800000x35.Pads (![0, 0] : Fin 2 → Nat) ![2816, 0] ![0, 0] S802816x35) (hu : 0 < S_.numel)
    (e : Fin 800000) (k : Fin 35) :
    pad S802816x35 ![0, 0] ![2816, 0] ![0, 0] x v h hu (ix2 (⟨e.val, by omega⟩ : Fin 802816) k) = x (ix2 e k) :=
  pad_apply_of_inside _ _ _ x v h hu _ (ix2 e k) (fun a => by
    match a with
    | ⟨0, _⟩ => show e.val = 0 + e.val * (0 + 1); omega
    | ⟨1, _⟩ => show k.val = 0 + k.val * (0 + 1); omega)

/-- The padded vector of 802816 entries at an entry below 800000 is the operand there. -/
theorem pad_vec_inside (x : S800000.Idx → α) (v : S_.Idx → α)
    (h : S800000.Pads (![0] : Fin 1 → Nat) ![2816] ![0] S802816) (hu : 0 < S_.numel) (e : Fin 800000) :
    pad S802816 ![0] ![2816] ![0] x v h hu (ix1 (⟨e.val, by omega⟩ : Fin 802816)) = x (ix1 e) :=
  pad_apply_of_inside _ _ _ x v h hu _ (ix1 e) (fun a => by
    match a with
    | ⟨0, _⟩ => show e.val = 0 + e.val * (0 + 1); omega)

/-- The padded vector of 802816 entries at one of the 2816 entries after the operand is the padding value. -/
theorem pad_vec_outside (x : S800000.Idx → α) (v : S_.Idx → α)
    (h : S800000.Pads (![0] : Fin 1 → Nat) ![2816] ![0] S802816) (hu : 0 < S_.numel) (e' : Fin 2816) :
    pad S802816 ![0] ![2816] ![0] x v h hu (ix1 (⟨800000 + e'.val, by omega⟩ : Fin 802816)) = v ix0 := by
  refine (pad_apply_of_not_inside _ _ _ x v h hu _ (⟨0, Nat.one_pos⟩ : Fin S800000.rank) ?_).trans
    (congrArg v (eq_ix0 _))
  rintro ⟨_, _, h3⟩
  have h4 : (800000 + e'.val - 0) / 1 < 800000 := h3
  omega

/-! ## The slabs of the two first-layer weight matrices, and the accumulator without its last row -/

/-- Rows 0–127 of the 291-row matrix. -/
theorem slab291_at0 (x : S291x128.Idx → α) (h : S291x128.Slices ![0, 0] S128x128) (k : Fin 128) (j : Fin 128) :
    extractStridedSlice S128x128 ![0, 0] x h (ix2 k j) = x (ix2 (⟨k.val, by omega⟩ : Fin 291) j) :=
  slice2_axis0_apply 0 x h k j _ (Nat.zero_add _).symm

/-- Rows 128–255 of the 291-row matrix. -/
theorem slab291_at128 (x : S291x128.Idx → α) (h : S291x128.Slices ![128, 0] S128x128) (k : Fin 128) (j : Fin 128) :
    extractStridedSlice S128x128 ![128, 0] x h (ix2 k j) = x (ix2 (⟨128 + k.val, by omega⟩ : Fin 291) j) :=
  slice2_axis0_apply 128 x h k j _ rfl

/-- Rows 256–290 of the 291-row matrix. -/
theorem slab291_at256 (x : S291x128.Idx → α) (h : S291x128.Slices ![256, 0] S35x128) (k : Fin 35) (j : Fin 128) :
    extractStridedSlice S35x128 ![256, 0] x h (ix2 k j) = x (ix2 (⟨256 + k.val, by omega⟩ : Fin 291) j) :=
  slice2_axis0_apply 256 x h k j _ rfl

/-- Rows 0–127 of the 256-row matrix. -/
theorem slab256_at0 (x : S256x128.Idx → α) (h : S256x128.Slices ![0, 0] S128x128) (k : Fin 128) (j : Fin 128) :
    extractStridedSlice S128x128 ![0, 0] x h (ix2 k j) = x (ix2 (⟨k.val, by omega⟩ : Fin 256) j) :=
  slice2_axis0_apply 0 x h k j _ (Nat.zero_add _).symm

/-- Rows 128–255 of the 256-row matrix. -/
theorem slab256_at128 (x : S256x128.Idx → α) (h : S256x128.Slices ![128, 0] S128x128) (k : Fin 128) (j : Fin 128) :
    extractStridedSlice S128x128 ![128, 0] x h (ix2 k j) = x (ix2 (⟨128 + k.val, by omega⟩ : Fin 256) j) :=
  slice2_axis0_apply 128 x h k j _ rfl

/-- The first 50000 rows of the 50001-row accumulator. -/
theorem rows50000_of_50001 (x : S50001x128.Idx → α) (h : S50001x128.Slices ![0, 0] S50000x128) (n : Fin 50000)
    (c : Fin 128) :
    extractStridedSlice S50000x128 ![0, 0] x h (ix2 n c) = x (ix2 (⟨n.val, by omega⟩ : Fin 50001) c) :=
  slice2_axis0_apply 0 x h n c _ (Nat.zero_add _).symm

/-! ## The edge's 32 features and 3 coordinate differences side by side -/

/-- The 800000×35 array made of the 800000×32 and the 800000×3 arrays side by side reads, in row e, the two rows
    side by side. -/
theorem edge_row_cat (a : S800000x32.Idx → EReal) (b : S800000x3.Idx → EReal)
    (h : Shape.Concatenates [S800000x32, S800000x3] S800000x35 1) (e : Fin 800000) (k : Fin (32 + 3)) :
    concatenate S800000x35 1 [⟨S800000x32, a⟩, ⟨S800000x3, b⟩] h (ix2 e k)
      = Cert.Gnn.cat2 (fun k => a (ix2 e k)) (fun k => b (ix2 e k)) k := by
  refine Fin.addCases (fun i => ?_) (fun i => ?_) k
  · rw [Cert.Gnn.cat2, Fin.addCases_left]
    exact concatenate_pair_apply_left 1 a b h (ix2 e (Fin.castAdd 3 i)) rfl (ix2 e i) (fun bb => by
      match bb with
      | ⟨0, _⟩ => rfl
      | ⟨1, _⟩ => rfl)
  · rw [Cert.Gnn.cat2, Fin.addCases_right]
    exact concatenate_pair_apply_right 1 a b h (ix2 e (Fin.natAdd 32 i)) rfl rfl (ix2 e i) (fun bb hb => by
      match bb, hb with
      | ⟨0, _⟩, _ => rfl
      | ⟨1, _⟩, hb => exact absurd (Fin.ext rfl) hb) (by show i.val + 32 = 32 + i.val; omega)

/-! ## A vector as a column -/

/-- The 802816-vector turned into a column reads, at (e, u), its entry e. -/
theorem col_of_vec (v : S802816.Idx → α) (h : S802816.BroadcastsInDim S802816x1 (![0] : Fin 1 → Fin S802816x1.rank))
    (e : Fin 802816) (u : Fin 1) :
    broadcastInDim S802816x1 ![0] h v (ix2 e u) = v (ix1 e) :=
  broadcastInDim_apply _ h v (ix2 e u) (ix1 e) (fun a => by
    match a with
    | ⟨0, _⟩ =>
      show e.val = if (802816 : Nat) = 1 then 0 else e.val
      rw [if_neg (by decide)])

end Cert.Gnn.HostRead

end
-- ==== Proof.PadSum.lean ====
/-
  The sum over the padded edge axis, and the row the padded edges are sent to.

  The per-edge arrays are padded from 800000 to 802816 rows. A sum over all 802816 rows of a function that vanishes on
  the 2816 rows of padding is the sum over the first 800000 rows: the index set splits into the two ranges, and the
  second range contributes zero. The padded edges carry the target index 50000, which is not the index of any of the
  50000 nodes, so they only ever touch the extra row of the accumulator.
-/
import proofs.«158953_j29669634081214_2_alg».proof.Proof.Spec
import Mathlib.Algebra.BigOperators.Fin

noncomputable section

namespace Cert.Gnn

open scoped BigOperators

/-- A sum over the 802816 padded rows of a function that is zero on the last 2816 is the sum over the first 800000. -/
theorem sum_pad_split (f : Fin 802816 → EReal) (hz : ∀ e' : Fin 2816, f ⟨800000 + e'.val, by omega⟩ = 0) :
    ∑ e : Fin 802816, f e = ∑ e : Fin 800000, f ⟨e.val, by omega⟩ := by
  have h := Fin.sum_univ_add (M := EReal) (a := 800000) (b := 2816) f
  have h2 : ∑ i : Fin 2816, f (Fin.natAdd 800000 i) = 0 := Finset.sum_eq_zero (fun i _ => hz i)
  refine h.trans ?_
  rw [h2, add_zero]
  exact Finset.sum_congr rfl (fun i _ => rfl)

/-- The 32-bit word 50000 read as a signed integer is 50000. -/
theorem toInt_50000 : (50000#32 : BitVec 32).toInt = 50000 := by decide

/-- The index 50000 is not the index of any of the 50000 nodes. -/
theorem toInt_50000_ne (n : Fin 50000) : (50000#32 : BitVec 32).toInt ≠ (n.val : Int) := by
  rw [toInt_50000]
  have := n.isLt
  omega

end Cert.Gnn

end
-- ==== Proof.LibScatterRows.lean ====
/-
  A scatter-add of whole rows, read at an index.

  Adding the rows of an update matrix `upd : [R, D]` into the rows of an operand `x : [N, D]` at the row numbers held in
  an integer column `idx : [R, 1]` is a scatter whose row axis is the inserted (one-element) window axis named by the
  scatter index, and whose column axis is the one update window axis. Update element `(e, c)` lands at row `idx[e, 0]`
  — read as a signed integer and NOT clamped: an update whose row number is outside `[0, N − 1]` is dropped — and
  column `c`. So at the extended reals element `(r, c)` of the result is

      x[r, c] + ∑ over the update rows e with idx[e, 0] = r of upd[e, c].

  The rank-1 form (operand `[N]`, indices `[R, 1]`, updates `[R]`) has no window axis at all: update element `e` lands
  at position `idx[e, 0]`, and element `r` of the result is `x[r] + ∑ over e with idx[e, 0] = r of upd[e]`.
-/
import Idealize.ShloMosaic.PureOps
import Idealize.ShloMosaic.PureOps.Ideal
import Idealize.ShloMosaic.Lib.ValueIdx

namespace Cert.Lib.ScatterRows

open Idealize.ShloMosaic Idealize.ShloMosaic.ValueIdx
open scoped BigOperators

/-- WHERE AN UPDATE LANDS: update index `j` lands at operand index `i` exactly when on every operand axis the signed
    start plus the window coordinate is `i`'s coordinate (being a coordinate of `i`, that number is then in range). -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hEq a
      have := h a
      rw [← hEq]
      show _ = (((d.start j idx a + (d.window j a : Int)).toNat : Nat) : Int)
      omega
    · intro hEq
      funext a
      refine Fin.ext ?_
      show (d.start j idx a + (d.window j a : Int)).toNat = (i a).val
      have := hEq a
      omega
  · rename_i h
    constructor
    · intro hEq; exact absurd hEq (by simp)
    · intro hEq
      exfalso; apply h
      intro a
      have := hEq a
      have := (i a).isLt
      omega

/-! ## Rows of a matrix -/

/-- The dimension numbers of that scatter for an operand `[N, D]`, scatter indices `[R, 1]` and updates `[R, D]`. -/
abbrev rowsDims (N R D : Nat) (wf : ScatterDims.WF ⟨2, ![N, D]⟩ ⟨2, ![R, 1]⟩ ⟨2, ![R, D]⟩ [1] [0] [0] 1) :
    ScatterDims ⟨2, ![N, D]⟩ ⟨2, ![R, 1]⟩ ⟨2, ![R, D]⟩ where
  updateWindowDims := [1]
  insertedWindowDims := [0]
  scatterDimsToOperandDims := [0]
  indexVectorDim := 1
  wf := wf

section Rows
variable {N R D w : Nat} (wf : ScatterDims.WF ⟨2, ![N, D]⟩ ⟨2, ![R, 1]⟩ ⟨2, ![R, D]⟩ [1] [0] [0] 1)

/-- The row axis is the one the scatter index names: its start is the row number `idx[e, 0]`, read signed. -/
theorem rows_start_row (idx : IVec ⟨2, ![R, 1]⟩ w) (e : Fin R) (c' : Fin D) :
    (rowsDims N R D wf).start (ix2 e c') idx (0 : Fin 2) = (idx (ix2 e (0 : Fin 1))).toInt := by
  unfold ScatterDims.start
  rw [dif_pos (show (0 : Fin 2) ∈ (rowsDims N R D wf).scatterDimsToOperandDims from List.mem_singleton.mpr rfl)]
  have hsi : (rowsDims N R D wf).siIdx (ix2 e c') ⟨List.idxOf (0 : Fin 2) (rowsDims N R D wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The column axis is not named by the scatter index: its start is `0`. -/
theorem rows_start_col (idx : IVec ⟨2, ![R, 1]⟩ w) (j : (⟨2, ![R, D]⟩ : Shape).Idx) :
    (rowsDims N R D wf).start j idx (1 : Fin 2) = 0 := by
  unfold ScatterDims.start
  rw [dif_neg (show (1 : Fin 2) ∉ ([0] : List (Fin 2)) by decide)]

/-- The row axis is an inserted window axis: no window coordinate. -/
theorem rows_window_row (j : (⟨2, ![R, D]⟩ : Shape).Idx) : (rowsDims N R D wf).window j (0 : Fin 2) = 0 := by
  unfold ScatterDims.window
  have h0 : (0 : Fin 2) ∉ (List.finRange 2).filter (· ∉ ([0] : List (Fin 2))) := by decide
  rw [dif_neg (show (0 : Fin 2) ∉ (rowsDims N R D wf).sKept from h0)]

/-- The column axis is the window axis: its window coordinate is the update's column. -/
theorem rows_window_col (e : Fin R) (c' : Fin D) : (rowsDims N R D wf).window (ix2 e c') (1 : Fin 2) = c'.val := by
  unfold ScatterDims.window
  have h1 : (1 : Fin 2) ∈ (List.finRange 2).filter (· ∉ ([0] : List (Fin 2))) := by decide
  rw [dif_pos (show (1 : Fin 2) ∈ (rowsDims N R D wf).sKept from h1)]
  rfl

/-- WHERE UPDATE ELEMENT `(e, c')` LANDS: at `(r, c)` exactly when its row number `idx[e, 0]`, read signed, is `r` and its
    column is `c`. -/
theorem rows_resultIdx?_iff (idx : IVec ⟨2, ![R, 1]⟩ w) (e : Fin R) (c' : Fin D) (r : Fin N) (c : Fin D) :
    (rowsDims N R D wf).resultIdx? (ix2 e c') idx = some (ix2 r c)
      ↔ (idx (ix2 e (0 : Fin 1))).toInt = (r.val : Int) ∧ c' = c := by
  rw [resultIdx?_eq_some_iff]
  constructor
  · intro h
    have h0 := h (0 : Fin 2)
    have h1 := h (1 : Fin 2)
    rw [rows_start_row, rows_window_row] at h0
    rw [rows_start_col, rows_window_col] at h1
    have h0' : (idx (ix2 e (0 : Fin 1))).toInt + ((0 : Nat) : Int) = (r.val : Int) := h0
    have h1' : (0 : Int) + (c'.val : Int) = (c.val : Int) := h1
    exact ⟨by omega, Fin.ext (by omega)⟩
  · rintro ⟨h0, rfl⟩ a
    match a with
    | ⟨0, _⟩ =>
      show (rowsDims N R D wf).start (ix2 e c') idx (0 : Fin 2) + ((rowsDims N R D wf).window (ix2 e c') (0 : Fin 2) : Int)
        = (r.val : Int)
      rw [rows_start_row, rows_window_row]; omega
    | ⟨1, _⟩ =>
      show (rowsDims N R D wf).start (ix2 e c') idx (1 : Fin 2) + ((rowsDims N R D wf).window (ix2 e c') (1 : Fin 2) : Int)
        = (c'.val : Int)
      rw [rows_start_col, rows_window_col]; omega

/-- THE SCATTER-ADD READ AT `(r, c)`: the operand's element plus the sum, over the update rows whose row number
    `idx[e, 0]` (read signed) is `r`, of their elements in column `c`. -/
theorem scatterAdd_rows_apply (x : (⟨2, ![N, D]⟩ : Shape).Idx → EReal) (idx : IVec ⟨2, ![R, 1]⟩ w)
    (upd : (⟨2, ![R, D]⟩ : Shape).Idx → EReal) (r : Fin N) (c : Fin D) :
    Ideal.hostScatterAdd (rowsDims N R D wf) x idx upd (ix2 r c)
      = x (ix2 r c) + ∑ e : Fin R, if (idx (ix2 e (0 : Fin 1))).toInt = (r.val : Int) then upd (ix2 e c) else 0 := by
  unfold Ideal.hostScatterAdd
  congr 1
  rw [Finset.sum_filter, sum_idx2]
  refine Finset.sum_congr rfl fun e _ => ?_
  by_cases he : (idx (ix2 e (0 : Fin 1))).toInt = (r.val : Int)
  · rw [if_pos he]
    refine (Finset.sum_congr rfl fun c' _ =>
      if_congr ((rows_resultIdx?_iff wf idx e c' r c).trans (and_iff_right he)) rfl rfl).trans ?_
    exact (Finset.sum_ite_eq' Finset.univ c fun c' => upd (ix2 e c')).trans (if_pos (Finset.mem_univ c))
  · rw [if_neg he]
    exact Finset.sum_eq_zero fun c' _ =>
      if_neg fun h => he ((rows_resultIdx?_iff wf idx e c' r c).mp h).1

end Rows

/-! ## Elements of a vector -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of the rank-1 scatter: an operand `[N]`, scatter indices `[R, 1]` and updates `[R]`; the
    operand's one axis is the inserted window axis the scatter index names, and the updates have no window axis. -/
abbrev vecDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section Vec
variable {N R w : Nat} (wf : ScatterDims.WF ⟨1, ![N]⟩ ⟨2, ![R, 1]⟩ ⟨1, ![R]⟩ [] [0] [0] 1)

/-- The one operand axis is named by the scatter index: its start is the position `idx[e, 0]`, read signed. -/
theorem vec_start (idx : IVec ⟨2, ![R, 1]⟩ w) (e : Fin R) :
    (vecDims N R wf).start (ix1 e) idx (0 : Fin 1) = (idx (ix2 e (0 : Fin 1))).toInt := by
  unfold ScatterDims.start
  rw [dif_pos (show (0 : Fin 1) ∈ (vecDims N R wf).scatterDimsToOperandDims from List.mem_singleton.mpr rfl)]
  have hsi : (vecDims N R wf).siIdx (ix1 e) ⟨List.idxOf (0 : Fin 1) (vecDims N R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is an inserted window axis: no window coordinate. -/
theorem vec_window (j : (⟨1, ![R]⟩ : Shape).Idx) : (vecDims N R wf).window j (0 : Fin 1) = 0 := by
  unfold ScatterDims.window
  have h0 : (0 : Fin 1) ∉ (List.finRange 1).filter (· ∉ ([0] : List (Fin 1))) := by decide
  rw [dif_neg (show (0 : Fin 1) ∉ (vecDims N R wf).sKept from h0)]

/-- WHERE UPDATE ELEMENT `e` LANDS: at `r` exactly when its position `idx[e, 0]`, read signed, is `r`. -/
theorem vec_resultIdx?_iff (idx : IVec ⟨2, ![R, 1]⟩ w) (e : Fin R) (r : Fin N) :
    (vecDims N R wf).resultIdx? (ix1 e) idx = some (ix1 r) ↔ (idx (ix2 e (0 : Fin 1))).toInt = (r.val : Int) := by
  rw [resultIdx?_eq_some_iff]
  constructor
  · intro h
    have h0 := h (0 : Fin 1)
    rw [vec_start, vec_window] at h0
    have h0' : (idx (ix2 e (0 : Fin 1))).toInt + ((0 : Nat) : Int) = (r.val : Int) := h0
    omega
  · intro h0 a
    obtain rfl : a = 0 := Subsingleton.elim _ _
    show (vecDims N R wf).start (ix1 e) idx (0 : Fin 1) + ((vecDims N R wf).window (ix1 e) (0 : Fin 1) : Int) = (r.val : Int)
    rw [vec_start, vec_window]; omega

/-- THE RANK-1 SCATTER-ADD READ AT `r`: the operand's element plus the sum of the update elements whose position
    `idx[e, 0]` (read signed) is `r`. -/
theorem scatterAdd_vec_apply (x : (⟨1, ![N]⟩ : Shape).Idx → EReal) (idx : IVec ⟨2, ![R, 1]⟩ w)
    (upd : (⟨1, ![R]⟩ : Shape).Idx → EReal) (r : Fin N) :
    Ideal.hostScatterAdd (vecDims N R wf) x idx upd (ix1 r)
      = x (ix1 r) + ∑ e : Fin R, if (idx (ix2 e (0 : Fin 1))).toInt = (r.val : Int) then upd (ix1 e) else 0 := by
  unfold Ideal.hostScatterAdd
  congr 1
  rw [Finset.sum_filter, sum_idx1]
  exact Finset.sum_congr rfl fun e _ => if_congr (vec_resultIdx?_iff wf idx e r) rfl rfl

end Vec

end Cert.Lib.ScatterRows
-- ==== Proof.Aggr.lean ====
/-
  The summed messages at one entry.

  Between the two calls the program adds every row of the 802816 message rows onto the row of a zero table of 50001
  rows that the edge's padded target number names, and drops the table's last row. The first 800000 padded target
  numbers are the edges' own; the last 2816 are the number 50000, which names the extra row only. So at node n and
  column c the summed messages are the sum, over the 800000 edges whose target number is n, of the edge's message at
  column c: the zero table contributes 0, and the 2816 rows of padding never land on a node's row.
-/
import proofs.«158953_j29669634081214_2_alg».proof.Proof.KerVals
import proofs.«158953_j29669634081214_2_alg».proof.Proof.LibScatterRows
import proofs.«158953_j29669634081214_2_alg».proof.Proof.HostRead
import proofs.«158953_j29669634081214_2_alg».proof.Proof.PadSum
import Idealize.ShloMosaic.PureOps.Ideal.Laws

noncomputable section

namespace Cert.Gnn.Aggr

open Idealize.ShloMosaic Idealize.ShloMosaic.ValueIdx Cert.KernelIdeal Cert.KernelIdeal.Facts₀ Cert.KernelIdeal.Facts
open Cert.Gnn.HostRead
open scoped BigOperators

/-- The program's scatter adds whole rows: its dimension numbers are the row scatter's. -/
theorem scatter_eq_rows :
    scatter_S50001x128_S802816x1_S802816x128_1_0_0_1
      = Cert.Lib.ScatterRows.rowsDims 50001 802816 128 scatter_S50001x128_S802816x1_S802816x128_1_0_0_1_wf := rfl

/-- Every entry of the table the messages are added onto is zero. -/
theorem zero_table_apply (h : S_.BroadcastsInDim S50001x128 (![] : Fin 0 → Fin S50001x128.rank)) (j : S50001x128.Idx) :
    broadcastInDim S50001x128 ![] h (constant (F := Ideal) S_ .f32 0x00000000#32) j = 0 :=
  (broadcastInDim_apply _ h _ j ix0 (fun a => a.elim0)).trans Ideal.ofBits_zero_f32

/-- The padded target numbers at an edge are the edge's own target number. -/
theorem padDst_inside (ei : IVec S2x800000 32) (e : Fin 800000) :
    KVals.padDst ei (ix1 (⟨e.val, by omega⟩ : Fin 802816)) = KVals.dstRaw ei (ix1 e) := by
  unfold KVals.padDst
  exact pad_vec_inside _ _ _ _ e

/-- The padded target numbers at a row of padding are the number 50000. -/
theorem padDst_outside (ei : IVec S2x800000 32) (e' : Fin 2816) :
    KVals.padDst ei (ix1 (⟨800000 + e'.val, by omega⟩ : Fin 802816)) = 50000#32 := by
  unfold KVals.padDst
  exact pad_vec_outside _ _ _ _ e'

/-- The host's scatter-add at the extended reals, read at an index, is the exact sum. -/
theorem hostScatterAdd_at {s si su : Shape} {w : Nat} (d : ScatterDims s si su) (x : FVec Ideal s .f32) (idx : IVec si w)
    (upd : FVec Ideal su .f32) (i : s.Idx) :
    Host.scatterAdd (F := Ideal) d x idx upd i = Ideal.hostScatterAdd d x idx upd i := rfl

/-- Entry (n, c) of the summed messages: the sum over the edges whose target is node n of the message at column c. -/
theorem aggr_apply (ei : IVec S2x800000 32) (msg : FVec Ideal S802816x128 .f32) (n : Fin 50000) (c : Fin 128) :
    KVals.aggr (F := Ideal) ei msg (ix2 n c)
      = ∑ e : Fin 800000, if (KVals.dstRaw ei (ix1 e)).toInt = (n.val : Int)
          then msg (ix2 (⟨e.val, by omega⟩ : Fin 802816) c) else 0 := by
  unfold KVals.aggr
  refine (rows50000_of_50001 _ _ n c).trans ?_
  refine (hostScatterAdd_at _ _ _ _ _).trans ?_
  rw [scatter_eq_rows]
  refine (Cert.Lib.ScatterRows.scatterAdd_rows_apply _ _ _ _ _ _).trans ?_
  rw [zero_table_apply, zero_add]
  refine (Cert.Gnn.sum_pad_split _ (fun e' => ?_)).trans (Finset.sum_congr rfl fun e _ => ?_)
  · beta_reduce
    rw [col_of_vec, padDst_outside]
    exact if_neg (Cert.Gnn.toInt_50000_ne n)
  · beta_reduce
    rw [col_of_vec, padDst_inside]

end Cert.Gnn.Aggr

end
-- ==== Proof.Entry.lean ====
/-
  The kernel program's final entry, in the concatenated spelling.

  Row n of the program's result is the normalised residual update of node n's features and node n's summed messages,
  each perceptron written with its weight matrix cut into slabs. The slabs are rows of the whole matrix, the padded
  per-edge arrays read the unpadded ones on the first 800000 rows, the edge's 35 numbers are its 32 features and 3
  coordinate differences side by side, and a sum over a concatenated axis is the sum of the sums over the pieces. So the
  entry is the same normalised update with each perceptron written as ONE concatenated row into ONE whole matrix, the
  summed messages being the sum, over the edges that point at node n, of the edge's message in that spelling.
-/
import proofs.«158953_j29669634081214_2_alg».proof.Proof.KerFuns
import proofs.«158953_j29669634081214_2_alg».proof.Proof.KerVals
import proofs.«158953_j29669634081214_2_alg».proof.Proof.Algebra
import proofs.«158953_j29669634081214_2_alg».proof.Proof.HostRead
import proofs.«158953_j29669634081214_2_alg».proof.Proof.PadSum
import proofs.«158953_j29669634081214_2_alg».proof.Proof.Aggr

noncomputable section

namespace Cert.Gnn.Entry

open Idealize.ShloMosaic Idealize.ShloMosaic.ValueIdx Cert.KernelIdeal Cert.KernelIdeal.KFuns Cert.KernelIdeal.KVals Cert.Gnn
open Cert.Gnn.HostRead Cert.Gnn.Aggr
open scoped BigOperators

/-- Node n's summed messages at column c: the sum, over the edges whose target is n, of the edge's message computed
    from ONE row of 291 numbers (source features, target features, edge features, coordinate differences). -/
def arow (X : FVec Ideal S50000x128 .f32) (ei : IVec S2x800000 32) (ea : FVec Ideal S800000x32 .f32)
    (pos : FVec Ideal S50000x3 .f32) (mW1 : FVec Ideal S291x128 .f32) (mb1 : FVec Ideal S128 .f32)
    (mW2 : FVec Ideal S128x128 .f32) (mb2 : FVec Ideal S128 .f32) (n : Fin 50000) (c : Fin 128) : EReal :=
  ∑ e : Fin 800000, if (dstRaw ei (ix1 e)).toInt = (n.val : Int) then
    msgCat (cat2 (cat2 (cat2 (rowOf (xsrc X ei) e) (rowOf (xdst X ei) e)) (rowOf ea e)) (rowOf (rel pos ei) e))
      (matOf mW1) (vecOf mb1) (matOf mW2) (vecOf mb2) c
  else 0

/-- The message table at (e, c): edge e's message, split spelling, at column c. -/
theorem G0_apply (XS XD : S802816x128.Idx → EReal) (EA : S802816x35.Idx → EReal) (Ws Wd : S128x128.Idx → EReal)
    (We : S35x128.Idx → EReal) (b1 : S128.Idx → EReal) (W2 : S128x128.Idx → EReal) (b2 : S128.Idx → EReal)
    (e : Fin 802816) (c : Fin 128) :
    G0 XS XD EA Ws Wd We b1 W2 b2 (ix2 e c)
      = msgSplit (rowOf XS e) (rowOf XD e) (rowOf EA e) (matOf Ws) (matOf Wd) (matOf We) (vecOf b1) (matOf W2) (vecOf b2) c :=
  rfl

/-- The final table at (n, j): node n's normalised update, split spelling, at column j. -/
theorem G1_apply (X A : S50000x128.Idx → EReal) (Wx Wa : S128x128.Idx → EReal) (b1 : S128.Idx → EReal)
    (W2 : S128x128.Idx → EReal) (b2 g b : S128.Idx → EReal) (n : Fin 50000) (j : Fin 128) :
    G1 X A Wx Wa b1 W2 b2 g b (ix2 n j)
      = lnorm (updSplit (rowOf X n) (rowOf A n) (matOf Wx) (matOf Wa) (vecOf b1) (matOf W2) (vecOf b2)) (vecOf g) (vecOf b) j :=
  rfl

/-- Row e of the padded 128-wide array is row e of the unpadded one. -/
theorem pad128_row (x : FVec Ideal S800000x128 .f32) (e : Fin 800000) :
    rowOf (pad128 x) (⟨e.val, by omega⟩ : Fin 802816) = rowOf x e :=
  funext fun k => pad_rows128_inside x _ _ _ e k

/-- Row e of the padded 35-wide array is row e of the unpadded one. -/
theorem pad35_row (x : FVec Ideal S800000x35 .f32) (e : Fin 800000) :
    rowOf (pad35 x) (⟨e.val, by omega⟩ : Fin 802816) = rowOf x e :=
  funext fun k => pad_rows35_inside x _ _ _ e k

/-- Edge e's 35 numbers are its 32 features and its 3 coordinate differences side by side. -/
theorem eaRel_row (ea : FVec Ideal S800000x32 .f32) (pos : FVec Ideal S50000x3 .f32) (ei : IVec S2x800000 32)
    (e : Fin 800000) : rowOf (eaRel ea pos ei) e = cat2 (rowOf ea e) (rowOf (rel pos ei) e) :=
  funext fun k => edge_row_cat ea (rel pos ei) _ e k

/-- The three slabs of the message perceptron's first matrix are its rows 0–127, 128–255 and 256–290. -/
theorem w1s_mat (W : FVec Ideal S291x128 .f32) : matOf (w1s W) = fun k => matOf W (⟨k.val, by omega⟩ : Fin 291) :=
  funext fun k => funext fun j => slab291_at0 W _ k j
theorem w1d_mat (W : FVec Ideal S291x128 .f32) : matOf (w1d W) = fun k => matOf W (⟨128 + k.val, by omega⟩ : Fin 291) :=
  funext fun k => funext fun j => slab291_at128 W _ k j
theorem w1e_mat (W : FVec Ideal S291x128 .f32) : matOf (w1e W) = fun k => matOf W (⟨256 + k.val, by omega⟩ : Fin 291) :=
  funext fun k => funext fun j => slab291_at256 W _ k j

/-- The two slabs of the update perceptron's first matrix are its rows 0–127 and 128–255. -/
theorem u1x_mat (W : FVec Ideal S256x128 .f32) : matOf (u1x W) = fun k => matOf W (⟨k.val, by omega⟩ : Fin 256) :=
  funext fun k => funext fun j => slab256_at0 W _ k j
theorem u1a_mat (W : FVec Ideal S256x128 .f32) : matOf (u1a W) = fun k => matOf W (⟨128 + k.val, by omega⟩ : Fin 256) :=
  funext fun k => funext fun j => slab256_at128 W _ k j

/-- Row e (an edge, not padding) of the message table is the edge's message from ONE row of 291 numbers. -/
theorem msg_row (X : FVec Ideal S50000x128 .f32) (ei : IVec S2x800000 32) (ea : FVec Ideal S800000x32 .f32)
    (pos : FVec Ideal S50000x3 .f32) (mW1 : FVec Ideal S291x128 .f32) (mb1 : FVec Ideal S128 .f32)
    (mW2 : FVec Ideal S128x128 .f32) (mb2 : FVec Ideal S128 .f32) (e : Fin 800000) (c : Fin 128) :
    G0 (pad128 (xsrc X ei)) (pad128 (xdst X ei)) (pad35 (eaRel ea pos ei)) (w1s mW1) (w1d mW1) (w1e mW1) mb1 mW2 mb2
        (ix2 (⟨e.val, by omega⟩ : Fin 802816) c)
      = msgCat (cat2 (cat2 (cat2 (rowOf (xsrc X ei) e) (rowOf (xdst X ei) e)) (rowOf ea e)) (rowOf (rel pos ei) e))
          (matOf mW1) (vecOf mb1) (matOf mW2) (vecOf mb2) c := by
  rw [msgCat_eq, G0_apply, pad128_row, pad128_row, pad35_row, eaRel_row, w1s_mat, w1d_mat, w1e_mat]

/-- Row n of the summed messages. -/
theorem aggr_row (X : FVec Ideal S50000x128 .f32) (ei : IVec S2x800000 32) (ea : FVec Ideal S800000x32 .f32)
    (pos : FVec Ideal S50000x3 .f32) (mW1 : FVec Ideal S291x128 .f32) (mb1 : FVec Ideal S128 .f32)
    (mW2 : FVec Ideal S128x128 .f32) (mb2 : FVec Ideal S128 .f32) (n : Fin 50000) :
    rowOf (aggr (F := Ideal) ei
        (G0 (pad128 (xsrc X ei)) (pad128 (xdst X ei)) (pad35 (eaRel ea pos ei)) (w1s mW1) (w1d mW1) (w1e mW1) mb1 mW2 mb2)) n
      = arow X ei ea pos mW1 mb1 mW2 mb2 n := by
  funext c
  unfold arow
  refine (aggr_apply ei _ n c).trans (Finset.sum_congr rfl fun e _ => ?_)
  rw [msg_row]

/-- THE ENTRY (n, j) of the kernel program's result. -/
theorem kernel_entry (X : FVec Ideal S50000x128 .f32) (ei : IVec S2x800000 32) (ea : FVec Ideal S800000x32 .f32)
    (pos : FVec Ideal S50000x3 .f32) (mW1 : FVec Ideal S291x128 .f32) (mb1 : FVec Ideal S128 .f32)
    (mW2 : FVec Ideal S128x128 .f32) (mb2 : FVec Ideal S128 .f32) (uW1 : FVec Ideal S256x128 .f32)
    (ub1 : FVec Ideal S128 .f32) (uW2 : FVec Ideal S128x128 .f32) (ub2 g b : FVec Ideal S128 .f32)
    (n : Fin 50000) (j : Fin 128) :
    G1 X (aggr (F := Ideal) ei
          (G0 (pad128 (xsrc X ei)) (pad128 (xdst X ei)) (pad35 (eaRel ea pos ei)) (w1s mW1) (w1d mW1) (w1e mW1) mb1 mW2 mb2))
        (u1x uW1) (u1a uW1) ub1 uW2 ub2 g b (ix2 n j)
      = lnorm (updCat (rowOf X n) (cat2 (rowOf X n) (arow X ei ea pos mW1 mb1 mW2 mb2 n)) (matOf uW1) (vecOf ub1)
          (matOf uW2) (vecOf ub2)) (vecOf g) (vecOf b) j := by
  rw [G1_apply, aggr_row, u1x_mat, u1a_mat]
  exact congrArg (fun Y => lnorm Y (vecOf g) (vecOf b) j) (funext fun j' => (updCat_eq _ _ _ _ _ _ j').symm)

end Cert.Gnn.Entry

end
-- ==== Proof.RefOps.lean ====
/-
  The reference's host operations read at an index, at the extended reals.

  One lemma per operation of the reference that is not elementwise, each over VARIABLES of the printed shapes, so
  that nothing here ever mentions a program's buffer:
  • a matrix product (`stablehlo.dot_general` contracting the left operand's second axis with the right operand's
    first) at entry (p, q) is the sum over k of left (p, k) times right (k, q): no accumulator, no rounding;
  • a bias vector broadcast to one row and then down every row reads, at (r, j), entry j of the vector;
  • a scalar broadcast to any shape reads the scalar; a vector of row results made a column and a column broadcast
    along the rows read the row's entry;
  • a sum of a row (`stablehlo.reduce` with `add` from the literal zero) at row n is the plain sum of the row's 128
    entries;
  • two arrays side by side (`stablehlo.concatenate` along the second axis) read, at (r, k), the spec's `cat2` of the
    two rows; four side by side the nested `cat2` of the four rows;
  • adding the rows of an update matrix into a zero matrix at the row numbers held in an index column
    (`stablehlo.scatter` with an `add` body) reads, at (n, c), the sum over the update rows whose row number is n of
    their entries in column c.
  Then the two literal facts the variance needs: the integer literal zero converted to a float is zero, and
  128 − 0 > 0, so the guard `where(128 − 0 > 0, sum / (128 − 0), nan)` is its first branch, `sum / 128`.
-/
import proofs.«158953_j29669634081214_2_alg».proof.Proof.Spec
import proofs.«158953_j29669634081214_2_alg».proof.Proof.Gen.ReferenceIdeal
import proofs.«158953_j29669634081214_2_alg».proof.Proof.LibDotRows
import proofs.«158953_j29669634081214_2_alg».proof.Proof.LibColumns
import proofs.«158953_j29669634081214_2_alg».proof.Proof.LibScatterRows
import Idealize.ShloMosaic.Lib.IdealHost
import Idealize.ShloMosaic.Lib.Pipeline.Value
import Idealize.ShloMosaic.Lib.KernelVsHost

noncomputable section

namespace Cert.ReferenceIdeal.RefOps

open Cert.ReferenceIdeal Cert.ReferenceIdeal.Gen Idealize.ShloMosaic Idealize.ShloMosaic.ValueIdx
open scoped BigOperators

variable {α : Type}

/-! ## Matrix products -/

section Dots
open Cert.Hand

theorem dot_edge1 (l : FVec Ideal S800000x291 .f32) (r : FVec Ideal S291x128 .f32) (p : Fin 800000) (q : Fin 128) :
    Host.dotGeneral (F := Ideal) dot_S800000x291_S291x128_S800000x128_1_0_0_1_n_n none l r (ix2 p q)
      = ∑ k : Fin 291, l (ix2 p k) * r (ix2 k q) := by
  refine (zero_add _).trans ?_
  dot_rows dot_S800000x291_S291x128_S800000x128_1_0_0_1_n_n S800000x291 S291x128 291

theorem dot_edge2 (l : FVec Ideal S800000x128 .f32) (r : FVec Ideal S128x128 .f32) (p : Fin 800000) (q : Fin 128) :
    Host.dotGeneral (F := Ideal) dot_S800000x128_S128x128_S800000x128_1_0_0_1_n_n none l r (ix2 p q)
      = ∑ k : Fin 128, l (ix2 p k) * r (ix2 k q) := by
  refine (zero_add _).trans ?_
  dot_rows dot_S800000x128_S128x128_S800000x128_1_0_0_1_n_n S800000x128 S128x128 128

theorem dot_node1 (l : FVec Ideal S50000x256 .f32) (r : FVec Ideal S256x128 .f32) (p : Fin 50000) (q : Fin 128) :
    Host.dotGeneral (F := Ideal) dot_S50000x256_S256x128_S50000x128_1_0_0_1_n_n none l r (ix2 p q)
      = ∑ k : Fin 256, l (ix2 p k) * r (ix2 k q) := by
  refine (zero_add _).trans ?_
  dot_rows dot_S50000x256_S256x128_S50000x128_1_0_0_1_n_n S50000x256 S256x128 256

theorem dot_node2 (l : FVec Ideal S50000x128 .f32) (r : FVec Ideal S128x128 .f32) (p : Fin 50000) (q : Fin 128) :
    Host.dotGeneral (F := Ideal) dot_S50000x128_S128x128_S50000x128_1_0_0_1_n_n none l r (ix2 p q)
      = ∑ k : Fin 128, l (ix2 p k) * r (ix2 k q) := by
  refine (zero_add _).trans ?_
  dot_rows dot_S50000x128_S128x128_S50000x128_1_0_0_1_n_n S50000x128 S128x128 128

end Dots

/-! ## Broadcasts -/

/-- A vector of 128 entries broadcast to one row reads, at (0, j), entry j. -/
theorem row_of_vec (b : S128.Idx → α) (h : S128.BroadcastsInDim S1x128 ![1]) (u : Fin 1) (j : Fin 128) :
    broadcastInDim S1x128 ![1] h b (ix2 u j) = b (ix1 j) :=
  broadcastInDim_apply ![1] h b (ix2 u j) (ix1 j) fun a => by
    match a with
    | ⟨0, _⟩ => rfl

/-- A bias vector broadcast to one row and then down `m` rows reads, at (r, j), entry j of the vector. -/
theorem bias_apply {m : Nat} (b : S128.Idx → α) (h1 : S128.BroadcastsInDim S1x128 ![1])
    (h2 : (⟨2, ![1, 128]⟩ : Shape).BroadcastsInDim ⟨2, ![m, 128]⟩ ![0, 1]) (r : Fin m) (j : Fin 128) :
    broadcastInDim ⟨2, ![m, 128]⟩ ![0, 1] h2 (broadcastInDim S1x128 ![1] h1 b) (ix2 r j) = b (ix1 j) :=
  (broadcastInDim_oneRow_apply h2 _ r j).trans (row_of_vec b h1 0 j)

/-- A vector of 50000 row results made a column reads, at (n, 0), entry n. -/
theorem col_of_vec (v : S50000.Idx → α) (h : S50000.BroadcastsInDim S50000x1 ![0]) (n : Fin 50000) (u : Fin 1) :
    broadcastInDim S50000x1 ![0] h v (ix2 n u) = v (ix1 n) :=
  broadcastInDim_apply ![0] h v (ix2 n u) (ix1 n) fun a => by
    match a with
    | ⟨0, _⟩ => rfl

/-- A column of 50000 row results broadcast along the 128 columns reads, at (n, j), the column's entry n. -/
theorem bcast_col (c : S50000x1.Idx → α) (h : S50000x1.BroadcastsInDim S50000x128 ![0, 1]) (n : Fin 50000) (j : Fin 128) :
    broadcastInDim S50000x128 ![0, 1] h c (ix2 n j) = c (ix2 n (0 : Fin 1)) :=
  broadcastInDim_apply ![0, 1] h c (ix2 n j) (ix2 n (0 : Fin 1)) fun a => by
    match a with
    | ⟨0, _⟩ => rfl
    | ⟨1, _⟩ => rfl

/-! ## A row's sum -/

/-- The host's sum of a 50000×128 array along its second axis from the literal zero, read at row n: the sum of the
    row's 128 entries. -/
theorem rowsum_apply (y : FVec Ideal S50000x128 .f32) (n : Fin 50000) :
    Host.reduceAdd (F := Ideal) y (constant (F := Ideal) S_ .f32 0x00000000#32) reducesTo_S50000x128_S50000_d1 h_S_ (ix1 n)
      = ∑ k : Fin 128, y (ix2 n k) := by
  have h : S50000x128.Reduces [1] S50000 := by decide
  refine (Ideal.hostReduceAdd_single reducesTo_S50000x128_S50000_d1 h y _ (ix1 n)).trans ?_
  refine (congrArg (· + _) Ideal.ofBits_zero_f32).trans ((zero_add _).trans ?_)
  exact congrArg (fun f => Finset.sum (Finset.univ : Finset (Fin 128)) f)
    (funext fun k => congrArg y (Cert.Columns.lift_row h n k))

/-! ## Arrays side by side -/

/-- Two rows side by side, at a position in the first. -/
theorem cat2_castAdd {A B : Nat} (u : Fin A → EReal) (v : Fin B → EReal) (i : Fin A) :
    Cert.Gnn.cat2 u v (Fin.castAdd B i) = u i := Fin.addCases_left i

/-- Two rows side by side, at a position in the second. -/
theorem cat2_natAdd {A B : Nat} (u : Fin A → EReal) (v : Fin B → EReal) (i : Fin B) :
    Cert.Gnn.cat2 u v (Fin.natAdd A i) = v i := Fin.addCases_right i

/-- The node rows' concatenate at an index in its first 128 columns reads the first array. -/
theorem cat_node_left (x a : FVec Ideal S50000x128 .f32) (j : S50000x256.Idx) (n : Fin 50000) (i : Fin 128)
    (h0 : (j 0).val = n.val) (h1 : (j 1).val = i.val) :
    concatenate S50000x256 1 [⟨S50000x128, x⟩, ⟨S50000x128, a⟩] concatenates_S50000x128_S50000x128_S50000x256_d1 j
      = x (ix2 n i) :=
  concatenate_pair_apply_left (t := S50000x256) (s₁ := S50000x128) (s₂ := S50000x128) 1 x a
    concatenates_S50000x128_S50000x128_S50000x256_d1 j rfl (ix2 n i) fun b => by
      match b with
      | ⟨0, _⟩ => exact h0.symm
      | ⟨1, _⟩ => exact h1.symm

/-- The node rows' concatenate at an index in its last 128 columns reads the second array. -/
theorem cat_node_right (x a : FVec Ideal S50000x128 .f32) (j : S50000x256.Idx) (n : Fin 50000) (i : Fin 128)
    (h0 : (j 0).val = n.val) (h1 : (j 1).val = 128 + i.val) :
    concatenate S50000x256 1 [⟨S50000x128, x⟩, ⟨S50000x128, a⟩] concatenates_S50000x128_S50000x128_S50000x256_d1 j
      = a (ix2 n i) :=
  concatenate_pair_apply_right (t := S50000x256) (s₁ := S50000x128) (s₂ := S50000x128) 1 x a
    concatenates_S50000x128_S50000x128_S50000x256_d1 j rfl rfl (ix2 n i)
    (fun b hb => by
      match b with
      | ⟨0, _⟩ => exact h0.symm
      | ⟨1, _⟩ => exact absurd rfl hb)
    (by show i.val + 128 = (j 1).val; omega)

/-- The node rows' concatenate: own features then summed messages, read at (n, k). -/
theorem cat_node_apply (x a : FVec Ideal S50000x128 .f32) (n : Fin 50000) (k : Fin (128 + 128)) :
    concatenate S50000x256 1 [⟨S50000x128, x⟩, ⟨S50000x128, a⟩] concatenates_S50000x128_S50000x128_S50000x256_d1
        (ix2 n (k : Fin 256))
      = Cert.Gnn.cat2 (fun c => x (ix2 n c)) (fun c => a (ix2 n c)) k := by
  refine Fin.addCases (fun i => ?_) (fun i => ?_) k
  · exact (cat_node_left x a _ n i rfl rfl).trans (cat2_castAdd (fun c => x (ix2 n c)) (fun c => a (ix2 n c)) i).symm
  · exact (cat_node_right x a _ n i rfl rfl).trans (cat2_natAdd (fun c => x (ix2 n c)) (fun c => a (ix2 n c)) i).symm

/-- The edge rows' concatenate read at an index whose column, the `pre` columns of the pieces before it less, is
    column i of piece `k`. The four pieces, one lemma each. -/
theorem cat_edge_piece0 (xs xd : FVec Ideal S800000x128 .f32) (at_ : FVec Ideal S800000x32 .f32)
    (rel : FVec Ideal S800000x3 .f32) (j : S800000x291.Idx) (e : Fin 800000) (i : Fin 128)
    (h0 : (j 0).val = e.val) (h1 : (j 1).val = i.val) :
    concatenate S800000x291 1 [⟨S800000x128, xs⟩, ⟨S800000x128, xd⟩, ⟨S800000x32, at_⟩, ⟨S800000x3, rel⟩]
        concatenates_S800000x128_S800000x128_S800000x32_S800000x3_S800000x291_d1 j = xs (ix2 e i) :=
  concatenate_apply_piece (t := S800000x291) 1
    [⟨S800000x128, xs⟩, ⟨S800000x128, xd⟩, ⟨S800000x32, at_⟩, ⟨S800000x3, rel⟩]
    concatenates_S800000x128_S800000x128_S800000x32_S800000x3_S800000x291_d1 j 0 (by simp) S800000x128 xs rfl rfl 0 rfl
    (ix2 e i)
    (fun b hb => by
      match b with
      | ⟨0, _⟩ => exact h0.symm
      | ⟨1, _⟩ => exact absurd rfl hb)
    (by show 0 + i.val = (j 1).val; omega)

theorem cat_edge_piece1 (xs xd : FVec Ideal S800000x128 .f32) (at_ : FVec Ideal S800000x32 .f32)
    (rel : FVec Ideal S800000x3 .f32) (j : S800000x291.Idx) (e : Fin 800000) (i : Fin 128)
    (h0 : (j 0).val = e.val) (h1 : (j 1).val = 128 + i.val) :
    concatenate S800000x291 1 [⟨S800000x128, xs⟩, ⟨S800000x128, xd⟩, ⟨S800000x32, at_⟩, ⟨S800000x3, rel⟩]
        concatenates_S800000x128_S800000x128_S800000x32_S800000x3_S800000x291_d1 j = xd (ix2 e i) :=
  concatenate_apply_piece (t := S800000x291) 1
    [⟨S800000x128, xs⟩, ⟨S800000x128, xd⟩, ⟨S800000x32, at_⟩, ⟨S800000x3, rel⟩]
    concatenates_S800000x128_S800000x128_S800000x32_S800000x3_S800000x291_d1 j 1 (by simp) S800000x128 xd rfl rfl 128 rfl
    (ix2 e i)
    (fun b hb => by
      match b with
      | ⟨0, _⟩ => exact h0.symm
      | ⟨1, _⟩ => exact absurd rfl hb)
    (by show 128 + i.val = (j 1).val; omega)

theorem cat_edge_piece2 (xs xd : FVec Ideal S800000x128 .f32) (at_ : FVec Ideal S800000x32 .f32)
    (rel : FVec Ideal S800000x3 .f32) (j : S800000x291.Idx) (e : Fin 800000) (i : Fin 32)
    (h0 : (j 0).val = e.val) (h1 : (j 1).val = 256 + i.val) :
    concatenate S800000x291 1 [⟨S800000x128, xs⟩, ⟨S800000x128, xd⟩, ⟨S800000x32, at_⟩, ⟨S800000x3, rel⟩]
        concatenates_S800000x128_S800000x128_S800000x32_S800000x3_S800000x291_d1 j = at_ (ix2 e i) :=
  concatenate_apply_piece (t := S800000x291) 1
    [⟨S800000x128, xs⟩, ⟨S800000x128, xd⟩, ⟨S800000x32, at_⟩, ⟨S800000x3, rel⟩]
    concatenates_S800000x128_S800000x128_S800000x32_S800000x3_S800000x291_d1 j 2 (by simp) S800000x32 at_ rfl rfl 256 rfl
    (ix2 e i)
    (fun b hb => by
      match b with
      | ⟨0, _⟩ => exact h0.symm
      | ⟨1, _⟩ => exact absurd rfl hb)
    (by show 256 + i.val = (j 1).val; omega)

theorem cat_edge_piece3 (xs xd : FVec Ideal S800000x128 .f32) (at_ : FVec Ideal S800000x32 .f32)
    (rel : FVec Ideal S800000x3 .f32) (j : S800000x291.Idx) (e : Fin 800000) (i : Fin 3)
    (h0 : (j 0).val = e.val) (h1 : (j 1).val = 288 + i.val) :
    concatenate S800000x291 1 [⟨S800000x128, xs⟩, ⟨S800000x128, xd⟩, ⟨S800000x32, at_⟩, ⟨S800000x3, rel⟩]
        concatenates_S800000x128_S800000x128_S800000x32_S800000x3_S800000x291_d1 j = rel (ix2 e i) :=
  concatenate_apply_piece (t := S800000x291) 1
    [⟨S800000x128, xs⟩, ⟨S800000x128, xd⟩, ⟨S800000x32, at_⟩, ⟨S800000x3, rel⟩]
    concatenates_S800000x128_S800000x128_S800000x32_S800000x3_S800000x291_d1 j 3 (by simp) S800000x3 rel rfl rfl 288 rfl
    (ix2 e i)
    (fun b hb => by
      match b with
      | ⟨0, _⟩ => exact h0.symm
      | ⟨1, _⟩ => exact absurd rfl hb)
    (by show 288 + i.val = (j 1).val; omega)

/-- The edge rows' concatenate: source features, target features, the edge's 32 own features, the 3 coordinate
    differences, read at (e, k). -/
theorem cat_edge_apply (xs xd : FVec Ideal S800000x128 .f32) (at_ : FVec Ideal S800000x32 .f32)
    (rel : FVec Ideal S800000x3 .f32) (e : Fin 800000) (k : Fin (128 + 128 + 32 + 3)) :
    concatenate S800000x291 1 [⟨S800000x128, xs⟩, ⟨S800000x128, xd⟩, ⟨S800000x32, at_⟩, ⟨S800000x3, rel⟩]
        concatenates_S800000x128_S800000x128_S800000x32_S800000x3_S800000x291_d1 (ix2 e (k : Fin 291))
      = Cert.Gnn.cat2 (Cert.Gnn.cat2 (Cert.Gnn.cat2 (fun c => xs (ix2 e c)) (fun c => xd (ix2 e c)))
          (fun c => at_ (ix2 e c))) (fun c => rel (ix2 e c)) k := by
  refine Fin.addCases (fun k3 => ?_) (fun i => ?_) k
  · refine Fin.addCases (fun k2 => ?_) (fun i => ?_) k3
    · refine Fin.addCases (fun i => ?_) (fun i => ?_) k2
      · refine (cat_edge_piece0 xs xd at_ rel _ e i rfl rfl).trans ?_
        rw [cat2_castAdd, cat2_castAdd, cat2_castAdd]
      · refine (cat_edge_piece1 xs xd at_ rel _ e i rfl rfl).trans ?_
        rw [cat2_castAdd, cat2_castAdd, cat2_natAdd]
    · refine (cat_edge_piece2 xs xd at_ rel _ e i rfl (by show 128 + 128 + i.val = 256 + i.val; omega)).trans ?_
      rw [cat2_castAdd, cat2_natAdd]
  · refine (cat_edge_piece3 xs xd at_ rel _ e i rfl (by show 128 + 128 + 32 + i.val = 288 + i.val; omega)).trans ?_
    rw [cat2_natAdd]

/-! ## The scatter-add of the edge messages onto the target nodes -/

/-- The host's scatter with an `add` body is, at the extended reals, the exact scatter-add. -/
theorem hostScatterAdd_eq {s si u : Shape} {w : Nat} (d : ScatterDims s si u) (x : FVec Ideal s .f32) (idx : IVec si w)
    (upd : FVec Ideal u .f32) : Host.scatterAdd (F := Ideal) d x idx upd = Ideal.hostScatterAdd d x idx upd := rfl

/-- The printed scatter's dimension numbers are those of a scatter of whole rows at an index column. -/
theorem scatter_dims_eq :
    scatter_S50000x128_S800000x1_S800000x128_1_0_0_1
      = Cert.Lib.ScatterRows.rowsDims 50000 800000 128 scatter_S50000x128_S800000x1_S800000x128_1_0_0_1_wf := rfl

/-- Adding the 800000 message rows into a zero 50000×128 matrix at the row numbers in the index column, read at
    (n, c): the sum, over the edges whose row number (read signed) is n, of their messages' entry c. -/
theorem agg_apply (idx : IVec S800000x1 32) (upd : FVec Ideal S800000x128 .f32) (n : Fin 50000) (c : Fin 128) :
    Host.scatterAdd (F := Ideal) scatter_S50000x128_S800000x1_S800000x128_1_0_0_1
        (broadcastInDim S50000x128 ![] bcast_S_S50000x128 (constant (F := Ideal) S_ .f32 0x00000000#32)) idx upd (ix2 n c)
      = ∑ e : Fin 800000, if (idx (ix2 e (0 : Fin 1))).toInt = (n.val : Int) then upd (ix2 e c) else 0 := by
  rw [hostScatterAdd_eq, scatter_dims_eq, Cert.Lib.ScatterRows.scatterAdd_rows_apply, broadcastInDim_scalar_apply,
    constant_apply, Ideal.ofBits_zero_f32, zero_add]

/-! ## The variance's guard -/

/-- The float literal 128.0 is the real 128. -/
theorem c128_eq : Cert.Gnn.c128 = ((128 : ℝ) : EReal) := by
  simp [Ideal.ofBits, Ideal.ieee, -EReal.coe_mul]; norm_num

/-- The integer literal zero converted to a float is zero. -/
theorem sitofp_zero : FloatOps.sitofp (F := Ideal) .f32 (0#32 : BitVec 32) = 0 := by
  show (((0#32 : BitVec 32).toInt : ℝ) : EReal) = 0
  simp

/-- 128 − 0 is 128. -/
theorem c128_sub_zero : Cert.Gnn.c128 - FloatOps.sitofp (F := Ideal) .f32 (0#32 : BitVec 32) = Cert.Gnn.c128 := by
  rw [sitofp_zero, sub_zero]

/-- 128 − 0 > 0: the guard's condition is true. -/
theorem guard_true :
    FloatOps.cmpf (F := Ideal) (φ := .f32) .ogt (Cert.Gnn.c128 - FloatOps.sitofp (F := Ideal) .f32 (0#32 : BitVec 32)) Cert.Gnn.zeroE = 1#1 := by
  rw [c128_sub_zero]
  show BitVec.ofBool (decide (Cert.Gnn.zeroE < Cert.Gnn.c128)) = 1#1
  have h : Cert.Gnn.zeroE < Cert.Gnn.c128 := by
    rw [c128_eq, show Cert.Gnn.zeroE = 0 from Ideal.ofBits_zero_f32]
    exact_mod_cast (by norm_num : (0 : ℝ) < 128)
  rw [decide_eq_true h]
  rfl

end Cert.ReferenceIdeal.RefOps

end
-- ==== Proof.RefRead.lean ====
/-
  The reference's result read at an index, at the extended reals.

  Row n of the result is the spec's normalised row: the node's own features plus the node perceptron of its
  features side by side with the messages summed at it, then mean, guarded variance, reciprocal square root, gain and
  offset (`result_apply`). The messages summed at node n are, entry by entry, the sum over the edges whose raw target
  number is n of the edge perceptron of the edge's 291 numbers (`arow`): the gathered source features, the gathered
  target features, the edge's own features, the gathered coordinate differences. The gathers and the index columns
  are left as the host operations' own terms of the arguments.

  Each stage is read at an index by the operation lemmas of the module beside this one; the literal zero a host
  sum starts from is removed, the variance's guard `128 − 0 > 0` is true, and its divisor `128 − 0` is 128.
-/
import proofs.«158953_j29669634081214_2_alg».proof.Proof.RefVals
import proofs.«158953_j29669634081214_2_alg».proof.Proof.RefOps

noncomputable section

namespace Cert.ReferenceIdeal.RefRead

open Cert.ReferenceIdeal Cert.ReferenceIdeal.Gen Cert.ReferenceIdeal.RefRun Cert.ReferenceIdeal.RefVals
  Cert.ReferenceIdeal.RefOps Idealize.ShloMosaic Idealize.ShloMosaic.ValueIdx Idealize.ShloMosaic.TcCoe Idealize.SL.Sem
  Idealize.ShloMosaic.StableHlo
open scoped BigOperators

/-- Row r of a rank-2 array. -/
def rowOf {R C : Nat} (X : (⟨2, ![R, C]⟩ : Shape).Idx → EReal) (r : Fin R) : Fin C → EReal := fun c => X (ix2 r c)

/-- A weight matrix as a function of its two coordinates. -/
def mat {K : Nat} (W : (⟨2, ![K, 128]⟩ : Shape).Idx → EReal) : Fin K → Fin 128 → EReal := fun k j => W (ix2 k j)

/-- A vector of 128 entries as a function of its coordinate. -/
def vec (b : S128.Idx → EReal) : Fin 128 → EReal := fun j => b (ix1 j)

/-! ## The edge perceptron -/

theorem hidE_apply (cat : FVec Ideal S800000x291 .f32) (W1 : FVec Ideal S291x128 .f32) (b1 : FVec Ideal S128 .f32)
    (e : Fin 800000) (k : Fin 128) :
    hidE cat W1 b1 (ix2 e k) = Cert.Gnn.relu (fun k' => Cert.Gnn.lin (rowOf cat e) (mat W1) k' + vec b1 k') k := by
  unfold hidE biasE
  rw [maximumf_apply, addf_apply, dot_edge1, bias_apply, broadcastInDim_scalar_apply, constant_apply]
  rfl

theorem hidE_row (cat : FVec Ideal S800000x291 .f32) (W1 : FVec Ideal S291x128 .f32) (b1 : FVec Ideal S128 .f32)
    (e : Fin 800000) :
    rowOf (hidE cat W1 b1) e = Cert.Gnn.relu (fun k' => Cert.Gnn.lin (rowOf cat e) (mat W1) k' + vec b1 k') :=
  funext fun k => hidE_apply cat W1 b1 e k

theorem msg_apply (h : FVec Ideal S800000x128 .f32) (W2 : FVec Ideal S128x128 .f32) (b2 : FVec Ideal S128 .f32)
    (e : Fin 800000) (c : Fin 128) :
    msg h W2 b2 (ix2 e c) = Cert.Gnn.lin (rowOf h e) (mat W2) c + vec b2 c := by
  unfold msg biasE
  rw [addf_apply, dot_edge2, bias_apply]
  rfl

/-- An edge's message is the spec's, of the edge's 291 numbers. -/
theorem message_apply (cat : FVec Ideal S800000x291 .f32) (W1 : FVec Ideal S291x128 .f32) (b1 : FVec Ideal S128 .f32)
    (W2 : FVec Ideal S128x128 .f32) (b2 : FVec Ideal S128 .f32) (e : Fin 800000) (c : Fin 128) :
    msg (hidE cat W1 b1) W2 b2 (ix2 e c) = Cert.Gnn.msgCat (rowOf cat e) (mat W1) (vec b1) (mat W2) (vec b2) c := by
  rw [msg_apply, hidE_row]
  rfl

/-- An edge's 291 numbers: source features, target features, own features, coordinate differences. -/
theorem edgeCat_row (xs xd : FVec Ideal S800000x128 .f32) (ea : FVec Ideal S800000x32 .f32) (rl : FVec Ideal S800000x3 .f32)
    (e : Fin 800000) :
    rowOf (edgeCat xs xd ea rl) e
      = Cert.Gnn.cat2 (Cert.Gnn.cat2 (Cert.Gnn.cat2 (rowOf xs e) (rowOf xd e)) (rowOf ea e)) (rowOf rl e) :=
  funext fun k => cat_edge_apply xs xd ea rl e k

/-! ## The node perceptron and the residual -/

theorem nodeCat_row (x a : FVec Ideal S50000x128 .f32) (n : Fin 50000) :
    rowOf (nodeCat x a) n = Cert.Gnn.cat2 (rowOf x n) (rowOf a n) :=
  funext fun k => cat_node_apply x a n k

theorem preN_apply (cat : FVec Ideal S50000x256 .f32) (W1 : FVec Ideal S256x128 .f32) (b1 : FVec Ideal S128 .f32)
    (n : Fin 50000) (k : Fin 128) :
    preN cat W1 b1 (ix2 n k) = Cert.Gnn.lin (rowOf cat n) (mat W1) k + vec b1 k := by
  unfold preN biasN
  rw [addf_apply, dot_node1, bias_apply]
  rfl

theorem reluN_apply (h : FVec Ideal S50000x128 .f32) (n : Fin 50000) (k : Fin 128) :
    reluN h (ix2 n k) = max (h (ix2 n k)) Cert.Gnn.zeroE := by
  unfold reluN
  rw [maximumf_apply, broadcastInDim_scalar_apply, constant_apply]

theorem upd_apply (h : FVec Ideal S50000x128 .f32) (W2 : FVec Ideal S128x128 .f32) (b2 : FVec Ideal S128 .f32)
    (n : Fin 50000) (j : Fin 128) :
    upd h W2 b2 (ix2 n j) = Cert.Gnn.lin (rowOf h n) (mat W2) j + vec b2 j := by
  unfold upd biasN
  rw [addf_apply, dot_node2, bias_apply]
  rfl

/-- A node's row before normalisation is the spec's, of its features and its 256 numbers. -/
theorem resid_row (x : FVec Ideal S50000x128 .f32) (cat : FVec Ideal S50000x256 .f32) (W1 : FVec Ideal S256x128 .f32)
    (b1 : FVec Ideal S128 .f32) (W2 : FVec Ideal S128x128 .f32) (b2 : FVec Ideal S128 .f32) (n : Fin 50000) :
    rowOf (resid x (upd (reluN (preN cat W1 b1)) W2 b2)) n
      = Cert.Gnn.updCat (rowOf x n) (rowOf cat n) (mat W1) (vec b1) (mat W2) (vec b2) := by
  have hh : rowOf (reluN (preN cat W1 b1)) n
      = Cert.Gnn.relu (fun k => Cert.Gnn.lin (rowOf cat n) (mat W1) k + vec b1 k) :=
    funext fun k => (reluN_apply _ n k).trans (by rw [preN_apply]; rfl)
  funext j
  show resid x (upd (reluN (preN cat W1 b1)) W2 b2) (ix2 n j) = _
  unfold resid
  rw [addf_apply, upd_apply, hh]
  rfl

/-! ## The row normalisation -/

theorem rowSum_apply (y : FVec Ideal S50000x128 .f32) (n : Fin 50000) :
    rowSum y (ix2 n (0 : Fin 1)) = ∑ k : Fin 128, y (ix2 n k) := by
  unfold rowSum
  rw [col_of_vec, rowsum_apply]

theorem meanCol_apply (y : FVec Ideal S50000x128 .f32) (n : Fin 50000) :
    meanCol y (ix2 n (0 : Fin 1)) = Cert.Gnn.mean (rowOf y n) := by
  unfold meanCol
  rw [hostDivf_apply, rowSum_apply, broadcastInDim_scalar_apply, constant_apply]
  rfl

theorem centred_apply (y : FVec Ideal S50000x128 .f32) (n : Fin 50000) (k : Fin 128) :
    centred y (ix2 n k) = rowOf y n k - Cert.Gnn.mean (rowOf y n) := by
  unfold centred spread
  rw [subf_apply, bcast_col, meanCol_apply]
  rfl

/-- The variance's divisor is 128. -/
theorem dof_eq : (dof (F := Ideal)) ix0 = Cert.Gnn.c128 := c128_sub_zero

/-- The variance's guard is true. -/
theorem dof_guard :
    FloatOps.cmpf (F := Ideal) (φ := .f32) .ogt ((dof (F := Ideal)) ix0) (Ideal.ofBits .f32 0x00000000#32) = 1#1 := guard_true

theorem varCol_apply (y : FVec Ideal S50000x128 .f32) (n : Fin 50000) :
    varCol y (ix2 n (0 : Fin 1))
      = Ideal.div (∑ k : Fin 128, (rowOf y n k - Cert.Gnn.mean (rowOf y n)) * (rowOf y n k - Cert.Gnn.mean (rowOf y n)))
          Cert.Gnn.c128 := by
  unfold varCol
  rw [select_apply, broadcastInDim_scalar_apply, cmpf_apply, constant_apply, dof_guard, select_one, hostDivf_apply,
    rowSum_apply, broadcastInDim_scalar_apply, dof_eq]
  refine congrArg (fun s => Ideal.div s Cert.Gnn.c128) (Finset.sum_congr rfl fun k _ => ?_)
  rw [mulf_apply, centred_apply]

theorem norm_apply (y : FVec Ideal S50000x128 .f32) (g b : FVec Ideal S128 .f32) (n : Fin 50000) (j : Fin 128) :
    RefVals.norm y g b (ix2 n j) = Cert.Gnn.lnorm (rowOf y n) (vec g) (vec b) j := by
  have hr : spread (Host.rsqrt (addf (varCol y)
        (broadcastInDim S50000x1 ![] bcast_S_S50000x1 (constant (F := Ideal) S_ .f32 0x3727C5AC#32)))) (ix2 n j)
      = Ideal.rsqrt (Ideal.div (∑ k : Fin 128, (rowOf y n k - Cert.Gnn.mean (rowOf y n)) * (rowOf y n k - Cert.Gnn.mean (rowOf y n)))
          Cert.Gnn.c128 + Cert.Gnn.epsE) := by
    unfold spread
    rw [bcast_col]
    show Ideal.rsqrt (varCol y (ix2 n (0 : Fin 1)) + _) = _
    rw [varCol_apply]
    rfl
  unfold RefVals.norm biasN
  rw [addf_apply, mulf_apply, mulf_apply, centred_apply, hr, bias_apply, bias_apply]
  rfl

/-! ## The layer -/

/-- The messages summed at node n: entry c is the sum, over the edges whose raw target number is n, of the edge
    perceptron's entry c of the edge's 291 numbers. -/
def arow (x : FVec Ideal S50000x128 .f32) (ei : IVec S2x800000 32) (ea : FVec Ideal S800000x32 .f32)
    (pos : FVec Ideal S50000x3 .f32) (mW1 : FVec Ideal S291x128 .f32) (mb1 : FVec Ideal S128 .f32)
    (mW2 : FVec Ideal S128x128 .f32) (mb2 : FVec Ideal S128 .f32) (n : Fin 50000) : Fin 128 → EReal := fun c =>
  ∑ e : Fin 800000, if (dstcol ei (ix2 e (0 : Fin 1))).toInt = (n.val : Int) then
    Cert.Gnn.msgCat
      (Cert.Gnn.cat2 (Cert.Gnn.cat2 (Cert.Gnn.cat2 (rowOf (xsrc x ei) e) (rowOf (xdst x ei) e)) (rowOf ea e))
        (rowOf (rel pos ei) e))
      (mat mW1) (vec mb1) (mat mW2) (vec mb2) c
  else 0

theorem agg_row (x : FVec Ideal S50000x128 .f32) (ei : IVec S2x800000 32) (ea : FVec Ideal S800000x32 .f32)
    (pos : FVec Ideal S50000x3 .f32) (mW1 : FVec Ideal S291x128 .f32) (mb1 : FVec Ideal S128 .f32)
    (mW2 : FVec Ideal S128x128 .f32) (mb2 : FVec Ideal S128 .f32) (n : Fin 50000) :
    rowOf (agg (dstcol ei) (msg (hidE (edgeCat (xsrc x ei) (xdst x ei) ea (rel pos ei)) mW1 mb1) mW2 mb2)) n
      = arow x ei ea pos mW1 mb1 mW2 mb2 n := by
  funext c
  show agg (dstcol ei) (msg (hidE (edgeCat (xsrc x ei) (xdst x ei) ea (rel pos ei)) mW1 mb1) mW2 mb2) (ix2 n c) = _
  unfold agg
  rw [agg_apply]
  unfold arow
  refine Finset.sum_congr rfl fun e _ => ?_
  rw [message_apply, edgeCat_row]

/-- The layer read at (n, j). -/
theorem layer_apply (x : FVec Ideal S50000x128 .f32) (ei : IVec S2x800000 32) (ea : FVec Ideal S800000x32 .f32)
    (pos : FVec Ideal S50000x3 .f32) (mW1 : FVec Ideal S291x128 .f32) (mb1 : FVec Ideal S128 .f32)
    (mW2 : FVec Ideal S128x128 .f32) (mb2 : FVec Ideal S128 .f32) (uW1 : FVec Ideal S256x128 .f32)
    (ub1 : FVec Ideal S128 .f32) (uW2 : FVec Ideal S128x128 .f32) (ub2 g b : FVec Ideal S128 .f32)
    (n : Fin 50000) (j : Fin 128) :
    RefVals.post x (RefVals.pre x ei ea pos mW1 mb1 mW2 mb2 uW1 ub1) uW2 ub2 g b (ix2 n j)
      = Cert.Gnn.lnorm
          (Cert.Gnn.updCat (rowOf x n) (Cert.Gnn.cat2 (rowOf x n) (arow x ei ea pos mW1 mb1 mW2 mb2 n))
            (mat uW1) (vec ub1) (mat uW2) (vec ub2))
          (vec g) (vec b) j := by
  unfold RefVals.post RefVals.pre
  rw [norm_apply, resid_row, nodeCat_row, agg_row]

/-- The result buffer after @main, read at (n, j), at the extended reals: the spec's normalised row. -/
theorem result_apply (V : Valuation τ sig (Elt Ideal)) (n : Fin 50000) (j : Fin 128) :
    after ops V (main_v74 : DevRef τ sig) (ix2 n j)
      = Cert.Gnn.lnorm
          (Cert.Gnn.updCat (rowOf (V (main_arg0 : DevRef τ sig)) n)
            (Cert.Gnn.cat2 (rowOf (V (main_arg0 : DevRef τ sig)) n)
              (arow (V (main_arg0 : DevRef τ sig)) (V (main_arg1 : DevRef τ sig)) (V (main_arg2 : DevRef τ sig))
                (V (main_arg3 : DevRef τ sig)) (V (main_arg4 : DevRef τ sig)) (V (main_arg5 : DevRef τ sig))
                (V (main_arg6 : DevRef τ sig)) (V (main_arg7 : DevRef τ sig)) n))
            (mat (V (main_arg8 : DevRef τ sig))) (vec (V (main_arg9 : DevRef τ sig)))
            (mat (V (main_arg10 : DevRef τ sig))) (vec (V (main_arg11 : DevRef τ sig))))
          (vec (V (main_arg12 : DevRef τ sig))) (vec (V (main_arg13 : DevRef τ sig))) j := by
  rw [out_eq]
  exact layer_apply _ _ _ _ _ _ _ _ _ _ _ _ _ _ n j

end Cert.ReferenceIdeal.RefRead

end
-- ==== Proof.Glue.lean ====
/-
  The two programs spell the same host values.

  Both programs slice the same two rows out of the edge table, wrap negative node numbers in the same way and gather the
  same rows of the same arrays; the shapes and the operations' side conditions are stated twice, once per program, but
  they are the same shapes and (being propositions) the same conditions. So each host value named on the reference's
  side is, as a whole array, the value of the same name on the kernel's side.
-/
import proofs.«158953_j29669634081214_2_alg».proof.Proof.KerVals
import proofs.«158953_j29669634081214_2_alg».proof.Proof.RefVals

noncomputable section

namespace Cert.Glue

open Idealize.ShloMosaic

variable {F : FTy → Type} [FloatOps F]

theorem srcRaw_eq (ei : IVec Cert.KernelIdeal.S2x800000 32) :
    Cert.ReferenceIdeal.RefVals.srcRaw ei = Cert.KernelIdeal.KVals.srcRaw ei := rfl
theorem dstRaw_eq (ei : IVec Cert.KernelIdeal.S2x800000 32) :
    Cert.ReferenceIdeal.RefVals.dstRaw ei = Cert.KernelIdeal.KVals.dstRaw ei := rfl
theorem xsrc_eq (x : FVec F Cert.KernelIdeal.S50000x128 .f32) (ei : IVec Cert.KernelIdeal.S2x800000 32) :
    Cert.ReferenceIdeal.RefVals.xsrc x ei = Cert.KernelIdeal.KVals.xsrc x ei := rfl
theorem xdst_eq (x : FVec F Cert.KernelIdeal.S50000x128 .f32) (ei : IVec Cert.KernelIdeal.S2x800000 32) :
    Cert.ReferenceIdeal.RefVals.xdst x ei = Cert.KernelIdeal.KVals.xdst x ei := rfl
theorem rel_eq (pos : FVec F Cert.KernelIdeal.S50000x3 .f32) (ei : IVec Cert.KernelIdeal.S2x800000 32) :
    Cert.ReferenceIdeal.RefVals.rel pos ei = Cert.KernelIdeal.KVals.rel pos ei := rfl

end Cert.Glue

end
-- ==== Proof.Bridge.lean ====
/-
  The reference's result is the kernel program's result, as whole arrays.

  Read at row `n` and column `j`, both are the normalised residual update of node `n` written with one concatenated row
  into one whole weight matrix per perceptron, the summed messages being the sum over the edges whose target number is
  `n` of the edge's message in the same spelling. The two readings name the gathered rows, the coordinate differences
  and the target numbers by the two programs' own host terms; those are the same terms, so the two sums are the same sum.
-/
import proofs.«158953_j29669634081214_2_alg».proof.Proof.Entry
import proofs.«158953_j29669634081214_2_alg».proof.Proof.RefRead
import proofs.«158953_j29669634081214_2_alg».proof.Proof.Glue
import Idealize.ShloMosaic.Lib.Pipeline.Value
import Idealize.ShloMosaic.Lib.ValueIdx

noncomputable section

namespace Cert.Bridge

open Idealize.ShloMosaic Idealize.ShloMosaic.ValueIdx Cert.KernelIdeal Cert.KernelIdeal.KVals Cert.KernelIdeal.KFuns
open scoped BigOperators

/-- The reference's column of raw target numbers at edge `e` is the target row of the edge table at `e`. -/
theorem dstcol_apply (ei : IVec S2x800000 32) (e : Fin 800000) :
    Cert.ReferenceIdeal.RefVals.dstcol ei (ix2 e (0 : Fin 1)) = dstRaw ei (ix1 e) := by
  rw [← Cert.Glue.dstRaw_eq]
  unfold Cert.ReferenceIdeal.RefVals.dstcol Cert.ReferenceIdeal.RefVals.col
  refine broadcastInDim_apply _ _ _ _ (ix1 e) (fun a => ?_)
  match a with
  | ⟨0, _⟩ => rfl

/-- The messages summed at node `n` are the same sum in both readings. -/
theorem arow_eq (x : FVec Ideal S50000x128 .f32) (ei : IVec S2x800000 32) (ea : FVec Ideal S800000x32 .f32)
    (pos : FVec Ideal S50000x3 .f32) (mW1 : FVec Ideal S291x128 .f32) (mb1 : FVec Ideal S128 .f32)
    (mW2 : FVec Ideal S128x128 .f32) (mb2 : FVec Ideal S128 .f32) (n : Fin 50000) :
    Cert.ReferenceIdeal.RefRead.arow x ei ea pos mW1 mb1 mW2 mb2 n = Cert.Gnn.Entry.arow x ei ea pos mW1 mb1 mW2 mb2 n := by
  funext c
  unfold Cert.ReferenceIdeal.RefRead.arow Cert.Gnn.Entry.arow
  refine Finset.sum_congr rfl fun e _ => ?_
  rw [dstcol_apply, Cert.Glue.xsrc_eq, Cert.Glue.xdst_eq, Cert.Glue.rel_eq]
  rfl

/-- THE TWO RESULTS ARE ONE ARRAY. -/
theorem result_eq (x : FVec Ideal S50000x128 .f32) (ei : IVec S2x800000 32) (ea : FVec Ideal S800000x32 .f32) (pos : FVec Ideal S50000x3 .f32)
    (mW1 : FVec Ideal S291x128 .f32) (mb1 : FVec Ideal S128 .f32) (mW2 : FVec Ideal S128x128 .f32) (mb2 : FVec Ideal S128 .f32)
    (uW1 : FVec Ideal S256x128 .f32) (ub1 : FVec Ideal S128 .f32) (uW2 : FVec Ideal S128x128 .f32) (ub2 g b : FVec Ideal S128 .f32) :
    Cert.ReferenceIdeal.RefVals.post x (Cert.ReferenceIdeal.RefVals.pre x ei ea pos mW1 mb1 mW2 mb2 uW1 ub1) uW2 ub2 g b
      = G1 x (aggr (F := Ideal) ei (G0 (pad128 (F := Ideal) (xsrc (F := Ideal) x ei)) (pad128 (F := Ideal) (xdst (F := Ideal) x ei)) (pad35 (F := Ideal) (eaRel (F := Ideal) ea pos ei))
          (w1s (F := Ideal) mW1) (w1d (F := Ideal) mW1) (w1e (F := Ideal) mW1) mb1 mW2 mb2)) (u1x (F := Ideal) uW1) (u1a (F := Ideal) uW1) ub1 uW2 ub2 g b := by
  funext i
  obtain ⟨n, j, rfl⟩ : ∃ (n : Fin 50000) (j : Fin 128), i = ix2 n j := ⟨i 0, i 1, eq_ix2 i⟩
  rw [Cert.ReferenceIdeal.RefRead.layer_apply, Cert.Gnn.Entry.kernel_entry, arow_eq]
  rfl

end Cert.Bridge

end
-- ==== Proof.lean ====
/-
  The certificate of the graph layer: the kernel program (two calls among host gathers, pads and a scatter-add) and the
  jnp reference compute the same result over the extended reals.

  What each side computes. Every edge `e` carries a message: a two-layer perceptron (a rectifier between the layers) of
  the 291 numbers made of the source node's features, the target node's features, the edge's own 32 features and the 3
  coordinate differences target − source. Every node `n` adds up the messages of the edges whose target number is `n`,
  passes its own features side by side with that sum through a second two-layer perceptron, adds the result to its
  features, and normalises the row: subtract the mean, divide by the root of the variance guarded by the literal nearest
  1e-5, multiply by the gain, add the offset.

  Where the two programs differ, and why it does not matter over the extended reals.
  * The reference multiplies one concatenated row into one weight matrix; the kernel multiplies each piece into its own
    slab of the matrix and adds. A sum over a concatenated axis is the sum of the sums over the pieces: commutativity
    and associativity of addition only, valid at the infinities too.
  * The kernel pads the edge axis from 800000 to 802816 rows and gives the extra rows the target number 50000, one past
    the last node; it sums into a table of 50001 rows and drops the last. A scatter-add ignores a target number outside
    the table, so in both programs row `n < 50000` receives exactly the messages of the true edges whose target number is
    `n`: the padded rows land on row 50000 only, and a true edge with target number 50000 lands there in the kernel and
    nowhere in the reference.
  * The kernel rounds matmul operands to bf16; over the extended reals a change of format is the identity.
  * Mean and variance divide by the same literal 128 on both sides (the reference's divisor is 128 − 0, and its guard
    128 − 0 > 0 is true).
  The gathers, the wrap-around of negative node numbers and the index columns are the same host operations of the same
  arguments in both programs and are never opened.

  The kernel's run is its frame with the result buffer named; the two calls' result arrays are read off the frame's
  proof data block by block; the reference's run is its list of host operations folded over the launch memory.
  No precondition is used beyond what the frames take: the equality holds for all extended-real inputs.
-/
import proofs.«158953_j29669634081214_2_alg».proof.Defs
import proofs.«158953_j29669634081214_2_alg».proof.Proof.Gen.Kernel
import proofs.«158953_j29669634081214_2_alg».proof.Proof.Gen.Kernel.Frame
import proofs.«158953_j29669634081214_2_alg».proof.Proof.Gen.KernelIdeal
import proofs.«158953_j29669634081214_2_alg».proof.Proof.Gen.KernelIdeal.Frame
import proofs.«158953_j29669634081214_2_alg».proof.Proof.Gen.ReferenceIdeal
import proofs.«158953_j29669634081214_2_alg».proof.Proof.Gen.Pre_finite_inputs
import proofs.«158953_j29669634081214_2_alg».proof.Proof.KerRun
import proofs.«158953_j29669634081214_2_alg».proof.Proof.KerHost
import proofs.«158953_j29669634081214_2_alg».proof.Proof.MsgPayload
import proofs.«158953_j29669634081214_2_alg».proof.Proof.UpdPayload
import proofs.«158953_j29669634081214_2_alg».proof.Proof.RefRun
import proofs.«158953_j29669634081214_2_alg».proof.Proof.RefVals
import proofs.«158953_j29669634081214_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem
open Cert.KernelIdeal.KVals Cert.KernelIdeal.KFuns

/-- The message body's arithmetic at an entry of a block. -/
theorem hpay0 : Cert.KernelIdeal.Reg0.PayloadAt :=
  fun v0 v3 v6 v9 v12 v15 v23 v30 v33 p q => Cert.Gnn.Payload.msg_payload_apply v0 v3 v6 v9 v12 v15 v23 v30 v33 p q

/-- The update body's arithmetic at an entry of a block. -/
theorem hpay1 : Cert.KernelIdeal.Reg1.PayloadAt :=
  fun v0 v1 v5 v8 v14 v21 v24 v45 v49 p q => Cert.Gnn.Payload.upd_payload_apply v0 v1 v5 v8 v14 v21 v24 v45 v49 p q

theorem frame_k : Cert.frame_Kernel := fun m ρ _ => Cert.Kernel.Gen.frame m ρ
theorem frame_ki : Cert.frame_KernelIdeal := fun m ρ _ => Cert.KernelIdeal.Gen.frame m ρ

open Cert.ReferenceIdeal.RefRun in
/-- The reference runs and leaves its arguments alone: its run, read at the argument buffers. -/
theorem frame_ri : Cert.frame_ReferenceIdeal := fun m ρ _ =>
  (θ_run Cert.ReferenceIdeal.defs _ _).mono (fun _ h c =>
    ⟨(h c _).trans (arg0_eq _), (h c _).trans (arg1_eq _), (h c _).trans (arg2_eq _), (h c _).trans (arg3_eq _),
     (h c _).trans (arg4_eq _), (h c _).trans (arg5_eq _), (h c _).trans (arg6_eq _), (h c _).trans (arg7_eq _),
     (h c _).trans (arg8_eq _), (h c _).trans (arg9_eq _), (h c _).trans (arg10_eq _), (h c _).trans (arg11_eq _),
     (h c _).trans (arg12_eq _), (h c _).trans (arg13_eq _)⟩)
    (run_main (F := Ideal) m ρ)

theorem preserves : Cert.preserves_Kernel_KernelIdeal := trivial

open Cert.ReferenceIdeal.RefRun in
/-- Both programs end with the same result: the update call's function of the node features, the summed messages and
    the weights (the kernel's run read through its frame), which the reference's folded operations equal. -/
theorem algebraic : Cert.algebraic_KernelIdeal_ReferenceIdeal := by
  intro m ρ m' ρ' _ hagree
  refine ⟨fun c => G1 (m ((c.tc : Thread Cert.KernelIdeal.nD Cert.KernelIdeal.τ).loc Cert.KernelIdeal.main_arg0)) (aggr (F := Ideal) (m ((c.tc : Thread Cert.KernelIdeal.nD Cert.KernelIdeal.τ).loc Cert.KernelIdeal.main_arg1)) (Cert.KernelIdeal.KHost.msgK m c))
      (u1x (F := Ideal) (m ((c.tc : Thread Cert.KernelIdeal.nD Cert.KernelIdeal.τ).loc Cert.KernelIdeal.main_arg8))) (u1a (F := Ideal) (m ((c.tc : Thread Cert.KernelIdeal.nD Cert.KernelIdeal.τ).loc Cert.KernelIdeal.main_arg8))) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.KHost.W12_v48 m ρ c hpay0 hpay1), (h c).2⟩)
      (Cert.KernelIdeal.KerRun.run (F := Ideal) m ρ)
  · refine (θ_run Cert.ReferenceIdeal.defs _ _).mono (fun r h c => ?_) (run_main (F := Ideal) m' ρ')
    obtain ⟨e0, e1, e2, e3, e4, e5, e6, e7, e8, e9, e10, e11, e12, e13⟩ := hagree c
    refine ⟨(h c _).trans ?_, (h c _).trans (arg0_eq _), (h c _).trans (arg1_eq _), (h c _).trans (arg2_eq _), (h c _).trans (arg3_eq _),
     (h c _).trans (arg4_eq _), (h c _).trans (arg5_eq _), (h c _).trans (arg6_eq _), (h c _).trans (arg7_eq _),
     (h c _).trans (arg8_eq _), (h c _).trans (arg9_eq _), (h c _).trans (arg10_eq _), (h c _).trans (arg11_eq _),
     (h c _).trans (arg12_eq _), (h c _).trans (arg13_eq _)⟩
    rw [Cert.ReferenceIdeal.RefVals.out_eq]
    show Cert.ReferenceIdeal.RefVals.post (F := Ideal) (m' ((c.tc : Thread Cert.ReferenceIdeal.nD Cert.ReferenceIdeal.τ).loc Cert.ReferenceIdeal.main_arg0))
      (Cert.ReferenceIdeal.RefVals.pre (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)))
      (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) = _
    rw [e0, e1, e2, e3, e4, e5, e6, e7, e8, e9, e10, e11, e12, e13]
    exact Cert.Bridge.result_eq _ _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
